-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S16x1x2x256 : Shape := ⟨4, ![16, 1, 2, 256]⟩
abbrev S1024x1024 : Shape := ⟨2, ![1024, 1024]⟩
abbrev S1024 : Shape := ⟨1, ![1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S16x1x2x256 : S_.BroadcastsInDim S16x1x2x256 (![] : Fin 0 → Fin S16x1x2x256.rank)
  reducesTo_S16x1x2x256_S_d0_1_2_3 : S16x1x2x256.ReducesTo [0, 1, 2, 3] S_

variable [Facts]

def fn_part5 {F : FTy → Type} [FloatOps F] (main_arg1 : IVec S16x1x2x256 32) (main_arg2 : IVec S16x1x2x256 32) (main_v83 : IVec S_ 1) (main_v84 : IVec S16x1x2x256 32) : IVec S_ 1 :=
  let main_v85 : IVec S16x1x2x256 1 := cmpi .sge main_arg1 main_v84
  let main_c_33 : IVec S_ 32 := constantI S_ 32 1024#32
  let main_v86 : IVec S16x1x2x256 32 := broadcastInDim S16x1x2x256 ![] bcast_S_S16x1x2x256 main_c_33
  let main_v87 : IVec S16x1x2x256 1 := cmpi .slt main_arg1 main_v86
  let main_v88 : IVec S16x1x2x256 1 := andi main_v85 main_v87
  let main_c_34 : IVec S_ 1 := constantI S_ 1 1#1
  let main_v89 : IVec S_ 1 := (fun x v => Host.reduce IntOp.andi x v reducesTo_S16x1x2x256_S_d0_1_2_3 h_S_) main_v88 main_c_34
  let main_v90 : IVec S_ 1 := andi main_v83 main_v89
  let main_c_35 : IVec S_ 32 := constantI S_ 32 4294966272#32
  let main_v91 : IVec S16x1x2x256 32 := broadcastInDim S16x1x2x256 ![] bcast_S_S16x1x2x256 main_c_35
  let main_v92 : IVec S16x1x2x256 1 := cmpi .sge main_arg2 main_v91
  let main_c_36 : IVec S_ 32 := constantI S_ 32 1024#32
  let main_v93 : IVec S16x1x2x256 32 := broadcastInDim S16x1x2x256 ![] bcast_S_S16x1x2x256 main_c_36
  let main_v94 : IVec S16x1x2x256 1 := cmpi .slt main_arg2 main_v93
  let main_v95 : IVec S16x1x2x256 1 := andi main_v92 main_v94
  let main_c_37 : IVec S_ 1 := constantI S_ 1 1#1
  let main_v96 : IVec S_ 1 := (fun x v => Host.reduce IntOp.andi x v reducesTo_S16x1x2x256_S_d0_1_2_3 h_S_) main_v95 main_c_37
  let main_v97 : IVec S_ 1 := andi main_v90 main_v96
  main_v97

def fn_part4 {F : FTy → Type} [FloatOps F] (main_arg1 : IVec S16x1x2x256 32) (main_arg2 : IVec S16x1x2x256 32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg16
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg17
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg18
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_c_32 : IVec S_ 32 := constantI S_ 32 4294966272#32
  let main_v84 : IVec S16x1x2x256 32 := broadcastInDim S16x1x2x256 ![] bcast_S_S16x1x2x256 main_c_32
  fn_part5 (F := F) main_arg1 main_arg2 main_v83 main_v84

def fn_part3 {F : FTy → Type} [FloatOps F] (main_arg1 : IVec S16x1x2x256 32) (main_arg2 : IVec S16x1x2x256 32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg13
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg14
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg15
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg1 main_arg2 main_arg16 main_arg17 main_arg18 main_v63 main_v67

def fn_part2 {F : FTy → Type} [FloatOps F] (main_arg1 : IVec S16x1x2x256 32) (main_arg2 : IVec S16x1x2x256 32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg9
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg10
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg11
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg12
  let main_cst_18 : FVec F S_ .f32 := constant S_ .f32 0x7F800000#32
  let main_v50 : FVec F S1024 .f32 := broadcastInDim S1024 ![] bcast_S_S1024 main_cst_18
  fn_part3 (F := F) main_arg1 main_arg2 main_arg13 main_arg14 main_arg15 main_arg16 main_arg17 main_arg18 main_v48 main_v49 main_v50

def fn_part1 {F : FTy → Type} [FloatOps F] (main_arg1 : IVec S16x1x2x256 32) (main_arg2 : IVec S16x1x2x256 32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg7
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg8
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg1 main_arg2 main_arg9 main_arg10 main_arg11 main_arg12 main_arg13 main_arg14 main_arg15 main_arg16 main_arg17 main_arg18 main_v33

def fn {F : FTy → Type} [FloatOps F] (main_arg0 : FVec F S16x1024x1024 .f32) (main_arg1 : IVec S16x1x2x256 32) (main_arg2 : IVec S16x1x2x256 32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S1024x1024 .f32 := Host.absf main_arg3
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg5
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg1 main_arg2 main_arg6 main_arg7 main_arg8 main_arg9 main_arg10 main_arg11 main_arg12 main_arg13 main_arg14 main_arg15 main_arg16 main_arg17 main_arg18 main_v13 main_v16
-- ==== Kernel.lean ====
abbrev S16x1024x1024 : Shape := ⟨3, ![16, 1024, 1024]⟩
abbrev S16x1x2x256 : Shape := ⟨4, ![16, 1, 2, 256]⟩
abbrev S1024x1024 : Shape := ⟨2, ![1024, 1024]⟩
abbrev S1024 : Shape := ⟨1, ![1024]⟩
abbrev S16x2x256 : Shape := ⟨3, ![16, 2, 256]⟩
abbrev S16x1x256 : Shape := ⟨3, ![16, 1, 256]⟩
abbrev S16x256 : Shape := ⟨2, ![16, 256]⟩
abbrev S16x256x1 : Shape := ⟨3, ![16, 256, 1]⟩
abbrev S_ : Shape := ⟨0, ![]⟩
abbrev S1 : Shape := ⟨1, ![1]⟩
abbrev S1x1x1 : Shape := ⟨3, ![1, 1, 1]⟩
abbrev S16x256x1024 : Shape := ⟨3, ![16, 256, 1024]⟩
abbrev S4096x1024 : Shape := ⟨2, ![4096, 1024]⟩
abbrev S1x4096x1024 : Shape := ⟨3, ![1, 4096, 1024]⟩
abbrev S2x4096x1024 : Shape := ⟨3, ![2, 4096, 1024]⟩
abbrev S1x1024x1024 : Shape := ⟨3, ![1, 1024, 1024]⟩
abbrev S2x1024x1024 : Shape := ⟨3, ![2, 1024, 1024]⟩
abbrev S1x1024 : Shape := ⟨2, ![1, 1024]⟩
abbrev S2x1024 : Shape := ⟨2, ![2, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩

abbrev nBuf : Space → Nat
  | .hbm => 172
  | .vmem => 22
  | .smem => 0
  | _ => 0

abbrev hbmTy0_0 (i : Nat) : BufTy := match i % 128 with
  | 0 => ⟨S16x1024x1024, .f32⟩
  | 1 => ⟨S16x1x2x256, .i32⟩
  | 2 => ⟨S16x1x2x256, .i32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S1024x1024, .f32⟩
  | 12 => ⟨S1024, .f32⟩
  | 13 => ⟨S1024x1024, .f32⟩
  | 14 => ⟨S1024, .f32⟩
  | 15 => ⟨S1024x1024, .f32⟩
  | 16 => ⟨S1024, .f32⟩
  | 17 => ⟨S1024x1024, .f32⟩
  | 18 => ⟨S1024, .f32⟩
  | 19 => ⟨S16x2x256, .i32⟩
  | 20 => ⟨S16x2x256, .i32⟩
  | 21 => ⟨S16x1x256, .i32⟩
  | 22 => ⟨S16x256, .i32⟩
  | 23 => ⟨S16x1x256, .i32⟩
  | 24 => ⟨S16x256, .i32⟩
  | 25 => ⟨S16x1x256, .i32⟩
  | 26 => ⟨S16x256, .i32⟩
  | 27 => ⟨S16x1x256, .i32⟩
  | 28 => ⟨S16x256, .i32⟩
  | 29 => ⟨S16x256x1, .i32⟩
  | 30 => ⟨S_, .i32⟩
  | 31 => ⟨S16x256x1, .i32⟩
  | 32 => ⟨S16x256x1, .i1⟩
  | 33 => ⟨S_, .i32⟩
  | 34 => ⟨S16x256x1, .i32⟩
  | 35 => ⟨S16x256x1, .i32⟩
  | 36 => ⟨S16x256x1, .i32⟩
  | 37 => ⟨S1, .i32⟩
  | 38 => ⟨S_, .i32⟩
  | 39 => ⟨S16x256x1, .i32⟩
  | 40 => ⟨S16x256x1, .i1⟩
  | 41 => ⟨S1x1x1, .i32⟩
  | 42 => ⟨S16x256x1, .i32⟩
  | 43 => ⟨S16x256x1, .i1⟩
  | 44 => ⟨S16x256x1, .i1⟩
  | 45 => ⟨S_, .i1⟩
  | 46 => ⟨S16x256, .i1⟩
  | 47 => ⟨S16x256x1024, .f32⟩
  | 48 => ⟨S16x256x1024, .i1⟩
  | 49 => ⟨S_, .f32⟩
  | 50 => ⟨S16x256x1024, .f32⟩
  | 51 => ⟨S16x256x1024, .f32⟩
  | 52 => ⟨S16x256x1, .i32⟩
  | 53 => ⟨S_, .i32⟩
  | 54 => ⟨S16x256x1, .i32⟩
  | 55 => ⟨S16x256x1, .i1⟩
  | 56 => ⟨S_, .i32⟩
  | 57 => ⟨S16x256x1, .i32⟩
  | 58 => ⟨S16x256x1, .i32⟩
  | 59 => ⟨S16x256x1, .i32⟩
  | 60 => ⟨S1, .i32⟩
  | 61 => ⟨S_, .i32⟩
  | 62 => ⟨S16x256x1, .i32⟩
  | 63 => ⟨S16x256x1, .i1⟩
  | 64 => ⟨S1x1x1, .i32⟩
  | 65 => ⟨S16x256x1, .i32⟩
  | 66 => ⟨S16x256x1, .i1⟩
  | 67 => ⟨S16x256x1, .i1⟩
  | 68 => ⟨S_, .i1⟩
  | 69 => ⟨S16x256, .i1⟩
  | 70 => ⟨S16x256x1024, .f32⟩
  | 71 => ⟨S16x256x1024, .i1⟩
  | 72 => ⟨S_, .f32⟩
  | 73 => ⟨S16x256x1024, .f32⟩
  | 74 => ⟨S16x256x1024, .f32⟩
  | 75 => ⟨S16x256x1, .i32⟩
  | 76 => ⟨S_, .i32⟩
  | 77 => ⟨S16x256x1, .i32⟩
  | 78 => ⟨S16x256x1, .i1⟩
  | 79 => ⟨S_, .i32⟩
  | 80 => ⟨S16x256x1, .i32⟩
  | 81 => ⟨S16x256x1, .i32⟩
  | 82 => ⟨S16x256x1, .i32⟩
  | 83 => ⟨S1, .i32⟩
  | 84 => ⟨S_, .i32⟩
  | 85 => ⟨S16x256x1, .i32⟩
  | 86 => ⟨S16x256x1, .i1⟩
  | 87 => ⟨S1x1x1, .i32⟩
  | 88 => ⟨S16x256x1, .i32⟩
  | 89 => ⟨S16x256x1, .i1⟩
  | 90 => ⟨S16x256x1, .i1⟩
  | 91 => ⟨S_, .i1⟩
  | 92 => ⟨S16x256, .i1⟩
  | 93 => ⟨S16x256x1024, .f32⟩
  | 94 => ⟨S16x256x1024, .i1⟩
  | 95 => ⟨S_, .f32⟩
  | 96 => ⟨S16x256x1024, .f32⟩
  | 97 => ⟨S16x256x1024, .f32⟩
  | 98 => ⟨S16x256x1, .i32⟩
  | 99 => ⟨S_, .i32⟩
  | 100 => ⟨S16x256x1, .i32⟩
  | 101 => ⟨S16x256x1, .i1⟩
  | 102 => ⟨S_, .i32⟩
  | 103 => ⟨S16x256x1, .i32⟩
  | 104 => ⟨S16x256x1, .i32⟩
  | 105 => ⟨S16x256x1, .i32⟩
  | 106 => ⟨S1, .i32⟩
  | 107 => ⟨S_, .i32⟩
  | 108 => ⟨S16x256x1, .i32⟩
  | 109 => ⟨S16x256x1, .i1⟩
  | 110 => ⟨S1x1x1, .i32⟩
  | 111 => ⟨S16x256x1, .i32⟩
  | 112 => ⟨S16x256x1, .i1⟩
  | 113 => ⟨S16x256x1, .i1⟩
  | 114 => ⟨S_, .i1⟩
  | 115 => ⟨S16x256, .i1⟩
  | 116 => ⟨S16x256x1024, .f32⟩
  | 117 => ⟨S16x256x1024, .i1⟩
  | 118 => ⟨S_, .f32⟩
  | 119 => ⟨S16x256x1024, .f32⟩
  | 120 => ⟨S16x256x1024, .f32⟩
  | 121 => ⟨S4096x1024, .f32⟩
  | 122 => ⟨S4096x1024, .f32⟩
  | 123 => ⟨S1x4096x1024, .f32⟩
  | 124 => ⟨S1x4096x1024, .f32⟩
  | 125 => ⟨S2x4096x1024, .f32⟩
  | 126 => ⟨S2x4096x1024, .bf16⟩
  | 127 => ⟨S4096x1024, .f32⟩
  | _ => ⟨S16x1024x1024, .f32⟩

abbrev hbmTy0_1 (i : Nat) : BufTy := match i % 128 with
  | 0 => ⟨S4096x1024, .f32⟩
  | 1 => ⟨S1x4096x1024, .f32⟩
  | 2 => ⟨S1x4096x1024, .f32⟩
  | 3 => ⟨S2x4096x1024, .f32⟩
  | 4 => ⟨S2x4096x1024, .bf16⟩
  | 5 => ⟨S1x1024x1024, .f32⟩
  | 6 => ⟨S1x1024x1024, .f32⟩
  | 7 => ⟨S2x1024x1024, .f32⟩
  | 8 => ⟨S2x1024x1024, .bf16⟩
  | 9 => ⟨S1x1024x1024, .f32⟩
  | 10 => ⟨S1x1024x1024, .f32⟩
  | 11 => ⟨S2x1024x1024, .f32⟩
  | 12 => ⟨S2x1024x1024, .bf16⟩
  | 13 => ⟨S1x1024x1024, .f32⟩
  | 14 => ⟨S1x1024x1024, .f32⟩
  | 15 => ⟨S2x1024x1024, .f32⟩
  | 16 => ⟨S2x1024x1024, .bf16⟩
  | 17 => ⟨S1x1024x1024, .f32⟩
  | 18 => ⟨S1x1024x1024, .f32⟩
  | 19 => ⟨S2x1024x1024, .f32⟩
  | 20 => ⟨S2x1024x1024, .bf16⟩
  | 21 => ⟨S1x1024, .f32⟩
  | 22 => ⟨S1x1024, .f32⟩
  | 23 => ⟨S2x1024, .f32⟩
  | 24 => ⟨S2x1x1024, .f32⟩
  | 25 => ⟨S1x1024, .f32⟩
  | 26 => ⟨S1x1024, .f32⟩
  | 27 => ⟨S2x1024, .f32⟩
  | 28 => ⟨S2x1x1024, .f32⟩
  | 29 => ⟨S1x1024, .f32⟩
  | 30 => ⟨S1x1024, .f32⟩
  | 31 => ⟨S2x1024, .f32⟩
  | 32 => ⟨S2x1x1024, .f32⟩
  | 33 => ⟨S1x1024, .f32⟩
  | 34 => ⟨S1x1024, .f32⟩
  | 35 => ⟨S2x1024, .f32⟩
  | 36 => ⟨S2x1x1024, .f32⟩
  | 37 => ⟨S2x4096x1024, .f32⟩
  | 38 => ⟨S1x4096x1024, .f32⟩
  | 39 => ⟨S4096x1024, .f32⟩
  | 40 => ⟨S16x256x1024, .f32⟩
  | 41 => ⟨S1x4096x1024, .f32⟩
  | 42 => ⟨S4096x1024, .f32⟩
  | 43 => ⟨S16x256x1024, .f32⟩
  | _ => ⟨S16x1024x1024, .f32⟩

abbrev hbmTy (i : Nat) : BufTy := match i / 128 with
  | 0 => hbmTy0_0 i
  | 1 => hbmTy0_1 i
  | _ => ⟨S16x1024x1024, .f32⟩

abbrev bufTy : (tb : Table) → Fin (tcTables nBuf tb) → BufTy
  | .hbm, ⟨i, _⟩ => hbmTy i
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x512x1024, .f32⟩
  | .local _ .vmem, ⟨21, _⟩ => ⟨S1x512x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_c_1 : Ref sig .tc := ⟨.hbm, 37, rfl⟩
abbrev main_call0_c_2 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_c_3 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_cst : Ref sig .tc := ⟨.hbm, 49, rfl⟩
abbrev main_call0_v14 : Ref sig .tc := ⟨.hbm, 50, rfl⟩
abbrev main_v11 : Ref sig .tc := ⟨.hbm, 51, rfl⟩
abbrev main_v12 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_c_1 : Ref sig .tc := ⟨.hbm, 60, rfl⟩
abbrev main_call1_c_2 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_c_3 : Ref sig .tc := ⟨.hbm, 68, rfl⟩
abbrev main_call1_v11 : Ref sig .tc := ⟨.hbm, 69, rfl⟩
abbrev main_call1_v12 : Ref sig .tc := ⟨.hbm, 70, rfl⟩
abbrev main_call1_v13 : Ref sig .tc := ⟨.hbm, 71, rfl⟩
abbrev main_call1_cst : Ref sig .tc := ⟨.hbm, 72, rfl⟩
abbrev main_call1_v14 : Ref sig .tc := ⟨.hbm, 73, rfl⟩
abbrev main_v13 : Ref sig .tc := ⟨.hbm, 74, rfl⟩
abbrev main_v14 : Ref sig .tc := ⟨.hbm, 75, rfl⟩
abbrev main_call2_c : Ref sig .tc := ⟨.hbm, 76, rfl⟩
abbrev main_call2_v0 : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_c_1 : Ref sig .tc := ⟨.hbm, 83, rfl⟩
abbrev main_call2_c_2 : Ref sig .tc := ⟨.hbm, 84, rfl⟩
abbrev main_call2_v5 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_call2_c_3 : Ref sig .tc := ⟨.hbm, 91, rfl⟩
abbrev main_call2_v11 : Ref sig .tc := ⟨.hbm, 92, rfl⟩
abbrev main_call2_v12 : Ref sig .tc := ⟨.hbm, 93, rfl⟩
abbrev main_call2_v13 : Ref sig .tc := ⟨.hbm, 94, rfl⟩
abbrev main_call2_cst : Ref sig .tc := ⟨.hbm, 95, rfl⟩
abbrev main_call2_v14 : Ref sig .tc := ⟨.hbm, 96, rfl⟩
abbrev main_v15 : Ref sig .tc := ⟨.hbm, 97, rfl⟩
abbrev main_v16 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_c_1 : Ref sig .tc := ⟨.hbm, 106, rfl⟩
abbrev main_call3_c_2 : Ref sig .tc := ⟨.hbm, 107, rfl⟩
abbrev main_call3_v5 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_c_3 : Ref sig .tc := ⟨.hbm, 114, rfl⟩
abbrev main_call3_v11 : Ref sig .tc := ⟨.hbm, 115, rfl⟩
abbrev main_call3_v12 : Ref sig .tc := ⟨.hbm, 116, rfl⟩
abbrev main_call3_v13 : Ref sig .tc := ⟨.hbm, 117, rfl⟩
abbrev main_call3_cst : Ref sig .tc := ⟨.hbm, 118, rfl⟩
abbrev main_call3_v14 : Ref sig .tc := ⟨.hbm, 119, rfl⟩
abbrev main_v17 : Ref sig .tc := ⟨.hbm, 120, rfl⟩
abbrev main_v18 : Ref sig .tc := ⟨.hbm, 121, rfl⟩
abbrev main_v19 : Ref sig .tc := ⟨.hbm, 122, rfl⟩
abbrev main_v20 : Ref sig .tc := ⟨.hbm, 123, rfl⟩
abbrev main_v21 : Ref sig .tc := ⟨.hbm, 124, rfl⟩
abbrev main_v22 : Ref sig .tc := ⟨.hbm, 125, rfl⟩
abbrev main_v23 : Ref sig .tc := ⟨.hbm, 126, rfl⟩
abbrev main_v24 : Ref sig .tc := ⟨.hbm, 127, rfl⟩
abbrev main_v25 : Ref sig .tc := ⟨.hbm, 128, rfl⟩
abbrev main_v26 : Ref sig .tc := ⟨.hbm, 129, rfl⟩
abbrev main_v27 : Ref sig .tc := ⟨.hbm, 130, rfl⟩
abbrev main_v28 : Ref sig .tc := ⟨.hbm, 131, rfl⟩
abbrev main_v29 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩
abbrev main_v37 : Ref sig .tc := ⟨.hbm, 140, rfl⟩
abbrev main_v38 : Ref sig .tc := ⟨.hbm, 141, rfl⟩
abbrev main_v39 : Ref sig .tc := ⟨.hbm, 142, rfl⟩
abbrev main_v40 : Ref sig .tc := ⟨.hbm, 143, rfl⟩
abbrev main_v41 : Ref sig .tc := ⟨.hbm, 144, rfl⟩
abbrev main_v42 : Ref sig .tc := ⟨.hbm, 145, rfl⟩
abbrev main_v43 : Ref sig .tc := ⟨.hbm, 146, rfl⟩
abbrev main_v44 : Ref sig .tc := ⟨.hbm, 147, rfl⟩
abbrev main_v45 : Ref sig .tc := ⟨.hbm, 148, rfl⟩
abbrev main_v46 : Ref sig .tc := ⟨.hbm, 149, rfl⟩
abbrev main_v47 : Ref sig .tc := ⟨.hbm, 150, rfl⟩
abbrev main_v48 : Ref sig .tc := ⟨.hbm, 151, rfl⟩
abbrev main_v49 : Ref sig .tc := ⟨.hbm, 152, rfl⟩
abbrev main_v50 : Ref sig .tc := ⟨.hbm, 153, rfl⟩
abbrev main_v51 : Ref sig .tc := ⟨.hbm, 154, rfl⟩
abbrev main_v52 : Ref sig .tc := ⟨.hbm, 155, rfl⟩
abbrev main_v53 : Ref sig .tc := ⟨.hbm, 156, rfl⟩
abbrev main_v54 : Ref sig .tc := ⟨.hbm, 157, rfl⟩
abbrev main_v55 : Ref sig .tc := ⟨.hbm, 158, rfl⟩
abbrev main_v56 : Ref sig .tc := ⟨.hbm, 159, rfl⟩
abbrev main_v57 : Ref sig .tc := ⟨.hbm, 160, rfl⟩
abbrev main_v58 : Ref sig .tc := ⟨.hbm, 161, rfl⟩
abbrev main_v59 : Ref sig .tc := ⟨.hbm, 162, rfl⟩
abbrev main_v60 : Ref sig .tc := ⟨.hbm, 163, rfl⟩
abbrev main_v61 : Ref sig .tc := ⟨.hbm, 164, rfl⟩
abbrev main_v62 : Ref sig .tc := ⟨.hbm, 165, rfl⟩
abbrev main_v63 : Ref sig .tc := ⟨.hbm, 166, rfl⟩
abbrev main_v64 : Ref sig .tc := ⟨.hbm, 167, rfl⟩
abbrev main_v65 : Ref sig .tc := ⟨.hbm, 168, rfl⟩
abbrev main_v66 : Ref sig .tc := ⟨.hbm, 169, rfl⟩
abbrev main_v67 : Ref sig .tc := ⟨.hbm, 170, rfl⟩
abbrev main_v68 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  shapeCasts_S16x1x2x256_S16x2x256 : S16x1x2x256.ShapeCasts S16x2x256
  slices_S16x2x256_S16x1x256_0_0_0 : S16x2x256.Slices ![0, 0, 0] S16x1x256
  shapeCasts_S16x1x256_S16x256 : S16x1x256.ShapeCasts S16x256
  slices_S16x2x256_S16x1x256_0_1_0 : S16x2x256.Slices ![0, 1, 0] S16x1x256
  bcast_S16x256_S16x256x1_0_1 : S16x256.BroadcastsInDim S16x256x1 (![0, 1] : Fin 2 → Fin S16x256x1.rank)
  bcast_S_S16x256x1 : S_.BroadcastsInDim S16x256x1 (![] : Fin 0 → Fin S16x256x1.rank)
  bcast_S1_S1x1x1_2 : S1.BroadcastsInDim S1x1x1 (![2] : Fin 1 → Fin S1x1x1.rank)
  bcast_S1x1x1_S16x256x1_0_1_2 : S1x1x1.BroadcastsInDim S16x256x1 (![0, 1, 2] : Fin 3 → Fin S16x256x1.rank)
  reducesTo_S16x256x1_S16x256_d2 : S16x256x1.ReducesTo [2] S16x256
  h_S_ : 0 < S_.numel
  bcast_S16x256_S16x256x1024_0_1 : S16x256.BroadcastsInDim S16x256x1024 (![0, 1] : Fin 2 → Fin S16x256x1024.rank)
  bcast_S_S16x256x1024 : S_.BroadcastsInDim S16x256x1024 (![] : Fin 0 → Fin S16x256x1024.rank)
  shapeCasts_S16x256x1024_S4096x1024 : S16x256x1024.ShapeCasts S4096x1024
  bcast_S4096x1024_S1x4096x1024_1_2 : S4096x1024.BroadcastsInDim S1x4096x1024 (![1, 2] : Fin 2 → Fin S1x4096x1024.rank)
  concatenates_S1x4096x1024_S1x4096x1024_S2x4096x1024_d0 : Shape.Concatenates [S1x4096x1024, S1x4096x1024] S2x4096x1024 0
  bitsLt_bf16_f32 : FTy.bits .bf16 < FTy.bits .f32
  bcast_S1024x1024_S1x1024x1024_1_2 : S1024x1024.BroadcastsInDim S1x1024x1024 (![1, 2] : Fin 2 → Fin S1x1024x1024.rank)
  concatenates_S1x1024x1024_S1x1024x1024_S2x1024x1024_d0 : Shape.Concatenates [S1x1024x1024, S1x1024x1024] S2x1024x1024 0
  bcast_S1024_S1x1024_1 : S1024.BroadcastsInDim S1x1024 (![1] : Fin 1 → Fin S1x1024.rank)
  concatenates_S1x1024_S1x1024_S2x1024_d0 : Shape.Concatenates [S1x1024, S1x1024] S2x1024 0
  shapeCasts_S2x1024_S2x1x1024 : S2x1024.ShapeCasts S2x1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  shapeCasts_S512x1024_S1x512x1024 : S512x1024.ShapeCasts S1x512x1024
  slices_S2x4096x1024_S1x4096x1024_0_0_0 : S2x4096x1024.Slices ![0, 0, 0] S1x4096x1024
  shapeCasts_S1x4096x1024_S4096x1024 : S1x4096x1024.ShapeCasts S4096x1024
  shapeCasts_S4096x1024_S16x256x1024 : S4096x1024.ShapeCasts S16x256x1024
  slices_S2x4096x1024_S1x4096x1024_1_0_0 : S2x4096x1024.Slices ![1, 0, 0] S1x4096x1024
  gather_S16x1024x1024_S16x256x1_S16x256x1024_2_1_0_0_1_2_111024_wf : GatherDims.WF S16x1024x1024 S16x256x1 S16x256x1024 [2] [1] [0] [1] [0] 2 ![1, 1, 1024]
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x4096x1024.size a
  hwx0_0 : ∀ i : grid0.Coords, EltTy.bits .bf16 = 32 ∨ (Rect.block (s := S2x4096x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S2x4096x1024.size a
  hwx0_1 : ∀ i : grid0.Coords, EltTy.bits .bf16 = 32 ∨ (Rect.block (s := S2x4096x1024) S1x512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S2x1024x1024.size a
  hwx0_2 : ∀ i : grid0.Coords, EltTy.bits .bf16 = 32 ∨ (Rect.block (s := S2x1024x1024) S1x1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S2x1024x1024.size a
  hwx0_3 : ∀ i : grid0.Coords, EltTy.bits .bf16 = 32 ∨ (Rect.block (s := S2x1024x1024) S1x1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S2x1024x1024.size a
  hwx0_4 : ∀ i : grid0.Coords, EltTy.bits .bf16 = 32 ∨ (Rect.block (s := S2x1024x1024) S1x1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S2x1024x1024.size a
  hwx0_5 : ∀ i : grid0.Coords, EltTy.bits .bf16 = 32 ∨ (Rect.block (s := S2x1024x1024) S1x1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S2x1x1024.size a
  hwx0_6 : ∀ i : grid0.Coords, EltTy.bits .f32 = 32 ∨ (Rect.block (s := S2x1x1024) S1x1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1024.size a ≤ S2x1x1024.size a
  hwx0_7 : ∀ i : grid0.Coords, EltTy.bits .f32 = 32 ∨ (Rect.block (s := S2x1x1024) S1x1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1024.size a ≤ S2x1x1024.size a
  hwx0_8 : ∀ i : grid0.Coords, EltTy.bits .f32 = 32 ∨ (Rect.block (s := S2x1x1024) S1x1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1024.size a ≤ S2x1x1024.size a
  hwx0_9 : ∀ i : grid0.Coords, EltTy.bits .f32 = 32 ∨ (Rect.block (s := S2x1x1024) S1x1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x1024.size a ≤ S2x4096x1024.size a
  hwx0_10 : ∀ i : grid0.Coords, EltTy.bits .f32 = 32 ∨ (Rect.block (s := S2x4096x1024) S1x512x1024.size (cc0_transform_10 i) (hinb0_10 i)).WholeWords (EltTy.packing .f32)

variable [Facts₀]

def gather_S16x1024x1024_S16x256x1_S16x256x1024_2_1_0_0_1_2_111024 : GatherDims S16x1024x1024 S16x256x1 S16x256x1024 where
  offsetDims := [2]
  collapsedSliceDims := [1]
  operandBatchingDims := [0]
  startIndicesBatchingDims := [0]
  startIndexMap := [1]
  indexVectorDim := 2
  sliceSizes := ![1, 1, 1024]
  wf := gather_S16x1024x1024_S16x256x1_S16x256x1024_2_1_0_0_1_2_111024_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v23) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v45) S1x1024x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v49) S1x1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v53) S1x1x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v57) S1x1x1024.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v61) S1x1x1024.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v62) S1x512x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S16x1x2x256 : Shape := ⟨4, ![16, 1, 2, 256]⟩
abbrev S1024x1024 : Shape := ⟨2, ![1024, 1024]⟩
abbrev S1024 : Shape := ⟨1, ![1024]⟩
abbrev S16x2x256 : Shape := ⟨3, ![16, 2, 256]⟩
abbrev S16x1x256 : Shape := ⟨3, ![16, 1, 256]⟩
abbrev S16x256 : Shape := ⟨2, ![16, 256]⟩
abbrev S1x1x1024 : Shape := ⟨3, ![1, 1, 1024]⟩
abbrev S16x256x1 : Shape := ⟨3, ![16, 256, 1]⟩
abbrev S_ : Shape := ⟨0, ![]⟩
abbrev S1 : Shape := ⟨1, ![1]⟩
abbrev S1x1x1 : Shape := ⟨3, ![1, 1, 1]⟩
abbrev S16x256x1024 : Shape := ⟨3, ![16, 256, 1024]⟩

abbrev nBuf : Space → Nat
  | .hbm => 349
  | .vmem => 0
  | .smem => 0
  | _ => 0

abbrev hbmTy0_0 (i : Nat) : BufTy := match i % 128 with
  | 0 => ⟨S16x1024x1024, .f32⟩
  | 1 => ⟨S16x1x2x256, .i32⟩
  | 2 => ⟨S16x1x2x256, .i32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S1024x1024, .f32⟩
  | 12 => ⟨S1024, .f32⟩
  | 13 => ⟨S1024x1024, .f32⟩
  | 14 => ⟨S1024, .f32⟩
  | 15 => ⟨S1024x1024, .f32⟩
  | 16 => ⟨S1024, .f32⟩
  | 17 => ⟨S1024x1024, .f32⟩
  | 18 => ⟨S1024, .f32⟩
  | 19 => ⟨S16x2x256, .i32⟩
  | 20 => ⟨S16x2x256, .i32⟩
  | 21 => ⟨S16x1x256, .i32⟩
  | 22 => ⟨S16x256, .i32⟩
  | 23 => ⟨S16x1x256, .i32⟩
  | 24 => ⟨S16x256, .i32⟩
  | 25 => ⟨S16x1024x1024, .f32⟩
  | 26 => ⟨S1x1x1024, .f32⟩
  | 27 => ⟨S16x1024x1024, .f32⟩
  | 28 => ⟨S16x1024x1024, .f32⟩
  | 29 => ⟨S16x1024x1024, .f32⟩
  | 30 => ⟨S1x1x1024, .f32⟩
  | 31 => ⟨S16x1024x1024, .f32⟩
  | 32 => ⟨S16x1024x1024, .f32⟩
  | 33 => ⟨S16x1024x1024, .f32⟩
  | 34 => ⟨S1x1x1024, .f32⟩
  | 35 => ⟨S16x1024x1024, .f32⟩
  | 36 => ⟨S16x1024x1024, .f32⟩
  | 37 => ⟨S16x1024x1024, .f32⟩
  | 38 => ⟨S1x1x1024, .f32⟩
  | 39 => ⟨S16x1024x1024, .f32⟩
  | 40 => ⟨S16x1024x1024, .f32⟩
  | 41 => ⟨S16x256x1, .i32⟩
  | 42 => ⟨S_, .i32⟩
  | 43 => ⟨S16x256x1, .i32⟩
  | 44 => ⟨S16x256x1, .i1⟩
  | 45 => ⟨S_, .i32⟩
  | 46 => ⟨S16x256x1, .i32⟩
  | 47 => ⟨S16x256x1, .i32⟩
  | 48 => ⟨S16x256x1, .i32⟩
  | 49 => ⟨S1, .i32⟩
  | 50 => ⟨S_, .i32⟩
  | 51 => ⟨S16x256x1, .i32⟩
  | 52 => ⟨S16x256x1, .i1⟩
  | 53 => ⟨S1x1x1, .i32⟩
  | 54 => ⟨S16x256x1, .i32⟩
  | 55 => ⟨S16x256x1, .i1⟩
  | 56 => ⟨S16x256x1, .i1⟩
  | 57 => ⟨S_, .i1⟩
  | 58 => ⟨S16x256, .i1⟩
  | 59 => ⟨S16x256x1024, .f32⟩
  | 60 => ⟨S16x256x1024, .i1⟩
  | 61 => ⟨S_, .f32⟩
  | 62 => ⟨S16x256x1024, .f32⟩
  | 63 => ⟨S16x256x1024, .f32⟩
  | 64 => ⟨S16x256x1, .i32⟩
  | 65 => ⟨S_, .i32⟩
  | 66 => ⟨S16x256x1, .i32⟩
  | 67 => ⟨S16x256x1, .i1⟩
  | 68 => ⟨S_, .i32⟩
  | 69 => ⟨S16x256x1, .i32⟩
  | 70 => ⟨S16x256x1, .i32⟩
  | 71 => ⟨S16x256x1, .i32⟩
  | 72 => ⟨S1, .i32⟩
  | 73 => ⟨S_, .i32⟩
  | 74 => ⟨S16x256x1, .i32⟩
  | 75 => ⟨S16x256x1, .i1⟩
  | 76 => ⟨S1x1x1, .i32⟩
  | 77 => ⟨S16x256x1, .i32⟩
  | 78 => ⟨S16x256x1, .i1⟩
  | 79 => ⟨S16x256x1, .i1⟩
  | 80 => ⟨S_, .i1⟩
  | 81 => ⟨S16x256, .i1⟩
  | 82 => ⟨S16x256x1024, .f32⟩
  | 83 => ⟨S16x256x1024, .i1⟩
  | 84 => ⟨S_, .f32⟩
  | 85 => ⟨S16x256x1024, .f32⟩
  | 86 => ⟨S16x256x1024, .f32⟩
  | 87 => ⟨S16x256x1024, .f32⟩
  | 88 => ⟨S16x256x1, .i32⟩
  | 89 => ⟨S_, .i32⟩
  | 90 => ⟨S16x256x1, .i32⟩
  | 91 => ⟨S16x256x1, .i1⟩
  | 92 => ⟨S_, .i32⟩
  | 93 => ⟨S16x256x1, .i32⟩
  | 94 => ⟨S16x256x1, .i32⟩
  | 95 => ⟨S16x256x1, .i32⟩
  | 96 => ⟨S1, .i32⟩
  | 97 => ⟨S_, .i32⟩
  | 98 => ⟨S16x256x1, .i32⟩
  | 99 => ⟨S16x256x1, .i1⟩
  | 100 => ⟨S1x1x1, .i32⟩
  | 101 => ⟨S16x256x1, .i32⟩
  | 102 => ⟨S16x256x1, .i1⟩
  | 103 => ⟨S16x256x1, .i1⟩
  | 104 => ⟨S_, .i1⟩
  | 105 => ⟨S16x256, .i1⟩
  | 106 => ⟨S16x256x1024, .f32⟩
  | 107 => ⟨S16x256x1024, .i1⟩
  | 108 => ⟨S_, .f32⟩
  | 109 => ⟨S16x256x1024, .f32⟩
  | 110 => ⟨S16x256x1024, .f32⟩
  | 111 => ⟨S16x256x1, .i32⟩
  | 112 => ⟨S_, .i32⟩
  | 113 => ⟨S16x256x1, .i32⟩
  | 114 => ⟨S16x256x1, .i1⟩
  | 115 => ⟨S_, .i32⟩
  | 116 => ⟨S16x256x1, .i32⟩
  | 117 => ⟨S16x256x1, .i32⟩
  | 118 => ⟨S16x256x1, .i32⟩
  | 119 => ⟨S1, .i32⟩
  | 120 => ⟨S_, .i32⟩
  | 121 => ⟨S16x256x1, .i32⟩
  | 122 => ⟨S16x256x1, .i1⟩
  | 123 => ⟨S1x1x1, .i32⟩
  | 124 => ⟨S16x256x1, .i32⟩
  | 125 => ⟨S16x256x1, .i1⟩
  | 126 => ⟨S16x256x1, .i1⟩
  | 127 => ⟨S_, .i1⟩
  | _ => ⟨S16x1024x1024, .f32⟩

abbrev hbmTy0_1 (i : Nat) : BufTy := match i % 128 with
  | 0 => ⟨S16x256, .i1⟩
  | 1 => ⟨S16x256x1024, .f32⟩
  | 2 => ⟨S16x256x1024, .i1⟩
  | 3 => ⟨S_, .f32⟩
  | 4 => ⟨S16x256x1024, .f32⟩
  | 5 => ⟨S16x256x1024, .f32⟩
  | 6 => ⟨S16x256x1024, .f32⟩
  | 7 => ⟨S16x256x1024, .f32⟩
  | 8 => ⟨S16x256x1, .i32⟩
  | 9 => ⟨S_, .i32⟩
  | 10 => ⟨S16x256x1, .i32⟩
  | 11 => ⟨S16x256x1, .i1⟩
  | 12 => ⟨S_, .i32⟩
  | 13 => ⟨S16x256x1, .i32⟩
  | 14 => ⟨S16x256x1, .i32⟩
  | 15 => ⟨S16x256x1, .i32⟩
  | 16 => ⟨S1, .i32⟩
  | 17 => ⟨S_, .i32⟩
  | 18 => ⟨S16x256x1, .i32⟩
  | 19 => ⟨S16x256x1, .i1⟩
  | 20 => ⟨S1x1x1, .i32⟩
  | 21 => ⟨S16x256x1, .i32⟩
  | 22 => ⟨S16x256x1, .i1⟩
  | 23 => ⟨S16x256x1, .i1⟩
  | 24 => ⟨S_, .i1⟩
  | 25 => ⟨S16x256, .i1⟩
  | 26 => ⟨S16x256x1024, .f32⟩
  | 27 => ⟨S16x256x1024, .i1⟩
  | 28 => ⟨S_, .f32⟩
  | 29 => ⟨S16x256x1024, .f32⟩
  | 30 => ⟨S16x256x1024, .f32⟩
  | 31 => ⟨S16x256x1, .i32⟩
  | 32 => ⟨S_, .i32⟩
  | 33 => ⟨S16x256x1, .i32⟩
  | 34 => ⟨S16x256x1, .i1⟩
  | 35 => ⟨S_, .i32⟩
  | 36 => ⟨S16x256x1, .i32⟩
  | 37 => ⟨S16x256x1, .i32⟩
  | 38 => ⟨S16x256x1, .i32⟩
  | 39 => ⟨S1, .i32⟩
  | 40 => ⟨S_, .i32⟩
  | 41 => ⟨S16x256x1, .i32⟩
  | 42 => ⟨S16x256x1, .i1⟩
  | 43 => ⟨S1x1x1, .i32⟩
  | 44 => ⟨S16x256x1, .i32⟩
  | 45 => ⟨S16x256x1, .i1⟩
  | 46 => ⟨S16x256x1, .i1⟩
  | 47 => ⟨S_, .i1⟩
  | 48 => ⟨S16x256, .i1⟩
  | 49 => ⟨S16x256x1024, .f32⟩
  | 50 => ⟨S16x256x1024, .i1⟩
  | 51 => ⟨S_, .f32⟩
  | 52 => ⟨S16x256x1024, .f32⟩
  | 53 => ⟨S16x256x1024, .f32⟩
  | 54 => ⟨S16x256x1024, .f32⟩
  | 55 => ⟨S16x256x1024, .f32⟩
  | 56 => ⟨S16x256x1024, .f32⟩
  | 57 => ⟨S16x1x256, .i32⟩
  | 58 => ⟨S16x256, .i32⟩
  | 59 => ⟨S16x1x256, .i32⟩
  | 60 => ⟨S16x256, .i32⟩
  | 61 => ⟨S16x1024x1024, .f32⟩
  | 62 => ⟨S1x1x1024, .f32⟩
  | 63 => ⟨S16x1024x1024, .f32⟩
  | 64 => ⟨S16x1024x1024, .f32⟩
  | 65 => ⟨S16x1024x1024, .f32⟩
  | 66 => ⟨S1x1x1024, .f32⟩
  | 67 => ⟨S16x1024x1024, .f32⟩
  | 68 => ⟨S16x1024x1024, .f32⟩
  | 69 => ⟨S16x1024x1024, .f32⟩
  | 70 => ⟨S1x1x1024, .f32⟩
  | 71 => ⟨S16x1024x1024, .f32⟩
  | 72 => ⟨S16x1024x1024, .f32⟩
  | 73 => ⟨S16x1024x1024, .f32⟩
  | 74 => ⟨S1x1x1024, .f32⟩
  | 75 => ⟨S16x1024x1024, .f32⟩
  | 76 => ⟨S16x1024x1024, .f32⟩
  | 77 => ⟨S16x256x1, .i32⟩
  | 78 => ⟨S_, .i32⟩
  | 79 => ⟨S16x256x1, .i32⟩
  | 80 => ⟨S16x256x1, .i1⟩
  | 81 => ⟨S_, .i32⟩
  | 82 => ⟨S16x256x1, .i32⟩
  | 83 => ⟨S16x256x1, .i32⟩
  | 84 => ⟨S16x256x1, .i32⟩
  | 85 => ⟨S1, .i32⟩
  | 86 => ⟨S_, .i32⟩
  | 87 => ⟨S16x256x1, .i32⟩
  | 88 => ⟨S16x256x1, .i1⟩
  | 89 => ⟨S1x1x1, .i32⟩
  | 90 => ⟨S16x256x1, .i32⟩
  | 91 => ⟨S16x256x1, .i1⟩
  | 92 => ⟨S16x256x1, .i1⟩
  | 93 => ⟨S_, .i1⟩
  | 94 => ⟨S16x256, .i1⟩
  | 95 => ⟨S16x256x1024, .f32⟩
  | 96 => ⟨S16x256x1024, .i1⟩
  | 97 => ⟨S_, .f32⟩
  | 98 => ⟨S16x256x1024, .f32⟩
  | 99 => ⟨S16x256x1024, .f32⟩
  | 100 => ⟨S16x256x1, .i32⟩
  | 101 => ⟨S_, .i32⟩
  | 102 => ⟨S16x256x1, .i32⟩
  | 103 => ⟨S16x256x1, .i1⟩
  | 104 => ⟨S_, .i32⟩
  | 105 => ⟨S16x256x1, .i32⟩
  | 106 => ⟨S16x256x1, .i32⟩
  | 107 => ⟨S16x256x1, .i32⟩
  | 108 => ⟨S1, .i32⟩
  | 109 => ⟨S_, .i32⟩
  | 110 => ⟨S16x256x1, .i32⟩
  | 111 => ⟨S16x256x1, .i1⟩
  | 112 => ⟨S1x1x1, .i32⟩
  | 113 => ⟨S16x256x1, .i32⟩
  | 114 => ⟨S16x256x1, .i1⟩
  | 115 => ⟨S16x256x1, .i1⟩
  | 116 => ⟨S_, .i1⟩
  | 117 => ⟨S16x256, .i1⟩
  | 118 => ⟨S16x256x1024, .f32⟩
  | 119 => ⟨S16x256x1024, .i1⟩
  | 120 => ⟨S_, .f32⟩
  | 121 => ⟨S16x256x1024, .f32⟩
  | 122 => ⟨S16x256x1024, .f32⟩
  | 123 => ⟨S16x256x1024, .f32⟩
  | 124 => ⟨S16x256x1, .i32⟩
  | 125 => ⟨S_, .i32⟩
  | 126 => ⟨S16x256x1, .i32⟩
  | 127 => ⟨S16x256x1, .i1⟩
  | _ => ⟨S16x1024x1024, .f32⟩

abbrev hbmTy0_2 (i : Nat) : BufTy := match i % 128 with
  | 0 => ⟨S_, .i32⟩
  | 1 => ⟨S16x256x1, .i32⟩
  | 2 => ⟨S16x256x1, .i32⟩
  | 3 => ⟨S16x256x1, .i32⟩
  | 4 => ⟨S1, .i32⟩
  | 5 => ⟨S_, .i32⟩
  | 6 => ⟨S16x256x1, .i32⟩
  | 7 => ⟨S16x256x1, .i1⟩
  | 8 => ⟨S1x1x1, .i32⟩
  | 9 => ⟨S16x256x1, .i32⟩
  | 10 => ⟨S16x256x1, .i1⟩
  | 11 => ⟨S16x256x1, .i1⟩
  | 12 => ⟨S_, .i1⟩
  | 13 => ⟨S16x256, .i1⟩
  | 14 => ⟨S16x256x1024, .f32⟩
  | 15 => ⟨S16x256x1024, .i1⟩
  | 16 => ⟨S_, .f32⟩
  | 17 => ⟨S16x256x1024, .f32⟩
  | 18 => ⟨S16x256x1024, .f32⟩
  | 19 => ⟨S16x256x1, .i32⟩
  | 20 => ⟨S_, .i32⟩
  | 21 => ⟨S16x256x1, .i32⟩
  | 22 => ⟨S16x256x1, .i1⟩
  | 23 => ⟨S_, .i32⟩
  | 24 => ⟨S16x256x1, .i32⟩
  | 25 => ⟨S16x256x1, .i32⟩
  | 26 => ⟨S16x256x1, .i32⟩
  | 27 => ⟨S1, .i32⟩
  | 28 => ⟨S_, .i32⟩
  | 29 => ⟨S16x256x1, .i32⟩
  | 30 => ⟨S16x256x1, .i1⟩
  | 31 => ⟨S1x1x1, .i32⟩
  | 32 => ⟨S16x256x1, .i32⟩
  | 33 => ⟨S16x256x1, .i1⟩
  | 34 => ⟨S16x256x1, .i1⟩
  | 35 => ⟨S_, .i1⟩
  | 36 => ⟨S16x256, .i1⟩
  | 37 => ⟨S16x256x1024, .f32⟩
  | 38 => ⟨S16x256x1024, .i1⟩
  | 39 => ⟨S_, .f32⟩
  | 40 => ⟨S16x256x1024, .f32⟩
  | 41 => ⟨S16x256x1024, .f32⟩
  | 42 => ⟨S16x256x1024, .f32⟩
  | 43 => ⟨S16x256x1024, .f32⟩
  | 44 => ⟨S16x256x1, .i32⟩
  | 45 => ⟨S_, .i32⟩
  | 46 => ⟨S16x256x1, .i32⟩
  | 47 => ⟨S16x256x1, .i1⟩
  | 48 => ⟨S_, .i32⟩
  | 49 => ⟨S16x256x1, .i32⟩
  | 50 => ⟨S16x256x1, .i32⟩
  | 51 => ⟨S16x256x1, .i32⟩
  | 52 => ⟨S1, .i32⟩
  | 53 => ⟨S_, .i32⟩
  | 54 => ⟨S16x256x1, .i32⟩
  | 55 => ⟨S16x256x1, .i1⟩
  | 56 => ⟨S1x1x1, .i32⟩
  | 57 => ⟨S16x256x1, .i32⟩
  | 58 => ⟨S16x256x1, .i1⟩
  | 59 => ⟨S16x256x1, .i1⟩
  | 60 => ⟨S_, .i1⟩
  | 61 => ⟨S16x256, .i1⟩
  | 62 => ⟨S16x256x1024, .f32⟩
  | 63 => ⟨S16x256x1024, .i1⟩
  | 64 => ⟨S_, .f32⟩
  | 65 => ⟨S16x256x1024, .f32⟩
  | 66 => ⟨S16x256x1024, .f32⟩
  | 67 => ⟨S16x256x1, .i32⟩
  | 68 => ⟨S_, .i32⟩
  | 69 => ⟨S16x256x1, .i32⟩
  | 70 => ⟨S16x256x1, .i1⟩
  | 71 => ⟨S_, .i32⟩
  | 72 => ⟨S16x256x1, .i32⟩
  | 73 => ⟨S16x256x1, .i32⟩
  | 74 => ⟨S16x256x1, .i32⟩
  | 75 => ⟨S1, .i32⟩
  | 76 => ⟨S_, .i32⟩
  | 77 => ⟨S16x256x1, .i32⟩
  | 78 => ⟨S16x256x1, .i1⟩
  | 79 => ⟨S1x1x1, .i32⟩
  | 80 => ⟨S16x256x1, .i32⟩
  | 81 => ⟨S16x256x1, .i1⟩
  | 82 => ⟨S16x256x1, .i1⟩
  | 83 => ⟨S_, .i1⟩
  | 84 => ⟨S16x256, .i1⟩
  | 85 => ⟨S16x256x1024, .f32⟩
  | 86 => ⟨S16x256x1024, .i1⟩
  | 87 => ⟨S_, .f32⟩
  | 88 => ⟨S16x256x1024, .f32⟩
  | 89 => ⟨S16x256x1024, .f32⟩
  | 90 => ⟨S16x256x1024, .f32⟩
  | 91 => ⟨S16x256x1024, .f32⟩
  | 92 => ⟨S16x256x1024, .f32⟩
  | _ => ⟨S16x1024x1024, .f32⟩

abbrev hbmTy (i : Nat) : BufTy := match i / 128 with
  | 0 => hbmTy0_0 i
  | 1 => hbmTy0_1 i
  | 2 => hbmTy0_2 i
  | _ => ⟨S16x1024x1024, .f32⟩

abbrev bufTy : (tb : Table) → Fin (tcTables nBuf tb) → BufTy
  | .hbm, ⟨i, _⟩ => hbmTy i
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_c_1 : Ref sig .tc := ⟨.hbm, 49, rfl⟩
abbrev main_call0_c_2 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_c_3 : Ref sig .tc := ⟨.hbm, 57, rfl⟩
abbrev main_call0_v11 : Ref sig .tc := ⟨.hbm, 58, rfl⟩
abbrev main_call0_v12 : Ref sig .tc := ⟨.hbm, 59, rfl⟩
abbrev main_call0_v13 : Ref sig .tc := ⟨.hbm, 60, rfl⟩
abbrev main_call0_cst : Ref sig .tc := ⟨.hbm, 61, rfl⟩
abbrev main_call0_v14 : Ref sig .tc := ⟨.hbm, 62, rfl⟩
abbrev main_v23 : Ref sig .tc := ⟨.hbm, 63, rfl⟩
abbrev main_v24 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_c_1 : Ref sig .tc := ⟨.hbm, 72, rfl⟩
abbrev main_call1_c_2 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_c_3 : Ref sig .tc := ⟨.hbm, 80, rfl⟩
abbrev main_call1_v11 : Ref sig .tc := ⟨.hbm, 81, rfl⟩
abbrev main_call1_v12 : Ref sig .tc := ⟨.hbm, 82, rfl⟩
abbrev main_call1_v13 : Ref sig .tc := ⟨.hbm, 83, rfl⟩
abbrev main_call1_cst : Ref sig .tc := ⟨.hbm, 84, rfl⟩
abbrev main_call1_v14 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_call2_c : Ref sig .tc := ⟨.hbm, 89, rfl⟩
abbrev main_call2_v0 : Ref sig .tc := ⟨.hbm, 90, rfl⟩
abbrev main_call2_v1 : Ref sig .tc := ⟨.hbm, 91, rfl⟩
abbrev main_call2_c_0 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_c_1 : Ref sig .tc := ⟨.hbm, 96, rfl⟩
abbrev main_call2_c_2 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_call2_c_3 : Ref sig .tc := ⟨.hbm, 104, rfl⟩
abbrev main_call2_v11 : Ref sig .tc := ⟨.hbm, 105, rfl⟩
abbrev main_call2_v12 : Ref sig .tc := ⟨.hbm, 106, rfl⟩
abbrev main_call2_v13 : Ref sig .tc := ⟨.hbm, 107, rfl⟩
abbrev main_call2_cst : Ref sig .tc := ⟨.hbm, 108, rfl⟩
abbrev main_call2_v14 : Ref sig .tc := ⟨.hbm, 109, rfl⟩
abbrev main_v28 : Ref sig .tc := ⟨.hbm, 110, rfl⟩
abbrev main_v29 : Ref sig .tc := ⟨.hbm, 111, rfl⟩
abbrev main_call3_c : Ref sig .tc := ⟨.hbm, 112, rfl⟩
abbrev main_call3_v0 : Ref sig .tc := ⟨.hbm, 113, rfl⟩
abbrev main_call3_v1 : Ref sig .tc := ⟨.hbm, 114, rfl⟩
abbrev main_call3_c_0 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_call3_c_1 : Ref sig .tc := ⟨.hbm, 119, rfl⟩
abbrev main_call3_c_2 : Ref sig .tc := ⟨.hbm, 120, rfl⟩
abbrev main_call3_v5 : Ref sig .tc := ⟨.hbm, 121, rfl⟩
abbrev main_call3_v6 : Ref sig .tc := ⟨.hbm, 122, rfl⟩
abbrev main_call3_v7 : Ref sig .tc := ⟨.hbm, 123, rfl⟩
abbrev main_call3_v8 : Ref sig .tc := ⟨.hbm, 124, rfl⟩
abbrev main_call3_v9 : Ref sig .tc := ⟨.hbm, 125, rfl⟩
abbrev main_call3_v10 : Ref sig .tc := ⟨.hbm, 126, rfl⟩
abbrev main_call3_c_3 : Ref sig .tc := ⟨.hbm, 127, rfl⟩
abbrev main_call3_v11 : Ref sig .tc := ⟨.hbm, 128, rfl⟩
abbrev main_call3_v12 : Ref sig .tc := ⟨.hbm, 129, rfl⟩
abbrev main_call3_v13 : Ref sig .tc := ⟨.hbm, 130, rfl⟩
abbrev main_call3_cst : Ref sig .tc := ⟨.hbm, 131, rfl⟩
abbrev main_call3_v14 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_call4_c : Ref sig .tc := ⟨.hbm, 137, rfl⟩
abbrev main_call4_v0 : Ref sig .tc := ⟨.hbm, 138, rfl⟩
abbrev main_call4_v1 : Ref sig .tc := ⟨.hbm, 139, rfl⟩
abbrev main_call4_c_0 : Ref sig .tc := ⟨.hbm, 140, rfl⟩
abbrev main_call4_v2 : Ref sig .tc := ⟨.hbm, 141, rfl⟩
abbrev main_call4_v3 : Ref sig .tc := ⟨.hbm, 142, rfl⟩
abbrev main_call4_v4 : Ref sig .tc := ⟨.hbm, 143, rfl⟩
abbrev main_call4_c_1 : Ref sig .tc := ⟨.hbm, 144, rfl⟩
abbrev main_call4_c_2 : Ref sig .tc := ⟨.hbm, 145, rfl⟩
abbrev main_call4_v5 : Ref sig .tc := ⟨.hbm, 146, rfl⟩
abbrev main_call4_v6 : Ref sig .tc := ⟨.hbm, 147, rfl⟩
abbrev main_call4_v7 : Ref sig .tc := ⟨.hbm, 148, rfl⟩
abbrev main_call4_v8 : Ref sig .tc := ⟨.hbm, 149, rfl⟩
abbrev main_call4_v9 : Ref sig .tc := ⟨.hbm, 150, rfl⟩
abbrev main_call4_v10 : Ref sig .tc := ⟨.hbm, 151, rfl⟩
abbrev main_call4_c_3 : Ref sig .tc := ⟨.hbm, 152, rfl⟩
abbrev main_call4_v11 : Ref sig .tc := ⟨.hbm, 153, rfl⟩
abbrev main_call4_v12 : Ref sig .tc := ⟨.hbm, 154, rfl⟩
abbrev main_call4_v13 : Ref sig .tc := ⟨.hbm, 155, rfl⟩
abbrev main_call4_cst : Ref sig .tc := ⟨.hbm, 156, rfl⟩
abbrev main_call4_v14 : Ref sig .tc := ⟨.hbm, 157, rfl⟩
abbrev main_v34 : Ref sig .tc := ⟨.hbm, 158, rfl⟩
abbrev main_v35 : Ref sig .tc := ⟨.hbm, 159, rfl⟩
abbrev main_call5_c : Ref sig .tc := ⟨.hbm, 160, rfl⟩
abbrev main_call5_v0 : Ref sig .tc := ⟨.hbm, 161, rfl⟩
abbrev main_call5_v1 : Ref sig .tc := ⟨.hbm, 162, rfl⟩
abbrev main_call5_c_0 : Ref sig .tc := ⟨.hbm, 163, rfl⟩
abbrev main_call5_v2 : Ref sig .tc := ⟨.hbm, 164, rfl⟩
abbrev main_call5_v3 : Ref sig .tc := ⟨.hbm, 165, rfl⟩
abbrev main_call5_v4 : Ref sig .tc := ⟨.hbm, 166, rfl⟩
abbrev main_call5_c_1 : Ref sig .tc := ⟨.hbm, 167, rfl⟩
abbrev main_call5_c_2 : Ref sig .tc := ⟨.hbm, 168, rfl⟩
abbrev main_call5_v5 : Ref sig .tc := ⟨.hbm, 169, rfl⟩
abbrev main_call5_v6 : Ref sig .tc := ⟨.hbm, 170, rfl⟩
abbrev main_call5_v7 : Ref sig .tc := ⟨.hbm, 171, rfl⟩
abbrev main_call5_v8 : Ref sig .tc := ⟨.hbm, 172, rfl⟩
abbrev main_call5_v9 : Ref sig .tc := ⟨.hbm, 173, rfl⟩
abbrev main_call5_v10 : Ref sig .tc := ⟨.hbm, 174, rfl⟩
abbrev main_call5_c_3 : Ref sig .tc := ⟨.hbm, 175, rfl⟩
abbrev main_call5_v11 : Ref sig .tc := ⟨.hbm, 176, rfl⟩
abbrev main_call5_v12 : Ref sig .tc := ⟨.hbm, 177, rfl⟩
abbrev main_call5_v13 : Ref sig .tc := ⟨.hbm, 178, rfl⟩
abbrev main_call5_cst : Ref sig .tc := ⟨.hbm, 179, rfl⟩
abbrev main_call5_v14 : Ref sig .tc := ⟨.hbm, 180, rfl⟩
abbrev main_v36 : Ref sig .tc := ⟨.hbm, 181, rfl⟩
abbrev main_v37 : Ref sig .tc := ⟨.hbm, 182, rfl⟩
abbrev main_v38 : Ref sig .tc := ⟨.hbm, 183, rfl⟩
abbrev main_v39 : Ref sig .tc := ⟨.hbm, 184, rfl⟩
abbrev main_v40 : Ref sig .tc := ⟨.hbm, 185, rfl⟩
abbrev main_v41 : Ref sig .tc := ⟨.hbm, 186, rfl⟩
abbrev main_v42 : Ref sig .tc := ⟨.hbm, 187, rfl⟩
abbrev main_v43 : Ref sig .tc := ⟨.hbm, 188, rfl⟩
abbrev main_v44 : Ref sig .tc := ⟨.hbm, 189, rfl⟩
abbrev main_v45 : Ref sig .tc := ⟨.hbm, 190, rfl⟩
abbrev main_v46 : Ref sig .tc := ⟨.hbm, 191, rfl⟩
abbrev main_v47 : Ref sig .tc := ⟨.hbm, 192, rfl⟩
abbrev main_v48 : Ref sig .tc := ⟨.hbm, 193, rfl⟩
abbrev main_v49 : Ref sig .tc := ⟨.hbm, 194, rfl⟩
abbrev main_v50 : Ref sig .tc := ⟨.hbm, 195, rfl⟩
abbrev main_v51 : Ref sig .tc := ⟨.hbm, 196, rfl⟩
abbrev main_v52 : Ref sig .tc := ⟨.hbm, 197, rfl⟩
abbrev main_v53 : Ref sig .tc := ⟨.hbm, 198, rfl⟩
abbrev main_v54 : Ref sig .tc := ⟨.hbm, 199, rfl⟩
abbrev main_v55 : Ref sig .tc := ⟨.hbm, 200, rfl⟩
abbrev main_v56 : Ref sig .tc := ⟨.hbm, 201, rfl⟩
abbrev main_v57 : Ref sig .tc := ⟨.hbm, 202, rfl⟩
abbrev main_v58 : Ref sig .tc := ⟨.hbm, 203, rfl⟩
abbrev main_v59 : Ref sig .tc := ⟨.hbm, 204, rfl⟩
abbrev main_v60 : Ref sig .tc := ⟨.hbm, 205, rfl⟩
abbrev main_call6_c : Ref sig .tc := ⟨.hbm, 206, rfl⟩
abbrev main_call6_v0 : Ref sig .tc := ⟨.hbm, 207, rfl⟩
abbrev main_call6_v1 : Ref sig .tc := ⟨.hbm, 208, rfl⟩
abbrev main_call6_c_0 : Ref sig .tc := ⟨.hbm, 209, rfl⟩
abbrev main_call6_v2 : Ref sig .tc := ⟨.hbm, 210, rfl⟩
abbrev main_call6_v3 : Ref sig .tc := ⟨.hbm, 211, rfl⟩
abbrev main_call6_v4 : Ref sig .tc := ⟨.hbm, 212, rfl⟩
abbrev main_call6_c_1 : Ref sig .tc := ⟨.hbm, 213, rfl⟩
abbrev main_call6_c_2 : Ref sig .tc := ⟨.hbm, 214, rfl⟩
abbrev main_call6_v5 : Ref sig .tc := ⟨.hbm, 215, rfl⟩
abbrev main_call6_v6 : Ref sig .tc := ⟨.hbm, 216, rfl⟩
abbrev main_call6_v7 : Ref sig .tc := ⟨.hbm, 217, rfl⟩
abbrev main_call6_v8 : Ref sig .tc := ⟨.hbm, 218, rfl⟩
abbrev main_call6_v9 : Ref sig .tc := ⟨.hbm, 219, rfl⟩
abbrev main_call6_v10 : Ref sig .tc := ⟨.hbm, 220, rfl⟩
abbrev main_call6_c_3 : Ref sig .tc := ⟨.hbm, 221, rfl⟩
abbrev main_call6_v11 : Ref sig .tc := ⟨.hbm, 222, rfl⟩
abbrev main_call6_v12 : Ref sig .tc := ⟨.hbm, 223, rfl⟩
abbrev main_call6_v13 : Ref sig .tc := ⟨.hbm, 224, rfl⟩
abbrev main_call6_cst : Ref sig .tc := ⟨.hbm, 225, rfl⟩
abbrev main_call6_v14 : Ref sig .tc := ⟨.hbm, 226, rfl⟩
abbrev main_v61 : Ref sig .tc := ⟨.hbm, 227, rfl⟩
abbrev main_v62 : Ref sig .tc := ⟨.hbm, 228, rfl⟩
abbrev main_call7_c : Ref sig .tc := ⟨.hbm, 229, rfl⟩
abbrev main_call7_v0 : Ref sig .tc := ⟨.hbm, 230, rfl⟩
abbrev main_call7_v1 : Ref sig .tc := ⟨.hbm, 231, rfl⟩
abbrev main_call7_c_0 : Ref sig .tc := ⟨.hbm, 232, rfl⟩
abbrev main_call7_v2 : Ref sig .tc := ⟨.hbm, 233, rfl⟩
abbrev main_call7_v3 : Ref sig .tc := ⟨.hbm, 234, rfl⟩
abbrev main_call7_v4 : Ref sig .tc := ⟨.hbm, 235, rfl⟩
abbrev main_call7_c_1 : Ref sig .tc := ⟨.hbm, 236, rfl⟩
abbrev main_call7_c_2 : Ref sig .tc := ⟨.hbm, 237, rfl⟩
abbrev main_call7_v5 : Ref sig .tc := ⟨.hbm, 238, rfl⟩
abbrev main_call7_v6 : Ref sig .tc := ⟨.hbm, 239, rfl⟩
abbrev main_call7_v7 : Ref sig .tc := ⟨.hbm, 240, rfl⟩
abbrev main_call7_v8 : Ref sig .tc := ⟨.hbm, 241, rfl⟩
abbrev main_call7_v9 : Ref sig .tc := ⟨.hbm, 242, rfl⟩
abbrev main_call7_v10 : Ref sig .tc := ⟨.hbm, 243, rfl⟩
abbrev main_call7_c_3 : Ref sig .tc := ⟨.hbm, 244, rfl⟩
abbrev main_call7_v11 : Ref sig .tc := ⟨.hbm, 245, rfl⟩
abbrev main_call7_v12 : Ref sig .tc := ⟨.hbm, 246, rfl⟩
abbrev main_call7_v13 : Ref sig .tc := ⟨.hbm, 247, rfl⟩
abbrev main_call7_cst : Ref sig .tc := ⟨.hbm, 248, rfl⟩
abbrev main_call7_v14 : Ref sig .tc := ⟨.hbm, 249, rfl⟩
abbrev main_v63 : Ref sig .tc := ⟨.hbm, 250, rfl⟩
abbrev main_v64 : Ref sig .tc := ⟨.hbm, 251, rfl⟩
abbrev main_v65 : Ref sig .tc := ⟨.hbm, 252, rfl⟩
abbrev main_call8_c : Ref sig .tc := ⟨.hbm, 253, rfl⟩
abbrev main_call8_v0 : Ref sig .tc := ⟨.hbm, 254, rfl⟩
abbrev main_call8_v1 : Ref sig .tc := ⟨.hbm, 255, rfl⟩
abbrev main_call8_c_0 : Ref sig .tc := ⟨.hbm, 256, rfl⟩
abbrev main_call8_v2 : Ref sig .tc := ⟨.hbm, 257, rfl⟩
abbrev main_call8_v3 : Ref sig .tc := ⟨.hbm, 258, rfl⟩
abbrev main_call8_v4 : Ref sig .tc := ⟨.hbm, 259, rfl⟩
abbrev main_call8_c_1 : Ref sig .tc := ⟨.hbm, 260, rfl⟩
abbrev main_call8_c_2 : Ref sig .tc := ⟨.hbm, 261, rfl⟩
abbrev main_call8_v5 : Ref sig .tc := ⟨.hbm, 262, rfl⟩
abbrev main_call8_v6 : Ref sig .tc := ⟨.hbm, 263, rfl⟩
abbrev main_call8_v7 : Ref sig .tc := ⟨.hbm, 264, rfl⟩
abbrev main_call8_v8 : Ref sig .tc := ⟨.hbm, 265, rfl⟩
abbrev main_call8_v9 : Ref sig .tc := ⟨.hbm, 266, rfl⟩
abbrev main_call8_v10 : Ref sig .tc := ⟨.hbm, 267, rfl⟩
abbrev main_call8_c_3 : Ref sig .tc := ⟨.hbm, 268, rfl⟩
abbrev main_call8_v11 : Ref sig .tc := ⟨.hbm, 269, rfl⟩
abbrev main_call8_v12 : Ref sig .tc := ⟨.hbm, 270, rfl⟩
abbrev main_call8_v13 : Ref sig .tc := ⟨.hbm, 271, rfl⟩
abbrev main_call8_cst : Ref sig .tc := ⟨.hbm, 272, rfl⟩
abbrev main_call8_v14 : Ref sig .tc := ⟨.hbm, 273, rfl⟩
abbrev main_v66 : Ref sig .tc := ⟨.hbm, 274, rfl⟩
abbrev main_v67 : Ref sig .tc := ⟨.hbm, 275, rfl⟩
abbrev main_call9_c : Ref sig .tc := ⟨.hbm, 276, rfl⟩
abbrev main_call9_v0 : Ref sig .tc := ⟨.hbm, 277, rfl⟩
abbrev main_call9_v1 : Ref sig .tc := ⟨.hbm, 278, rfl⟩
abbrev main_call9_c_0 : Ref sig .tc := ⟨.hbm, 279, rfl⟩
abbrev main_call9_v2 : Ref sig .tc := ⟨.hbm, 280, rfl⟩
abbrev main_call9_v3 : Ref sig .tc := ⟨.hbm, 281, rfl⟩
abbrev main_call9_v4 : Ref sig .tc := ⟨.hbm, 282, rfl⟩
abbrev main_call9_c_1 : Ref sig .tc := ⟨.hbm, 283, rfl⟩
abbrev main_call9_c_2 : Ref sig .tc := ⟨.hbm, 284, rfl⟩
abbrev main_call9_v5 : Ref sig .tc := ⟨.hbm, 285, rfl⟩
abbrev main_call9_v6 : Ref sig .tc := ⟨.hbm, 286, rfl⟩
abbrev main_call9_v7 : Ref sig .tc := ⟨.hbm, 287, rfl⟩
abbrev main_call9_v8 : Ref sig .tc := ⟨.hbm, 288, rfl⟩
abbrev main_call9_v9 : Ref sig .tc := ⟨.hbm, 289, rfl⟩
abbrev main_call9_v10 : Ref sig .tc := ⟨.hbm, 290, rfl⟩
abbrev main_call9_c_3 : Ref sig .tc := ⟨.hbm, 291, rfl⟩
abbrev main_call9_v11 : Ref sig .tc := ⟨.hbm, 292, rfl⟩
abbrev main_call9_v12 : Ref sig .tc := ⟨.hbm, 293, rfl⟩
abbrev main_call9_v13 : Ref sig .tc := ⟨.hbm, 294, rfl⟩
abbrev main_call9_cst : Ref sig .tc := ⟨.hbm, 295, rfl⟩
abbrev main_call9_v14 : Ref sig .tc := ⟨.hbm, 296, rfl⟩
abbrev main_v68 : Ref sig .tc := ⟨.hbm, 297, rfl⟩
abbrev main_v69 : Ref sig .tc := ⟨.hbm, 298, rfl⟩
abbrev main_v70 : Ref sig .tc := ⟨.hbm, 299, rfl⟩
abbrev main_v71 : Ref sig .tc := ⟨.hbm, 300, rfl⟩
abbrev main_call10_c : Ref sig .tc := ⟨.hbm, 301, rfl⟩
abbrev main_call10_v0 : Ref sig .tc := ⟨.hbm, 302, rfl⟩
abbrev main_call10_v1 : Ref sig .tc := ⟨.hbm, 303, rfl⟩
abbrev main_call10_c_0 : Ref sig .tc := ⟨.hbm, 304, rfl⟩
abbrev main_call10_v2 : Ref sig .tc := ⟨.hbm, 305, rfl⟩
abbrev main_call10_v3 : Ref sig .tc := ⟨.hbm, 306, rfl⟩
abbrev main_call10_v4 : Ref sig .tc := ⟨.hbm, 307, rfl⟩
abbrev main_call10_c_1 : Ref sig .tc := ⟨.hbm, 308, rfl⟩
abbrev main_call10_c_2 : Ref sig .tc := ⟨.hbm, 309, rfl⟩
abbrev main_call10_v5 : Ref sig .tc := ⟨.hbm, 310, rfl⟩
abbrev main_call10_v6 : Ref sig .tc := ⟨.hbm, 311, rfl⟩
abbrev main_call10_v7 : Ref sig .tc := ⟨.hbm, 312, rfl⟩
abbrev main_call10_v8 : Ref sig .tc := ⟨.hbm, 313, rfl⟩
abbrev main_call10_v9 : Ref sig .tc := ⟨.hbm, 314, rfl⟩
abbrev main_call10_v10 : Ref sig .tc := ⟨.hbm, 315, rfl⟩
abbrev main_call10_c_3 : Ref sig .tc := ⟨.hbm, 316, rfl⟩
abbrev main_call10_v11 : Ref sig .tc := ⟨.hbm, 317, rfl⟩
abbrev main_call10_v12 : Ref sig .tc := ⟨.hbm, 318, rfl⟩
abbrev main_call10_v13 : Ref sig .tc := ⟨.hbm, 319, rfl⟩
abbrev main_call10_cst : Ref sig .tc := ⟨.hbm, 320, rfl⟩
abbrev main_call10_v14 : Ref sig .tc := ⟨.hbm, 321, rfl⟩
abbrev main_v72 : Ref sig .tc := ⟨.hbm, 322, rfl⟩
abbrev main_v73 : Ref sig .tc := ⟨.hbm, 323, rfl⟩
abbrev main_call11_c : Ref sig .tc := ⟨.hbm, 324, rfl⟩
abbrev main_call11_v0 : Ref sig .tc := ⟨.hbm, 325, rfl⟩
abbrev main_call11_v1 : Ref sig .tc := ⟨.hbm, 326, rfl⟩
abbrev main_call11_c_0 : Ref sig .tc := ⟨.hbm, 327, rfl⟩
abbrev main_call11_v2 : Ref sig .tc := ⟨.hbm, 328, rfl⟩
abbrev main_call11_v3 : Ref sig .tc := ⟨.hbm, 329, rfl⟩
abbrev main_call11_v4 : Ref sig .tc := ⟨.hbm, 330, rfl⟩
abbrev main_call11_c_1 : Ref sig .tc := ⟨.hbm, 331, rfl⟩
abbrev main_call11_c_2 : Ref sig .tc := ⟨.hbm, 332, rfl⟩
abbrev main_call11_v5 : Ref sig .tc := ⟨.hbm, 333, rfl⟩
abbrev main_call11_v6 : Ref sig .tc := ⟨.hbm, 334, rfl⟩
abbrev main_call11_v7 : Ref sig .tc := ⟨.hbm, 335, rfl⟩
abbrev main_call11_v8 : Ref sig .tc := ⟨.hbm, 336, rfl⟩
abbrev main_call11_v9 : Ref sig .tc := ⟨.hbm, 337, rfl⟩
abbrev main_call11_v10 : Ref sig .tc := ⟨.hbm, 338, rfl⟩
abbrev main_call11_c_3 : Ref sig .tc := ⟨.hbm, 339, rfl⟩
abbrev main_call11_v11 : Ref sig .tc := ⟨.hbm, 340, rfl⟩
abbrev main_call11_v12 : Ref sig .tc := ⟨.hbm, 341, rfl⟩
abbrev main_call11_v13 : Ref sig .tc := ⟨.hbm, 342, rfl⟩
abbrev main_call11_cst : Ref sig .tc := ⟨.hbm, 343, rfl⟩
abbrev main_call11_v14 : Ref sig .tc := ⟨.hbm, 344, rfl⟩
abbrev main_v74 : Ref sig .tc := ⟨.hbm, 345, rfl⟩
abbrev main_v75 : Ref sig .tc := ⟨.hbm, 346, rfl⟩
abbrev main_v76 : Ref sig .tc := ⟨.hbm, 347, rfl⟩
abbrev main_v77 : Ref sig .tc := ⟨.hbm, 348, rfl⟩

abbrev nD : Nat := 1
abbrev τ : Topo := Topo.v7x

variable {F : FTy → Type} [FloatOps F]

class Facts₀ : Prop where
  shapeCasts_S16x1x2x256_S16x2x256 : S16x1x2x256.ShapeCasts S16x2x256
  slices_S16x2x256_S16x1x256_0_0_0 : S16x2x256.Slices ![0, 0, 0] S16x1x256
  shapeCasts_S16x1x256_S16x256 : S16x1x256.ShapeCasts S16x256
  slices_S16x2x256_S16x1x256_0_1_0 : S16x2x256.Slices ![0, 1, 0] S16x1x256
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  bcast_S16x256_S16x256x1_0_1 : S16x256.BroadcastsInDim S16x256x1 (![0, 1] : Fin 2 → Fin S16x256x1.rank)
  bcast_S_S16x256x1 : S_.BroadcastsInDim S16x256x1 (![] : Fin 0 → Fin S16x256x1.rank)
  bcast_S1_S1x1x1_2 : S1.BroadcastsInDim S1x1x1 (![2] : Fin 1 → Fin S1x1x1.rank)
  bcast_S1x1x1_S16x256x1_0_1_2 : S1x1x1.BroadcastsInDim S16x256x1 (![0, 1, 2] : Fin 3 → Fin S16x256x1.rank)
  reducesTo_S16x256x1_S16x256_d2 : S16x256x1.ReducesTo [2] S16x256
  h_S_ : 0 < S_.numel
  bcast_S16x256_S16x256x1024_0_1 : S16x256.BroadcastsInDim S16x256x1024 (![0, 1] : Fin 2 → Fin S16x256x1024.rank)
  bcast_S_S16x256x1024 : S_.BroadcastsInDim S16x256x1024 (![] : Fin 0 → Fin S16x256x1024.rank)
  dot_S16x1024x1024_S1024x1024_S16x1024x1024_2_1_01_0_n_n_wf : DotDims.WF S16x1024x1024 S1024x1024 S16x1024x1024 [2] [1] [0, 1] [0] [] []
  gather_S16x1024x1024_S16x256x1_S16x256x1024_2_1_0_0_1_2_111024_wf : GatherDims.WF S16x1024x1024 S16x256x1 S16x256x1024 [2] [1] [0] [1] [0] 2 ![1, 1, 1024]

variable [Facts₀]

def dot_S16x1024x1024_S1024x1024_S16x1024x1024_2_1_01_0_n_n : DotDims S16x1024x1024 S1024x1024 S16x1024x1024 where
  lhsContracting := [2]
  rhsContracting := [1]
  lhsNonContracting := [0, 1]
  rhsNonContracting := [0]
  lhsBatch := []
  rhsBatch := []
  wf := dot_S16x1024x1024_S1024x1024_S16x1024x1024_2_1_01_0_n_n_wf
def gather_S16x1024x1024_S16x256x1_S16x256x1024_2_1_0_0_1_2_111024 : GatherDims S16x1024x1024 S16x256x1 S16x256x1024 where
  offsetDims := [2]
  collapsedSliceDims := [1]
  operandBatchingDims := [0]
  startIndicesBatchingDims := [0]
  startIndexMap := [1]
  indexVectorDim := 2
  sliceSizes := ![1, 1, 1024]
  wf := gather_S16x1024x1024_S16x256x1_S16x256x1024_2_1_0_0_1_2_111024_wf

class Facts : Prop extends Facts₀ where

variable [Facts]
-- ==== Proof.RefStagesPrem.lean ====
/-
  The reference, one stage at a time, read at an index (premise side).

  Each of the four projections of the whole sequence, at batch entry b, row t and feature o, is the contraction of
  row t of the hidden states with row o of the weight matrix plus entry o of the bias; each index stage, at (b, k, 0),
  is the start or the end entry of span k of batch entry b in the index input.
-/
import proofs.«167500_j32667521253810_2_alg».proof.Proof.RefRead
import Idealize.ShloMosaic.Lib.ValueIdx
import Idealize.ShloMosaic.PureOps.Ideal.Laws

noncomputable section

namespace Cert.RefValue.Prem

open Cert.ReferenceIdeal Cert.ReferenceIdeal.ReadP Idealize.ShloMosaic Idealize.ShloMosaic.ValueIdx

/-- The projection `proj1` of the whole sequence at (b, t, o): the contraction of row t with row o of the weights, plus the bias entry o. -/
theorem proj1_apply (x0 : (⟨S16x1024x1024, .f32⟩ : BufTy).Contents (Elt Ideal)) (x3 : (⟨S1024x1024, .f32⟩ : BufTy).Contents (Elt Ideal))
    (x4 : (⟨S1024, .f32⟩ : BufTy).Contents (Elt Ideal)) (b : Fin 16) (t : Fin 1024) (o : Fin 1024) :
    val_main_v9 (F := Ideal) x0 x3 x4 (ix3 b t o) = (∑ h : Fin 1024, x0 (ix3 b t h) * x3 (ix2 o h)) + x4 (ix1 o) := by
  rw [val_main_v9_apply, val_main_v6_apply, val_main_v8_apply, val_main_v7_apply]
  have el : ∀ h : Fin 1024, lidx_main_v6 (ix3 b t o) h = ix3 b t h := fun h => funext fun a => Fin.ext (by
    match a with | ⟨0, _⟩ => rfl | ⟨1, _⟩ => rfl | ⟨2, _⟩ => rfl)
  have er : ∀ h : Fin 1024, ridx_main_v6 (ix3 b t o) h = ix2 o h := fun h => funext fun a => Fin.ext (by
    match a with | ⟨0, _⟩ => rfl | ⟨1, _⟩ => rfl)
  have eb : idx_main_v7 (idx_main_v8 (ix3 b t o)) = ix1 o := funext fun a => Fin.ext (by
    match a with | ⟨0, _⟩ => rfl)
  simp only [el, er, eb, Ideal.addf_def]

/-- The projection `proj2` of the whole sequence at (b, t, o): the contraction of row t with row o of the weights, plus the bias entry o. -/
theorem proj2_apply (x0 : (⟨S16x1024x1024, .f32⟩ : BufTy).Contents (Elt Ideal)) (x5 : (⟨S1024x1024, .f32⟩ : BufTy).Contents (Elt Ideal))
    (x6 : (⟨S1024, .f32⟩ : BufTy).Contents (Elt Ideal)) (b : Fin 16) (t : Fin 1024) (o : Fin 1024) :
    val_main_v13 (F := Ideal) x0 x5 x6 (ix3 b t o) = (∑ h : Fin 1024, x0 (ix3 b t h) * x5 (ix2 o h)) + x6 (ix1 o) := by
  rw [val_main_v13_apply, val_main_v10_apply, val_main_v12_apply, val_main_v11_apply]
  have el : ∀ h : Fin 1024, lidx_main_v10 (ix3 b t o) h = ix3 b t h := fun h => funext fun a => Fin.ext (by
    match a with | ⟨0, _⟩ => rfl | ⟨1, _⟩ => rfl | ⟨2, _⟩ => rfl)
  have er : ∀ h : Fin 1024, ridx_main_v10 (ix3 b t o) h = ix2 o h := fun h => funext fun a => Fin.ext (by
    match a with | ⟨0, _⟩ => rfl | ⟨1, _⟩ => rfl)
  have eb : idx_main_v11 (idx_main_v12 (ix3 b t o)) = ix1 o := funext fun a => Fin.ext (by
    match a with | ⟨0, _⟩ => rfl)
  simp only [el, er, eb, Ideal.addf_def]

/-- The projection `proj3` of the whole sequence at (b, t, o): the contraction of row t with row o of the weights, plus the bias entry o. -/
theorem proj3_apply (x0 : (⟨S16x1024x1024, .f32⟩ : BufTy).Contents (Elt Ideal)) (x7 : (⟨S1024x1024, .f32⟩ : BufTy).Contents (Elt Ideal))
    (x8 : (⟨S1024, .f32⟩ : BufTy).Contents (Elt Ideal)) (b : Fin 16) (t : Fin 1024) (o : Fin 1024) :
    val_main_v17 (F := Ideal) x0 x7 x8 (ix3 b t o) = (∑ h : Fin 1024, x0 (ix3 b t h) * x7 (ix2 o h)) + x8 (ix1 o) := by
  rw [val_main_v17_apply, val_main_v14_apply, val_main_v16_apply, val_main_v15_apply]
  have el : ∀ h : Fin 1024, lidx_main_v14 (ix3 b t o) h = ix3 b t h := fun h => funext fun a => Fin.ext (by
    match a with | ⟨0, _⟩ => rfl | ⟨1, _⟩ => rfl | ⟨2, _⟩ => rfl)
  have er : ∀ h : Fin 1024, ridx_main_v14 (ix3 b t o) h = ix2 o h := fun h => funext fun a => Fin.ext (by
    match a with | ⟨0, _⟩ => rfl | ⟨1, _⟩ => rfl)
  have eb : idx_main_v15 (idx_main_v16 (ix3 b t o)) = ix1 o := funext fun a => Fin.ext (by
    match a with | ⟨0, _⟩ => rfl)
  simp only [el, er, eb, Ideal.addf_def]

/-- The projection `proj4` of the whole sequence at (b, t, o): the contraction of row t with row o of the weights, plus the bias entry o. -/
theorem proj4_apply (x0 : (⟨S16x1024x1024, .f32⟩ : BufTy).Contents (Elt Ideal)) (x9 : (⟨S1024x1024, .f32⟩ : BufTy).Contents (Elt Ideal))
    (x10 : (⟨S1024, .f32⟩ : BufTy).Contents (Elt Ideal)) (b : Fin 16) (t : Fin 1024) (o : Fin 1024) :
    val_main_v21 (F := Ideal) x0 x9 x10 (ix3 b t o) = (∑ h : Fin 1024, x0 (ix3 b t h) * x9 (ix2 o h)) + x10 (ix1 o) := by
  rw [val_main_v21_apply, val_main_v18_apply, val_main_v20_apply, val_main_v19_apply]
  have el : ∀ h : Fin 1024, lidx_main_v18 (ix3 b t o) h = ix3 b t h := fun h => funext fun a => Fin.ext (by
    match a with | ⟨0, _⟩ => rfl | ⟨1, _⟩ => rfl | ⟨2, _⟩ => rfl)
  have er : ∀ h : Fin 1024, ridx_main_v18 (ix3 b t o) h = ix2 o h := fun h => funext fun a => Fin.ext (by
    match a with | ⟨0, _⟩ => rfl | ⟨1, _⟩ => rfl)
  have eb : idx_main_v19 (idx_main_v20 (ix3 b t o)) = ix1 o := funext fun a => Fin.ext (by
    match a with | ⟨0, _⟩ => rfl)
  simp only [el, er, eb, Ideal.addf_def]

/-- The index stage `v22` at (b, k, 0) is the index input's entry (b, 0, 0, k). -/
theorem idx_v22_apply (x1 : (⟨S16x1x2x256, .i32⟩ : BufTy).Contents (Elt Ideal)) (b : Fin 16) (k : Fin 256) :
    val_main_v22 (F := Ideal) x1 (ix3 b k 0) = x1 (ix4 b 0 0 k) := by
  rw [val_main_v22_apply, val_main_v3_apply, val_main_v2_apply, val_main_v0_apply]
  refine congrArg x1 (funext fun a => Fin.ext ?_)
  have hb := b.isLt
  have hk := k.isLt
  match a with
  | ⟨0, _⟩ => show (((b.val * 256 + k.val) / 256 * 2 + 0) * 256 + (b.val * 256 + k.val) % 256) / 512 = b.val; omega
  | ⟨1, _⟩ => rfl
  | ⟨2, _⟩ => show (((b.val * 256 + k.val) / 256 * 2 + 0) * 256 + (b.val * 256 + k.val) % 256) / 256 % 2 = 0; omega
  | ⟨3, _⟩ => show (((b.val * 256 + k.val) / 256 * 2 + 0) * 256 + (b.val * 256 + k.val) % 256) % 256 = k.val; omega

/-- The index stage `v24` at (b, k, 0) is the index input's entry (b, 0, 1, k). -/
theorem idx_v24_apply (x1 : (⟨S16x1x2x256, .i32⟩ : BufTy).Contents (Elt Ideal)) (b : Fin 16) (k : Fin 256) :
    val_main_v24 (F := Ideal) x1 (ix3 b k 0) = x1 (ix4 b 0 1 k) := by
  rw [val_main_v24_apply, val_main_v5_apply, val_main_v4_apply, val_main_v0_apply]
  refine congrArg x1 (funext fun a => Fin.ext ?_)
  have hb := b.isLt
  have hk := k.isLt
  match a with
  | ⟨0, _⟩ => show (((b.val * 256 + k.val) / 256 * 2 + 1) * 256 + (b.val * 256 + k.val) % 256) / 512 = b.val; omega
  | ⟨1, _⟩ => rfl
  | ⟨2, _⟩ => show (((b.val * 256 + k.val) / 256 * 2 + 1) * 256 + (b.val * 256 + k.val) % 256) / 256 % 2 = 1; omega
  | ⟨3, _⟩ => show (((b.val * 256 + k.val) / 256 * 2 + 1) * 256 + (b.val * 256 + k.val) % 256) % 256 = k.val; omega

end Cert.RefValue.Prem

end
-- ==== Proof.LibTakeAlongAxis.lean ====
/-
  TAKING ALONG AXIS 1, OUT-OF-RANGE INDICES FILLED, READ AT AN INDEX.

  For an operand P : [16, 1024, 1024] of any element type and 32-bit start indices idx : [16, 256, 1], the array
      R[b, k, o] = P[b, idx[b, k, 0], o]
  ("take along axis 1" with the default fill mode) is printed in StableHLO as four steps:
    * the wrap of a negative index, word by word:  wrap v = v + 1024 if v < 0 (signed), else v  — a negative index
      counts from the end of the axis;
    * the range test  0 ≤ wrap idx[b, k, 0] ≤ 1023  (signed), reduced by "and" over the unit axis: one bit per (b, k);
    * a "stablehlo.gather" whose axis 0 is a batching axis of the operand and of the start indices, whose axis 1 is
      collapsed and indexed by the start index, and whose axis 2 is the offset axis at its full extent 1024:
          G[b, k, o] = P[b, clamp (wrap idx[b, k, 0]), o],   clamp z = min (max z 0) 1023,
      the start index read signed and clamped into the axis as every gather's is;
    * the select  R[b, k, o] = G[b, k, o] if the bit of (b, k) is 1, else fill[b, k, o].
  What is proved, all over the literal shapes:
    * gather_apply: the gather at (b, k, o) is the operand at row clamp (v4[b, k, 0]), for ANY start array v4
      (nothing is assumed of the indices);
    * toInt_wrap, wrap_inRange, rowOf_val: for a start word with −1024 ≤ v < 1024 (signed), wrap v is the integer
      v mod 1024 ∈ [0, 1023] (32-bit addition does not overflow there), so the range test holds and the clamp is
      the identity; rowOf v is that row as an element of Fin 1024;
    * mask_apply: under that bound at (b, k), the reduced bit of (b, k) is 1;
    * take_apply: under that bound at (b, k),  R[b, k, o] = P[b, rowOf idx[b, k, 0], o], whatever the fill is.
  And at any shapes, reduce_andi_of_forall: a reduce by "and" of one-bit words from the initial value 1 is 1 at a
  result index as soon as every word that reduces into it is 1 (the converse of reading the words back from a
  reduce that is 1).
-/
import Idealize.ShloMosaic.Lib.ValueIdx
import Idealize.ShloMosaic.Lib.ReduceAll

noncomputable section

namespace Idealize.ShloMosaic.TakeAlongAxis

open Idealize.ShloMosaic Idealize.ShloMosaic.ValueIdx

local notation "SP" => (⟨3, ![16, 1024, 1024]⟩ : Shape)
local notation "SI" => (⟨3, ![16, 256, 1]⟩ : Shape)
local notation "ST" => (⟨3, ![16, 256, 1024]⟩ : Shape)
local notation "SM" => (⟨2, ![16, 256]⟩ : Shape)
local notation "S0" => (⟨0, ![]⟩ : Shape)
local notation "S1" => (⟨1, ![1]⟩ : Shape)
local notation "S111" => (⟨3, ![1, 1, 1]⟩ : Shape)

/-! ## The words -/

/-- The start word with a negative index counted from the end of the axis: `v + 1024` when `v` is negative as a
    signed integer, else `v`. -/
def wrap (v : BitVec 32) : BitVec 32 :=
  Scalar.select (IntOp.cmpi .slt v 0#32) (IntOp.addi v 1024#32) v

/-- The row the gather reads for the start word `v`: the wrapped word read signed and clamped into `[0, 1023]`. -/
def rowOf (v : BitVec 32) : Fin 1024 := ⟨min (wrap v).toInt.toNat 1023, by omega⟩

/-- For `−1024 ≤ v < 1024` the wrapped word is `v + 1024` below zero and `v` from zero on, as integers: the
    32-bit sum does not overflow. -/
theorem toInt_wrap {v : BitVec 32} (hlo : -1024 ≤ v.toInt) (hhi : v.toInt < 1024) :
    (wrap v).toInt = if v.toInt < 0 then v.toInt + 1024 else v.toInt := by
  have h0 : (0#32 : BitVec 32).toInt = 0 := by decide
  have h1024 : (1024#32 : BitVec 32).toInt = 1024 := by decide
  unfold wrap
  by_cases h : v.toInt < 0
  · have hc : IntOp.cmpi .slt v 0#32 = 1#1 := IntOp.cmpi_slt.2 (by rw [h0]; exact h)
    rw [hc, select_one, if_pos h]
    show (v + 1024#32).toInt = _
    rw [BitVec.toInt_add, h1024]
    exact Int.bmod_eq_of_le_mul_two (by omega) (by omega)
  · have hc : IntOp.cmpi .slt v 0#32 = 0#1 :=
      eq_zero_of_ne_one (fun hc => h (by have := IntOp.cmpi_slt.1 hc; rwa [h0] at this))
    rw [hc, select_zero, if_neg h]

/-- For `−1024 ≤ v < 1024` the wrapped word passes the range test `0 ≤ · ≤ 1023`. -/
theorem wrap_inRange {v : BitVec 32} (hlo : -1024 ≤ v.toInt) (hhi : v.toInt < 1024) :
    IntOp.andi (IntOp.cmpi .sge (wrap v) 0#32) (IntOp.cmpi .sle (wrap v) 1023#32) = 1#1 := by
  have h0 : (0#32 : BitVec 32).toInt = 0 := by decide
  have h1023 : (1023#32 : BitVec 32).toInt = 1023 := by decide
  have hw := toInt_wrap hlo hhi
  rw [IntOp.andi_eq_one, IntOp.cmpi_sge, IntOp.cmpi_sle, h0, h1023, hw]
  split <;> omega

/-- For `−1024 ≤ v < 1024` the clamp does nothing: the row is `v + 1024` below zero and `v` from zero on. -/
theorem rowOf_val {v : BitVec 32} (hlo : -1024 ≤ v.toInt) (hhi : v.toInt < 1024) :
    ((rowOf v).val : Int) = if v.toInt < 0 then v.toInt + 1024 else v.toInt := by
  have hw := toInt_wrap hlo hhi
  show ((min (wrap v).toInt.toNat 1023 : Nat) : Int) = _
  rw [hw]
  split <;> omega

/-! ## The reduce by and -/

/-- A left fold by `and` over one-bit words that starts at 1 and meets only 1s is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, hl => by
    rw [List.foldl_cons]
    exact foldl_andi_one f l _ (IntOp.andi_eq_one.2 ⟨hi, hl a (List.mem_cons.2 (Or.inl rfl))⟩)
      (fun n hn => hl n (List.mem_cons.2 (Or.inr hn)))

/-- A reduce by `and` from an initial value 1 is 1 at `j` when every operand word that reduces into `j` is 1. -/
theorem reduce_andi_of_forall {s t u : Shape} {axes : List (Fin s.rank)} (x : s.Idx → BitVec 1)
    (init : u.Idx → BitVec 1) (h : s.ReducesTo axes t) (hu : 0 < u.numel) (j : t.Idx)
    (hinit : init (Shape.Idx.first hu) = 1#1) (hx : ∀ i, h.drop i = j → x i = 1#1) :
    Host.reduce IntOp.andi x init h hu j = 1#1 := by
  rw [Host.reduce_eq_foldl]
  exact foldl_andi_one x _ _ hinit (fun i hi => hx i (of_decide_eq_true (List.mem_filter.1 hi).2))

/-! ## The gather -/

/-- The gather's dimension numbers: result axis 2 the offset axis, operand axis 1 collapsed and named by the start
    index, axis 0 batching on both sides, the index vector on axis 2 of the start indices, slices `1 × 1 × 1024`. -/
abbrev takeAlongDims (wf : GatherDims.WF SP SI ST [2] [1] [0] [1] [0] 2 ![1, 1, 1024]) : GatherDims SP SI ST where
  offsetDims := [2]
  collapsedSliceDims := [1]
  operandBatchingDims := [0]
  startIndicesBatchingDims := [0]
  startIndexMap := [1]
  indexVectorDim := 2
  sliceSizes := ![1, 1, 1024]
  wf := wf

/-- THE GATHER READ AT `(b, k, o)`, for any start array: the operand at batch `b`, at the row that is the start word
    `idx[b, k, 0]` read signed and clamped into `[0, 1023]`, at offset `o`. On axis 0 the operand index is the
    batching coordinate `b` (start 0, offset 0), on axis 1 the clamped start (no batching, collapsed), on axis 2 the
    offset coordinate `o` (start 0: the axis is not in the start index map). -/
theorem gather_apply₀ {α : Type} {w : Nat} (wf : GatherDims.WF SP SI ST [2] [1] [0] [1] [0] 2 ![1, 1, 1024])
    (x : Shape.Idx SP → α) (idx : IVec SI w) (b : Fin 16) (k : Fin 256) (o : Fin 1024) :
    Host.gather (takeAlongDims wf) x idx (ix3 b k o)
      = x (ix3 b (⟨min (idx (ix3 b k 0)).toInt.toNat 1023, by omega⟩ : Fin 1024) o) := by
  unfold Host.gather
  congr 1
  funext a
  refine Fin.ext ?_
  show (takeAlongDims wf).start (ix3 b k o) idx a + (takeAlongDims wf).batchCoord (ix3 b k o) a
    + (takeAlongDims wf).offCoord (ix3 b k o) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    rw [GatherDims.batchCoord_eq_zero _ _ _ (by simp),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 3) ∈ (takeAlongDims wf).startIndexMap from List.mem_singleton.mpr rfl)]
    have hsi : (takeAlongDims wf).siIdx (ix3 b k o) ⟨List.idxOf (⟨1, by decide⟩ : Fin 3) (takeAlongDims wf).startIndexMap,
        List.idxOf_lt_length_iff.2 (List.mem_singleton.mpr rfl)⟩ = ix3 b k 0 := by
      funext c; refine Fin.ext ?_
      match c with
      | ⟨0, _⟩ => rfl
      | ⟨1, _⟩ => rfl
      | ⟨2, _⟩ => rfl
    rw [hsi]
    rfl
  | ⟨2, _⟩ =>
    rw [GatherDims.batchCoord_eq_zero _ _ _ (by simp)]
    unfold GatherDims.start
    rw [dif_neg (by simp)]
    simp only [Nat.zero_add]
    rfl

/-- The same for any record of dimension numbers with those fields, whatever proof of well-formedness it carries. -/
theorem gather_apply {α : Type} {w : Nat} (d : GatherDims SP SI ST)
    (hod : d.offsetDims = [2]) (hcd : d.collapsedSliceDims = [1]) (hob : d.operandBatchingDims = [0])
    (hsb : d.startIndicesBatchingDims = [0]) (hsm : d.startIndexMap = [1]) (hiv : d.indexVectorDim = 2)
    (hss : d.sliceSizes = ![1, 1, 1024])
    (x : Shape.Idx SP → α) (idx : IVec SI w) (b : Fin 16) (k : Fin 256) (o : Fin 1024) :
    Host.gather d x idx (ix3 b k o)
      = x (ix3 b (⟨min (idx (ix3 b k 0)).toInt.toNat 1023, by omega⟩ : Fin 1024) o) := by
  obtain ⟨od, cd, ob, sb, sm, iv, ss, wf⟩ := d
  dsimp only at hod hcd hob hsb hsm hiv hss
  subst hod hcd hob hsb hsm hiv hss
  exact gather_apply₀ wf x idx b k o

/-! ## The operations as a program prints them, read at an index -/

section Printed

local notation "V4⟪" hb0 ", " idx "⟫" =>
  (select (cmpi CmpIPredicate.slt idx (broadcastInDim SI ![] hb0 (constantI S0 32 0#32)))
    (addi idx (broadcastInDim SI ![] hb0 (constantI S0 32 1024#32))) idx)

local notation "V11⟪" hb0 ", " hb1 ", " hb2 ", " hr ", " hu ", " idx "⟫" =>
  (Host.reduce IntOp.andi
    (andi (cmpi CmpIPredicate.sge (V4⟪hb0, idx⟫) (broadcastInDim SI ![] hb0 (constantI S0 32 0#32)))
      (cmpi CmpIPredicate.sle (V4⟪hb0, idx⟫)
        (broadcastInDim SI ![0, 1, 2] hb2 (broadcastInDim S111 ![2] hb1 (constantI S1 32 1023#32)))))
    (constantI S0 1 1#1) hr hu)

/-- The wrapped start indices at an index are the wrapped word. -/
theorem wrapped_apply (hb0 : Shape.BroadcastsInDim S0 SI (![] : Fin 0 → Fin (Shape.rank SI)))
    (idx : IVec SI 32) (i : Shape.Idx SI) :
    (V4⟪hb0, idx⟫) i = wrap (idx i) := rfl

/-- Under `−1024 ≤ idx[b, k, 0] < 1024` the in-range bit of `(b, k)` is 1: the only operand index that reduces into
    `(b, k)` is `(b, k, 0)`, and there both comparisons hold. -/
theorem mask_apply (hb0 : Shape.BroadcastsInDim S0 SI (![] : Fin 0 → Fin (Shape.rank SI)))
    (hb1 : Shape.BroadcastsInDim S1 S111 (![2] : Fin 1 → Fin (Shape.rank S111)))
    (hb2 : Shape.BroadcastsInDim S111 SI (![0, 1, 2] : Fin 3 → Fin (Shape.rank SI)))
    (hr : Shape.ReducesTo SI [2] SM) (hu : 0 < Shape.numel S0)
    (idx : IVec SI 32) (b : Fin 16) (k : Fin 256)
    (hlo : -1024 ≤ (idx (ix3 b k 0)).toInt) (hhi : (idx (ix3 b k 0)).toInt < 1024) :
    (V11⟪hb0, hb1, hb2, hr, hu, idx⟫) (ix2 b k) = 1#1 := by
  refine reduce_andi_of_forall _ _ hr hu _ rfl (fun i hi => ?_)
  have hi' : i = ix3 b k 0 := by
    funext c
    match c with
    | ⟨0, _⟩ =>
      exact Fin.ext ((Shape.ReducesTo.drop_apply_val_of_eq hr i 0 0).symm.trans
        (congrArg (fun j : Shape.Idx SM => (j 0).val) hi))
    | ⟨1, _⟩ =>
      exact Fin.ext ((Shape.ReducesTo.drop_apply_val_of_eq hr i 1 1).symm.trans
        (congrArg (fun j : Shape.Idx SM => (j 1).val) hi))
    | ⟨2, _⟩ => exact Subsingleton.elim (α := Fin 1) _ _
  rw [hi']
  exact wrap_inRange hlo hhi

/-- A `[16, 256]` array broadcast along a third axis reads its `(b, k)` entry at `(b, k, o)`. -/
theorem broadcast_rows_apply {α : Type} (hb3 : Shape.BroadcastsInDim SM ST (![0, 1] : Fin 2 → Fin (Shape.rank ST)))
    (m : Shape.Idx SM → α) (b : Fin 16) (k : Fin 256) (o : Fin 1024) :
    broadcastInDim ST ![0, 1] hb3 m (ix3 b k o) = m (ix2 b k) := by
  unfold broadcastInDim
  congr 1
  funext a
  match a with
  | ⟨0, _⟩ => rfl
  | ⟨1, _⟩ => rfl

/-- THE TAKE READ AT `(b, k, o)`: under `−1024 ≤ idx[b, k, 0] < 1024` the select takes the gathered value, which is
    the operand at batch `b`, row `rowOf idx[b, k, 0]`, offset `o`; the fill is never read. -/
theorem take_apply {α : Type}
    (hb0 : Shape.BroadcastsInDim S0 SI (![] : Fin 0 → Fin (Shape.rank SI)))
    (hb1 : Shape.BroadcastsInDim S1 S111 (![2] : Fin 1 → Fin (Shape.rank S111)))
    (hb2 : Shape.BroadcastsInDim S111 SI (![0, 1, 2] : Fin 3 → Fin (Shape.rank SI)))
    (hr : Shape.ReducesTo SI [2] SM) (hu : 0 < Shape.numel S0)
    (hb3 : Shape.BroadcastsInDim SM ST (![0, 1] : Fin 2 → Fin (Shape.rank ST)))
    (d : GatherDims SP SI ST)
    (hod : d.offsetDims = [2]) (hcd : d.collapsedSliceDims = [1]) (hob : d.operandBatchingDims = [0])
    (hsb : d.startIndicesBatchingDims = [0]) (hsm : d.startIndexMap = [1]) (hiv : d.indexVectorDim = 2)
    (hss : d.sliceSizes = ![1, 1, 1024])
    (P : Shape.Idx SP → α) (idx : IVec SI 32) (fill : Shape.Idx ST → α)
    (b : Fin 16) (k : Fin 256) (o : Fin 1024)
    (hlo : -1024 ≤ (idx (ix3 b k 0)).toInt) (hhi : (idx (ix3 b k 0)).toInt < 1024) :
    select (broadcastInDim ST ![0, 1] hb3 (V11⟪hb0, hb1, hb2, hr, hu, idx⟫))
        (Host.gather d P (V4⟪hb0, idx⟫)) fill (ix3 b k o)
      = P (ix3 b (rowOf (idx (ix3 b k 0))) o) := by
  rw [select_apply, broadcast_rows_apply, mask_apply hb0 hb1 hb2 hr hu idx b k hlo hhi, select_one,
    gather_apply d hod hcd hob hsb hsm hiv hss]
  rfl

end Printed

end Idealize.ShloMosaic.TakeAlongAxis

end
-- ==== Proof.Rows.lean ====
/-
  The two rows a span selects, from the index input of its side.

  The index input has shape [16, 1, 2, 256]: for batch entry `b` and span `k`, entry (b, 0, 0, k) is the span's start
  and (b, 0, 1, k) its end, each an index into the sequence axis of extent 1024 (a negative one counting from the
  end). `rowOf` is the row the gather reads for such a word.
-/
import proofs.«167500_j32667521253810_2_alg».proof.Proof.LibTakeAlongAxis
import Idealize.ShloMosaic.Lib.ValueIdx

noncomputable section

namespace Cert.SpanSpec

open Idealize.ShloMosaic Idealize.ShloMosaic.ValueIdx Idealize.ShloMosaic.TakeAlongAxis

/-- The start row of span `k` of batch entry `b`. -/
def startRow (idx : IVec ⟨4, ![16, 1, 2, 256]⟩ 32) (b : Fin 16) (k : Fin 256) : Fin 1024 := rowOf (idx (ix4 b 0 0 k))
/-- The end row of span `k` of batch entry `b`. -/
def endRow (idx : IVec ⟨4, ![16, 1, 2, 256]⟩ 32) (b : Fin 16) (k : Fin 256) : Fin 1024 := rowOf (idx (ix4 b 0 1 k))

end Cert.SpanSpec

end
-- ==== Proof.Spec.lean ====
/-
  What both programs compute, as ONE function of the argument arrays.

  For one side (premise or hypothesis), a batch entry `b`, a span `k` and an output feature `o`, with
  `s = start(b,k)` and `e = end(b,k)` the two rows of the sequence axis the span selects and
  `Pj(t) = (∑ h, x(b,t,h) · Wj(o,h)) + bj(o)` the j-th linear projection of row `t`:

      out(b,k,o) = tanh ( (P1(s) + P2(e)) + (P3(s) − P3(e)) + P4(s) · P4(e) ).

  A linear projection acts on each row by itself, so projecting the two selected rows (the kernel: gather, then six
  products) and selecting two rows of the projected sequence (the reference: four products over the whole
  sequence, then six gathers) are the same sums of the same terms: no law of the extended reals is needed beyond
  reading both sides at an index, and in particular no finiteness.
-/
import Idealize.ShloMosaic.PureOps.Ideal
import Idealize.ShloMosaic.Lib.ValueIdx

noncomputable section

namespace Cert.SpanSpec

open Idealize.ShloMosaic Idealize.ShloMosaic.ValueIdx

/-- One output cell: from the two selected rows `gs`, `ge` of the hidden states (start and end of the span), the
    row `o` of each of the four weight matrices and the entry `o` of each bias. The association is the one both
    programs use: `((p1 + p2) + (p3s − p3e)) + p4s · p4e`, each projection the contraction plus the bias. -/
def spanCell (gs ge w1 w2 w3 w4 : Fin 1024 → EReal) (b1 b2 b3 b4 : EReal) : EReal :=
  Ideal.tanh ((((∑ h, gs h * w1 h) + b1) + ((∑ h, ge h * w2 h) + b2)
      + (((∑ h, gs h * w3 h) + b3) - ((∑ h, ge h * w3 h) + b3)))
      + ((∑ h, gs h * w4 h) + b4) * ((∑ h, ge h * w4 h) + b4))

/-- The whole result array of one side: cell `(b, k, o)` from rows `s b k` and `e b k` of batch entry `b`. -/
def span (x : (⟨3, ![16, 1024, 1024]⟩ : Shape).Idx → EReal)
    (W1 W2 W3 W4 : (⟨2, ![1024, 1024]⟩ : Shape).Idx → EReal) (b1 b2 b3 b4 : (⟨1, ![1024]⟩ : Shape).Idx → EReal)
    (s e : Fin 16 → Fin 256 → Fin 1024) : (⟨3, ![16, 256, 1024]⟩ : Shape).Idx → EReal :=
  fun i => spanCell (fun h => x (ix3 (i 0) (s (i 0) (i 1)) h)) (fun h => x (ix3 (i 0) (e (i 0) (i 1)) h))
    (fun h => W1 (ix2 (i 2) h)) (fun h => W2 (ix2 (i 2) h)) (fun h => W3 (ix2 (i 2) h)) (fun h => W4 (ix2 (i 2) h))
    (b1 (ix1 (i 2))) (b2 (ix1 (i 2))) (b3 (ix1 (i 2))) (b4 (ix1 (i 2)))

/-- The same at explicit coordinates. -/
theorem span_apply (x : (⟨3, ![16, 1024, 1024]⟩ : Shape).Idx → EReal)
    (W1 W2 W3 W4 : (⟨2, ![1024, 1024]⟩ : Shape).Idx → EReal) (b1 b2 b3 b4 : (⟨1, ![1024]⟩ : Shape).Idx → EReal)
    (s e : Fin 16 → Fin 256 → Fin 1024) (b : Fin 16) (k : Fin 256) (o : Fin 1024) :
    span x W1 W2 W3 W4 b1 b2 b3 b4 s e (ix3 b k o)
      = spanCell (fun h => x (ix3 b (s b k) h)) (fun h => x (ix3 b (e b k) h))
          (fun h => W1 (ix2 o h)) (fun h => W2 (ix2 o h)) (fun h => W3 (ix2 o h)) (fun h => W4 (ix2 o h))
          (b1 (ix1 o)) (b2 (ix1 o)) (b3 (ix1 o)) (b4 (ix1 o)) := rfl

end Cert.SpanSpec

end
-- ==== Proof.RefValuePrem.lean ====
/-
  The reference's premise result is the specification (premise side).

  Each of its six gathered stages is, for an index in range, the projection read at the row the index selects (the
  take-along-axis lemma: the out-of-range fill is never read); the projections are contractions plus a bias; and the
  stages are combined in the specification's own association.
-/
import proofs.«167500_j32667521253810_2_alg».proof.Proof.RefStagesPrem
import proofs.«167500_j32667521253810_2_alg».proof.Proof.LibTakeAlongAxis
import proofs.«167500_j32667521253810_2_alg».proof.Proof.Rows
import proofs.«167500_j32667521253810_2_alg».proof.Proof.Spec

noncomputable section

namespace Cert.RefValue.Prem

open Cert.ReferenceIdeal Cert.ReferenceIdeal.ReadP Idealize.ShloMosaic Idealize.ShloMosaic.ValueIdx
open Idealize.ShloMosaic.TakeAlongAxis Cert.SpanSpec

/-- The index stage `v27` at (b, k, 0) is the index input's entry (b, 0, 0, k). -/
theorem idx_v27_apply (x1 : (⟨S16x1x2x256, .i32⟩ : BufTy).Contents (Elt Ideal)) (b : Fin 16) (k : Fin 256) :
    val_main_v27 (F := Ideal) x1 (ix3 b k 0) = x1 (ix4 b 0 0 k) := by
  rw [val_main_v27_apply, val_main_v3_apply, val_main_v2_apply, val_main_v0_apply]
  refine congrArg x1 (funext fun a => Fin.ext ?_)
  have hb := b.isLt
  have hk := k.isLt
  match a with
  | ⟨0, _⟩ => show (((b.val * 256 + k.val) / 256 * 2 + 0) * 256 + (b.val * 256 + k.val) % 256) / 512 = b.val; omega
  | ⟨1, _⟩ => rfl
  | ⟨2, _⟩ => show (((b.val * 256 + k.val) / 256 * 2 + 0) * 256 + (b.val * 256 + k.val) % 256) / 256 % 2 = 0; omega
  | ⟨3, _⟩ => show (((b.val * 256 + k.val) / 256 * 2 + 0) * 256 + (b.val * 256 + k.val) % 256) % 256 = k.val; omega

/-- The index stage `v29` at (b, k, 0) is the index input's entry (b, 0, 1, k). -/
theorem idx_v29_apply (x1 : (⟨S16x1x2x256, .i32⟩ : BufTy).Contents (Elt Ideal)) (b : Fin 16) (k : Fin 256) :
    val_main_v29 (F := Ideal) x1 (ix3 b k 0) = x1 (ix4 b 0 1 k) := by
  rw [val_main_v29_apply, val_main_v5_apply, val_main_v4_apply, val_main_v0_apply]
  refine congrArg x1 (funext fun a => Fin.ext ?_)
  have hb := b.isLt
  have hk := k.isLt
  match a with
  | ⟨0, _⟩ => show (((b.val * 256 + k.val) / 256 * 2 + 1) * 256 + (b.val * 256 + k.val) % 256) / 512 = b.val; omega
  | ⟨1, _⟩ => rfl
  | ⟨2, _⟩ => show (((b.val * 256 + k.val) / 256 * 2 + 1) * 256 + (b.val * 256 + k.val) % 256) / 256 % 2 = 1; omega
  | ⟨3, _⟩ => show (((b.val * 256 + k.val) / 256 * 2 + 1) * 256 + (b.val * 256 + k.val) % 256) % 256 = k.val; omega

/-- The index stage `v33` at (b, k, 0) is the index input's entry (b, 0, 0, k). -/
theorem idx_v33_apply (x1 : (⟨S16x1x2x256, .i32⟩ : BufTy).Contents (Elt Ideal)) (b : Fin 16) (k : Fin 256) :
    val_main_v33 (F := Ideal) x1 (ix3 b k 0) = x1 (ix4 b 0 0 k) := by
  rw [val_main_v33_apply, val_main_v3_apply, val_main_v2_apply, val_main_v0_apply]
  refine congrArg x1 (funext fun a => Fin.ext ?_)
  have hb := b.isLt
  have hk := k.isLt
  match a with
  | ⟨0, _⟩ => show (((b.val * 256 + k.val) / 256 * 2 + 0) * 256 + (b.val * 256 + k.val) % 256) / 512 = b.val; omega
  | ⟨1, _⟩ => rfl
  | ⟨2, _⟩ => show (((b.val * 256 + k.val) / 256 * 2 + 0) * 256 + (b.val * 256 + k.val) % 256) / 256 % 2 = 0; omega
  | ⟨3, _⟩ => show (((b.val * 256 + k.val) / 256 * 2 + 0) * 256 + (b.val * 256 + k.val) % 256) % 256 = k.val; omega

/-- The index stage `v35` at (b, k, 0) is the index input's entry (b, 0, 1, k). -/
theorem idx_v35_apply (x1 : (⟨S16x1x2x256, .i32⟩ : BufTy).Contents (Elt Ideal)) (b : Fin 16) (k : Fin 256) :
    val_main_v35 (F := Ideal) x1 (ix3 b k 0) = x1 (ix4 b 0 1 k) := by
  rw [val_main_v35_apply, val_main_v5_apply, val_main_v4_apply, val_main_v0_apply]
  refine congrArg x1 (funext fun a => Fin.ext ?_)
  have hb := b.isLt
  have hk := k.isLt
  match a with
  | ⟨0, _⟩ => show (((b.val * 256 + k.val) / 256 * 2 + 1) * 256 + (b.val * 256 + k.val) % 256) / 512 = b.val; omega
  | ⟨1, _⟩ => rfl
  | ⟨2, _⟩ => show (((b.val * 256 + k.val) / 256 * 2 + 1) * 256 + (b.val * 256 + k.val) % 256) / 256 % 2 = 1; omega
  | ⟨3, _⟩ => show (((b.val * 256 + k.val) / 256 * 2 + 1) * 256 + (b.val * 256 + k.val) % 256) % 256 = k.val; omega

/-- The gathered stage `v23` at (b, k, o), for an in-range start index: the projection `v9` at the selected row. -/
theorem take_v23 (x0 : (⟨S16x1024x1024, .f32⟩ : BufTy).Contents (Elt Ideal)) (x1 : (⟨S16x1x2x256, .i32⟩ : BufTy).Contents (Elt Ideal))
    (x3 : (⟨S1024x1024, .f32⟩ : BufTy).Contents (Elt Ideal)) (x4 : (⟨S1024, .f32⟩ : BufTy).Contents (Elt Ideal)) (b : Fin 16) (k : Fin 256) (o : Fin 1024)
    (hlo : -1024 ≤ BitVec.toInt (x1 (ix4 b 0 0 k))) (hhi : BitVec.toInt (x1 (ix4 b 0 0 k)) < 1024) :
    val_main_v23 (F := Ideal) x0 x1 x3 x4 (ix3 b k o)
      = val_main_v9 (F := Ideal) x0 x3 x4 (ix3 b (startRow x1 b k) o) := by
  have e := idx_v22_apply x1 b k
  have er : ∀ r : BitVec 32 → Fin 1024, r (x1 (ix4 b 0 0 k)) = r (val_main_v22 (F := Ideal) x1 (ix3 b k 0)) := fun r => by rw [e]
  show _ = val_main_v9 (F := Ideal) x0 x3 x4 (ix3 b (rowOf (x1 (ix4 b 0 0 k))) o)
  rw [er rowOf]
  exact take_apply _ _ _ _ _ _ gather_S16x1024x1024_S16x256x1_S16x256x1024_2_1_0_0_1_2_111024 rfl rfl rfl rfl rfl rfl rfl
    (val_main_v9 (F := Ideal) x0 x3 x4) (val_main_v22 (F := Ideal) x1) _ b k o (by rw [e]; exact hlo) (by rw [e]; exact hhi)

/-- The gathered stage `v25` at (b, k, o), for an in-range end index: the projection `v13` at the selected row. -/
theorem take_v25 (x0 : (⟨S16x1024x1024, .f32⟩ : BufTy).Contents (Elt Ideal)) (x1 : (⟨S16x1x2x256, .i32⟩ : BufTy).Contents (Elt Ideal))
    (x5 : (⟨S1024x1024, .f32⟩ : BufTy).Contents (Elt Ideal)) (x6 : (⟨S1024, .f32⟩ : BufTy).Contents (Elt Ideal)) (b : Fin 16) (k : Fin 256) (o : Fin 1024)
    (hlo : -1024 ≤ BitVec.toInt (x1 (ix4 b 0 1 k))) (hhi : BitVec.toInt (x1 (ix4 b 0 1 k)) < 1024) :
    val_main_v25 (F := Ideal) x0 x1 x5 x6 (ix3 b k o)
      = val_main_v13 (F := Ideal) x0 x5 x6 (ix3 b (endRow x1 b k) o) := by
  have e := idx_v24_apply x1 b k
  have er : ∀ r : BitVec 32 → Fin 1024, r (x1 (ix4 b 0 1 k)) = r (val_main_v24 (F := Ideal) x1 (ix3 b k 0)) := fun r => by rw [e]
  show _ = val_main_v13 (F := Ideal) x0 x5 x6 (ix3 b (rowOf (x1 (ix4 b 0 1 k))) o)
  rw [er rowOf]
  exact take_apply _ _ _ _ _ _ gather_S16x1024x1024_S16x256x1_S16x256x1024_2_1_0_0_1_2_111024 rfl rfl rfl rfl rfl rfl rfl
    (val_main_v13 (F := Ideal) x0 x5 x6) (val_main_v24 (F := Ideal) x1) _ b k o (by rw [e]; exact hlo) (by rw [e]; exact hhi)

/-- The gathered stage `v28` at (b, k, o), for an in-range start index: the projection `v17` at the selected row. -/
theorem take_v28 (x0 : (⟨S16x1024x1024, .f32⟩ : BufTy).Contents (Elt Ideal)) (x1 : (⟨S16x1x2x256, .i32⟩ : BufTy).Contents (Elt Ideal))
    (x7 : (⟨S1024x1024, .f32⟩ : BufTy).Contents (Elt Ideal)) (x8 : (⟨S1024, .f32⟩ : BufTy).Contents (Elt Ideal)) (b : Fin 16) (k : Fin 256) (o : Fin 1024)
    (hlo : -1024 ≤ BitVec.toInt (x1 (ix4 b 0 0 k))) (hhi : BitVec.toInt (x1 (ix4 b 0 0 k)) < 1024) :
    val_main_v28 (F := Ideal) x0 x1 x7 x8 (ix3 b k o)
      = val_main_v17 (F := Ideal) x0 x7 x8 (ix3 b (startRow x1 b k) o) := by
  have e := idx_v27_apply x1 b k
  have er : ∀ r : BitVec 32 → Fin 1024, r (x1 (ix4 b 0 0 k)) = r (val_main_v27 (F := Ideal) x1 (ix3 b k 0)) := fun r => by rw [e]
  show _ = val_main_v17 (F := Ideal) x0 x7 x8 (ix3 b (rowOf (x1 (ix4 b 0 0 k))) o)
  rw [er rowOf]
  exact take_apply _ _ _ _ _ _ gather_S16x1024x1024_S16x256x1_S16x256x1024_2_1_0_0_1_2_111024 rfl rfl rfl rfl rfl rfl rfl
    (val_main_v17 (F := Ideal) x0 x7 x8) (val_main_v27 (F := Ideal) x1) _ b k o (by rw [e]; exact hlo) (by rw [e]; exact hhi)

/-- The gathered stage `v30` at (b, k, o), for an in-range end index: the projection `v17` at the selected row. -/
theorem take_v30 (x0 : (⟨S16x1024x1024, .f32⟩ : BufTy).Contents (Elt Ideal)) (x1 : (⟨S16x1x2x256, .i32⟩ : BufTy).Contents (Elt Ideal))
    (x7 : (⟨S1024x1024, .f32⟩ : BufTy).Contents (Elt Ideal)) (x8 : (⟨S1024, .f32⟩ : BufTy).Contents (Elt Ideal)) (b : Fin 16) (k : Fin 256) (o : Fin 1024)
    (hlo : -1024 ≤ BitVec.toInt (x1 (ix4 b 0 1 k))) (hhi : BitVec.toInt (x1 (ix4 b 0 1 k)) < 1024) :
    val_main_v30 (F := Ideal) x0 x1 x7 x8 (ix3 b k o)
      = val_main_v17 (F := Ideal) x0 x7 x8 (ix3 b (endRow x1 b k) o) := by
  have e := idx_v29_apply x1 b k
  have er : ∀ r : BitVec 32 → Fin 1024, r (x1 (ix4 b 0 1 k)) = r (val_main_v29 (F := Ideal) x1 (ix3 b k 0)) := fun r => by rw [e]
  show _ = val_main_v17 (F := Ideal) x0 x7 x8 (ix3 b (rowOf (x1 (ix4 b 0 1 k))) o)
  rw [er rowOf]
  exact take_apply _ _ _ _ _ _ gather_S16x1024x1024_S16x256x1_S16x256x1024_2_1_0_0_1_2_111024 rfl rfl rfl rfl rfl rfl rfl
    (val_main_v17 (F := Ideal) x0 x7 x8) (val_main_v29 (F := Ideal) x1) _ b k o (by rw [e]; exact hlo) (by rw [e]; exact hhi)

/-- The gathered stage `v34` at (b, k, o), for an in-range start index: the projection `v21` at the selected row. -/
theorem take_v34 (x0 : (⟨S16x1024x1024, .f32⟩ : BufTy).Contents (Elt Ideal)) (x1 : (⟨S16x1x2x256, .i32⟩ : BufTy).Contents (Elt Ideal))
    (x9 : (⟨S1024x1024, .f32⟩ : BufTy).Contents (Elt Ideal)) (x10 : (⟨S1024, .f32⟩ : BufTy).Contents (Elt Ideal)) (b : Fin 16) (k : Fin 256) (o : Fin 1024)
    (hlo : -1024 ≤ BitVec.toInt (x1 (ix4 b 0 0 k))) (hhi : BitVec.toInt (x1 (ix4 b 0 0 k)) < 1024) :
    val_main_v34 (F := Ideal) x0 x1 x9 x10 (ix3 b k o)
      = val_main_v21 (F := Ideal) x0 x9 x10 (ix3 b (startRow x1 b k) o) := by
  have e := idx_v33_apply x1 b k
  have er : ∀ r : BitVec 32 → Fin 1024, r (x1 (ix4 b 0 0 k)) = r (val_main_v33 (F := Ideal) x1 (ix3 b k 0)) := fun r => by rw [e]
  show _ = val_main_v21 (F := Ideal) x0 x9 x10 (ix3 b (rowOf (x1 (ix4 b 0 0 k))) o)
  rw [er rowOf]
  exact take_apply _ _ _ _ _ _ gather_S16x1024x1024_S16x256x1_S16x256x1024_2_1_0_0_1_2_111024 rfl rfl rfl rfl rfl rfl rfl
    (val_main_v21 (F := Ideal) x0 x9 x10) (val_main_v33 (F := Ideal) x1) _ b k o (by rw [e]; exact hlo) (by rw [e]; exact hhi)

/-- The gathered stage `v36` at (b, k, o), for an in-range end index: the projection `v21` at the selected row. -/
theorem take_v36 (x0 : (⟨S16x1024x1024, .f32⟩ : BufTy).Contents (Elt Ideal)) (x1 : (⟨S16x1x2x256, .i32⟩ : BufTy).Contents (Elt Ideal))
    (x9 : (⟨S1024x1024, .f32⟩ : BufTy).Contents (Elt Ideal)) (x10 : (⟨S1024, .f32⟩ : BufTy).Contents (Elt Ideal)) (b : Fin 16) (k : Fin 256) (o : Fin 1024)
    (hlo : -1024 ≤ BitVec.toInt (x1 (ix4 b 0 1 k))) (hhi : BitVec.toInt (x1 (ix4 b 0 1 k)) < 1024) :
    val_main_v36 (F := Ideal) x0 x1 x9 x10 (ix3 b k o)
      = val_main_v21 (F := Ideal) x0 x9 x10 (ix3 b (endRow x1 b k) o) := by
  have e := idx_v35_apply x1 b k
  have er : ∀ r : BitVec 32 → Fin 1024, r (x1 (ix4 b 0 1 k)) = r (val_main_v35 (F := Ideal) x1 (ix3 b k 0)) := fun r => by rw [e]
  show _ = val_main_v21 (F := Ideal) x0 x9 x10 (ix3 b (rowOf (x1 (ix4 b 0 1 k))) o)
  rw [er rowOf]
  exact take_apply _ _ _ _ _ _ gather_S16x1024x1024_S16x256x1_S16x256x1024_2_1_0_0_1_2_111024 rfl rfl rfl rfl rfl rfl rfl
    (val_main_v21 (F := Ideal) x0 x9 x10) (val_main_v35 (F := Ideal) x1) _ b k o (by rw [e]; exact hlo) (by rw [e]; exact hhi)

/-- One cell of this side's result: the specification's cell of the two selected rows, the four weight rows and the
    four bias entries. The six gathered projections are read at the selected rows, and what is left is the
    specification's own association of the sum. -/
theorem cell (x0 : (⟨S16x1024x1024, .f32⟩ : BufTy).Contents (Elt Ideal)) (x1 : (⟨S16x1x2x256, .i32⟩ : BufTy).Contents (Elt Ideal))
    (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal))
    (hv : ∀ i, -1024 ≤ BitVec.toInt (x1 i) ∧ BitVec.toInt (x1 i) < 1024) (b : Fin 16) (k : Fin 256) (o : Fin 1024) :
    val_main_v39 (F := Ideal) x0 x1 x3 x4 x5 x6 x7 x8 x9 x10 (ix3 b k o)
      = spanCell (fun h => x0 (ix3 b (startRow x1 b k) h)) (fun h => x0 (ix3 b (endRow x1 b k) h))
          (fun h => x3 (ix2 o h)) (fun h => x5 (ix2 o h)) (fun h => x7 (ix2 o h)) (fun h => x9 (ix2 o h))
          (x4 (ix1 o)) (x6 (ix1 o)) (x8 (ix1 o)) (x10 (ix1 o)) := by
  obtain ⟨hs1, hs2⟩ := hv (ix4 b 0 0 k)
  obtain ⟨he1, he2⟩ := hv (ix4 b 0 1 k)
  rw [val_main_v39_apply, val_main_v38_apply, val_main_v32_apply, val_main_v26_apply, val_main_v31_apply, val_main_v37_apply,
    take_v23 x0 x1 x3 x4 b k o hs1 hs2, take_v25 x0 x1 x5 x6 b k o he1 he2,
    take_v28 x0 x1 x7 x8 b k o hs1 hs2, take_v30 x0 x1 x7 x8 b k o he1 he2,
    take_v34 x0 x1 x9 x10 b k o hs1 hs2, take_v36 x0 x1 x9 x10 b k o he1 he2]
  simp only [proj1_apply, proj2_apply, proj3_apply, proj4_apply]
  rfl

/-- This side's whole result array is the specification's. -/
theorem result_eq (x0 : (⟨S16x1024x1024, .f32⟩ : BufTy).Contents (Elt Ideal)) (x1 : (⟨S16x1x2x256, .i32⟩ : BufTy).Contents (Elt Ideal))
    (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal))
    (hv : ∀ i, -1024 ≤ BitVec.toInt (x1 i) ∧ BitVec.toInt (x1 i) < 1024) :
    val_main_v39 (F := Ideal) x0 x1 x3 x4 x5 x6 x7 x8 x9 x10
      = span x0 x3 x5 x7 x9 x4 x6 x8 x10 (startRow x1) (endRow x1) := by
  funext i
  obtain ⟨b, k, o, rfl⟩ : ∃ (b : Fin 16) (k : Fin 256) (o : Fin 1024), i = ix3 b k o := ⟨i 0, i 1, i 2, eq_ix3 i⟩
  rw [cell x0 x1 x3 x4 x5 x6 x7 x8 x9 x10 hv b k o]
  rfl

end Cert.RefValue.Prem

end
-- ==== Proof.RefStagesHypo.lean ====
/-
  The reference, one stage at a time, read at an index (hypothesis side): each of its four projections of the whole
  sequence, at batch entry b, row t and feature o, is the contraction of row t of the hidden states with row o of the
  weight matrix plus entry o of the bias.
-/
import proofs.«167500_j32667521253810_2_alg».proof.Proof.RefRead
import Idealize.ShloMosaic.Lib.ValueIdx
import Idealize.ShloMosaic.PureOps.Ideal.Laws

noncomputable section

namespace Cert.RefValue.Hypo

open Cert.ReferenceIdeal Cert.ReferenceIdeal.ReadP Idealize.ShloMosaic Idealize.ShloMosaic.ValueIdx

/-- The projection `proj1` of the whole sequence at (b, t, o): the contraction of row t with row o of the weights, plus the bias entry o. -/
theorem proj1_apply (x0 : (⟨S16x1024x1024, .f32⟩ : BufTy).Contents (Elt Ideal)) (x11 : (⟨S1024x1024, .f32⟩ : BufTy).Contents (Elt Ideal))
    (x12 : (⟨S1024, .f32⟩ : BufTy).Contents (Elt Ideal)) (b : Fin 16) (t : Fin 1024) (o : Fin 1024) :
    val_main_v47 (F := Ideal) x0 x11 x12 (ix3 b t o) = (∑ h : Fin 1024, x0 (ix3 b t h) * x11 (ix2 o h)) + x12 (ix1 o) := by
  rw [val_main_v47_apply, val_main_v44_apply, val_main_v46_apply, val_main_v45_apply]
  have el : ∀ h : Fin 1024, lidx_main_v44 (ix3 b t o) h = ix3 b t h := fun h => funext fun a => Fin.ext (by
    match a with | ⟨0, _⟩ => rfl | ⟨1, _⟩ => rfl | ⟨2, _⟩ => rfl)
  have er : ∀ h : Fin 1024, ridx_main_v44 (ix3 b t o) h = ix2 o h := fun h => funext fun a => Fin.ext (by
    match a with | ⟨0, _⟩ => rfl | ⟨1, _⟩ => rfl)
  have eb : idx_main_v45 (idx_main_v46 (ix3 b t o)) = ix1 o := funext fun a => Fin.ext (by
    match a with | ⟨0, _⟩ => rfl)
  simp only [el, er, eb, Ideal.addf_def]

/-- The projection `proj2` of the whole sequence at (b, t, o): the contraction of row t with row o of the weights, plus the bias entry o. -/
theorem proj2_apply (x0 : (⟨S16x1024x1024, .f32⟩ : BufTy).Contents (Elt Ideal)) (x13 : (⟨S1024x1024, .f32⟩ : BufTy).Contents (Elt Ideal))
    (x14 : (⟨S1024, .f32⟩ : BufTy).Contents (Elt Ideal)) (b : Fin 16) (t : Fin 1024) (o : Fin 1024) :
    val_main_v51 (F := Ideal) x0 x13 x14 (ix3 b t o) = (∑ h : Fin 1024, x0 (ix3 b t h) * x13 (ix2 o h)) + x14 (ix1 o) := by
  rw [val_main_v51_apply, val_main_v48_apply, val_main_v50_apply, val_main_v49_apply]
  have el : ∀ h : Fin 1024, lidx_main_v48 (ix3 b t o) h = ix3 b t h := fun h => funext fun a => Fin.ext (by
    match a with | ⟨0, _⟩ => rfl | ⟨1, _⟩ => rfl | ⟨2, _⟩ => rfl)
  have er : ∀ h : Fin 1024, ridx_main_v48 (ix3 b t o) h = ix2 o h := fun h => funext fun a => Fin.ext (by
    match a with | ⟨0, _⟩ => rfl | ⟨1, _⟩ => rfl)
  have eb : idx_main_v49 (idx_main_v50 (ix3 b t o)) = ix1 o := funext fun a => Fin.ext (by
    match a with | ⟨0, _⟩ => rfl)
  simp only [el, er, eb, Ideal.addf_def]

/-- The projection `proj3` of the whole sequence at (b, t, o): the contraction of row t with row o of the weights, plus the bias entry o. -/
theorem proj3_apply (x0 : (⟨S16x1024x1024, .f32⟩ : BufTy).Contents (Elt Ideal)) (x15 : (⟨S1024x1024, .f32⟩ : BufTy).Contents (Elt Ideal))
    (x16 : (⟨S1024, .f32⟩ : BufTy).Contents (Elt Ideal)) (b : Fin 16) (t : Fin 1024) (o : Fin 1024) :
    val_main_v55 (F := Ideal) x0 x15 x16 (ix3 b t o) = (∑ h : Fin 1024, x0 (ix3 b t h) * x15 (ix2 o h)) + x16 (ix1 o) := by
  rw [val_main_v55_apply, val_main_v52_apply, val_main_v54_apply, val_main_v53_apply]
  have el : ∀ h : Fin 1024, lidx_main_v52 (ix3 b t o) h = ix3 b t h := fun h => funext fun a => Fin.ext (by
    match a with | ⟨0, _⟩ => rfl | ⟨1, _⟩ => rfl | ⟨2, _⟩ => rfl)
  have er : ∀ h : Fin 1024, ridx_main_v52 (ix3 b t o) h = ix2 o h := fun h => funext fun a => Fin.ext (by
    match a with | ⟨0, _⟩ => rfl | ⟨1, _⟩ => rfl)
  have eb : idx_main_v53 (idx_main_v54 (ix3 b t o)) = ix1 o := funext fun a => Fin.ext (by
    match a with | ⟨0, _⟩ => rfl)
  simp only [el, er, eb, Ideal.addf_def]

/-- The projection `proj4` of the whole sequence at (b, t, o): the contraction of row t with row o of the weights, plus the bias entry o. -/
theorem proj4_apply (x0 : (⟨S16x1024x1024, .f32⟩ : BufTy).Contents (Elt Ideal)) (x17 : (⟨S1024x1024, .f32⟩ : BufTy).Contents (Elt Ideal))
    (x18 : (⟨S1024, .f32⟩ : BufTy).Contents (Elt Ideal)) (b : Fin 16) (t : Fin 1024) (o : Fin 1024) :
    val_main_v59 (F := Ideal) x0 x17 x18 (ix3 b t o) = (∑ h : Fin 1024, x0 (ix3 b t h) * x17 (ix2 o h)) + x18 (ix1 o) := by
  rw [val_main_v59_apply, val_main_v56_apply, val_main_v58_apply, val_main_v57_apply]
  have el : ∀ h : Fin 1024, lidx_main_v56 (ix3 b t o) h = ix3 b t h := fun h => funext fun a => Fin.ext (by
    match a with | ⟨0, _⟩ => rfl | ⟨1, _⟩ => rfl | ⟨2, _⟩ => rfl)
  have er : ∀ h : Fin 1024, ridx_main_v56 (ix3 b t o) h = ix2 o h := fun h => funext fun a => Fin.ext (by
    match a with | ⟨0, _⟩ => rfl | ⟨1, _⟩ => rfl)
  have eb : idx_main_v57 (idx_main_v58 (ix3 b t o)) = ix1 o := funext fun a => Fin.ext (by
    match a with | ⟨0, _⟩ => rfl)
  simp only [el, er, eb, Ideal.addf_def]

end Cert.RefValue.Hypo

end
-- ==== Proof.RefValueHypo.lean ====
/-
  The reference's hypothesis result is the specification (hypothesis side): as on the premise side, each gathered
  stage is, for an index in range, the projection read at the row the index selects, and the stages are combined in
  the specification's own association.
-/
import proofs.«167500_j32667521253810_2_alg».proof.Proof.RefStagesHypo
import proofs.«167500_j32667521253810_2_alg».proof.Proof.LibTakeAlongAxis
import proofs.«167500_j32667521253810_2_alg».proof.Proof.Rows
import proofs.«167500_j32667521253810_2_alg».proof.Proof.Spec

noncomputable section

namespace Cert.RefValue.Hypo

open Cert.ReferenceIdeal Cert.ReferenceIdeal.ReadP Idealize.ShloMosaic Idealize.ShloMosaic.ValueIdx
open Idealize.ShloMosaic.TakeAlongAxis Cert.SpanSpec

/-- The index stage `v60` at (b, k, 0) is the index input's entry (b, 0, 0, k). -/
theorem idx_v60_apply (x2 : (⟨S16x1x2x256, .i32⟩ : BufTy).Contents (Elt Ideal)) (b : Fin 16) (k : Fin 256) :
    val_main_v60 (F := Ideal) x2 (ix3 b k 0) = x2 (ix4 b 0 0 k) := by
  rw [val_main_v60_apply, val_main_v41_apply, val_main_v40_apply, val_main_v1_apply]
  refine congrArg x2 (funext fun a => Fin.ext ?_)
  have hb := b.isLt
  have hk := k.isLt
  match a with
  | ⟨0, _⟩ => show (((b.val * 256 + k.val) / 256 * 2 + 0) * 256 + (b.val * 256 + k.val) % 256) / 512 = b.val; omega
  | ⟨1, _⟩ => rfl
  | ⟨2, _⟩ => show (((b.val * 256 + k.val) / 256 * 2 + 0) * 256 + (b.val * 256 + k.val) % 256) / 256 % 2 = 0; omega
  | ⟨3, _⟩ => show (((b.val * 256 + k.val) / 256 * 2 + 0) * 256 + (b.val * 256 + k.val) % 256) % 256 = k.val; omega

/-- The index stage `v62` at (b, k, 0) is the index input's entry (b, 0, 1, k). -/
theorem idx_v62_apply (x2 : (⟨S16x1x2x256, .i32⟩ : BufTy).Contents (Elt Ideal)) (b : Fin 16) (k : Fin 256) :
    val_main_v62 (F := Ideal) x2 (ix3 b k 0) = x2 (ix4 b 0 1 k) := by
  rw [val_main_v62_apply, val_main_v43_apply, val_main_v42_apply, val_main_v1_apply]
  refine congrArg x2 (funext fun a => Fin.ext ?_)
  have hb := b.isLt
  have hk := k.isLt
  match a with
  | ⟨0, _⟩ => show (((b.val * 256 + k.val) / 256 * 2 + 1) * 256 + (b.val * 256 + k.val) % 256) / 512 = b.val; omega
  | ⟨1, _⟩ => rfl
  | ⟨2, _⟩ => show (((b.val * 256 + k.val) / 256 * 2 + 1) * 256 + (b.val * 256 + k.val) % 256) / 256 % 2 = 1; omega
  | ⟨3, _⟩ => show (((b.val * 256 + k.val) / 256 * 2 + 1) * 256 + (b.val * 256 + k.val) % 256) % 256 = k.val; omega

/-- The index stage `v65` at (b, k, 0) is the index input's entry (b, 0, 0, k). -/
theorem idx_v65_apply (x2 : (⟨S16x1x2x256, .i32⟩ : BufTy).Contents (Elt Ideal)) (b : Fin 16) (k : Fin 256) :
    val_main_v65 (F := Ideal) x2 (ix3 b k 0) = x2 (ix4 b 0 0 k) := by
  rw [val_main_v65_apply, val_main_v41_apply, val_main_v40_apply, val_main_v1_apply]
  refine congrArg x2 (funext fun a => Fin.ext ?_)
  have hb := b.isLt
  have hk := k.isLt
  match a with
  | ⟨0, _⟩ => show (((b.val * 256 + k.val) / 256 * 2 + 0) * 256 + (b.val * 256 + k.val) % 256) / 512 = b.val; omega
  | ⟨1, _⟩ => rfl
  | ⟨2, _⟩ => show (((b.val * 256 + k.val) / 256 * 2 + 0) * 256 + (b.val * 256 + k.val) % 256) / 256 % 2 = 0; omega
  | ⟨3, _⟩ => show (((b.val * 256 + k.val) / 256 * 2 + 0) * 256 + (b.val * 256 + k.val) % 256) % 256 = k.val; omega

/-- The index stage `v67` at (b, k, 0) is the index input's entry (b, 0, 1, k). -/
theorem idx_v67_apply (x2 : (⟨S16x1x2x256, .i32⟩ : BufTy).Contents (Elt Ideal)) (b : Fin 16) (k : Fin 256) :
    val_main_v67 (F := Ideal) x2 (ix3 b k 0) = x2 (ix4 b 0 1 k) := by
  rw [val_main_v67_apply, val_main_v43_apply, val_main_v42_apply, val_main_v1_apply]
  refine congrArg x2 (funext fun a => Fin.ext ?_)
  have hb := b.isLt
  have hk := k.isLt
  match a with
  | ⟨0, _⟩ => show (((b.val * 256 + k.val) / 256 * 2 + 1) * 256 + (b.val * 256 + k.val) % 256) / 512 = b.val; omega
  | ⟨1, _⟩ => rfl
  | ⟨2, _⟩ => show (((b.val * 256 + k.val) / 256 * 2 + 1) * 256 + (b.val * 256 + k.val) % 256) / 256 % 2 = 1; omega
  | ⟨3, _⟩ => show (((b.val * 256 + k.val) / 256 * 2 + 1) * 256 + (b.val * 256 + k.val) % 256) % 256 = k.val; omega

/-- The index stage `v71` at (b, k, 0) is the index input's entry (b, 0, 0, k). -/
theorem idx_v71_apply (x2 : (⟨S16x1x2x256, .i32⟩ : BufTy).Contents (Elt Ideal)) (b : Fin 16) (k : Fin 256) :
    val_main_v71 (F := Ideal) x2 (ix3 b k 0) = x2 (ix4 b 0 0 k) := by
  rw [val_main_v71_apply, val_main_v41_apply, val_main_v40_apply, val_main_v1_apply]
  refine congrArg x2 (funext fun a => Fin.ext ?_)
  have hb := b.isLt
  have hk := k.isLt
  match a with
  | ⟨0, _⟩ => show (((b.val * 256 + k.val) / 256 * 2 + 0) * 256 + (b.val * 256 + k.val) % 256) / 512 = b.val; omega
  | ⟨1, _⟩ => rfl
  | ⟨2, _⟩ => show (((b.val * 256 + k.val) / 256 * 2 + 0) * 256 + (b.val * 256 + k.val) % 256) / 256 % 2 = 0; omega
  | ⟨3, _⟩ => show (((b.val * 256 + k.val) / 256 * 2 + 0) * 256 + (b.val * 256 + k.val) % 256) % 256 = k.val; omega

/-- The index stage `v73` at (b, k, 0) is the index input's entry (b, 0, 1, k). -/
theorem idx_v73_apply (x2 : (⟨S16x1x2x256, .i32⟩ : BufTy).Contents (Elt Ideal)) (b : Fin 16) (k : Fin 256) :
    val_main_v73 (F := Ideal) x2 (ix3 b k 0) = x2 (ix4 b 0 1 k) := by
  rw [val_main_v73_apply, val_main_v43_apply, val_main_v42_apply, val_main_v1_apply]
  refine congrArg x2 (funext fun a => Fin.ext ?_)
  have hb := b.isLt
  have hk := k.isLt
  match a with
  | ⟨0, _⟩ => show (((b.val * 256 + k.val) / 256 * 2 + 1) * 256 + (b.val * 256 + k.val) % 256) / 512 = b.val; omega
  | ⟨1, _⟩ => rfl
  | ⟨2, _⟩ => show (((b.val * 256 + k.val) / 256 * 2 + 1) * 256 + (b.val * 256 + k.val) % 256) / 256 % 2 = 1; omega
  | ⟨3, _⟩ => show (((b.val * 256 + k.val) / 256 * 2 + 1) * 256 + (b.val * 256 + k.val) % 256) % 256 = k.val; omega

/-- The gathered stage `v61` at (b, k, o), for an in-range start index: the projection `v47` at the selected row. -/
theorem take_v61 (x0 : (⟨S16x1024x1024, .f32⟩ : BufTy).Contents (Elt Ideal)) (x2 : (⟨S16x1x2x256, .i32⟩ : BufTy).Contents (Elt Ideal))
    (x11 : (⟨S1024x1024, .f32⟩ : BufTy).Contents (Elt Ideal)) (x12 : (⟨S1024, .f32⟩ : BufTy).Contents (Elt Ideal)) (b : Fin 16) (k : Fin 256) (o : Fin 1024)
    (hlo : -1024 ≤ BitVec.toInt (x2 (ix4 b 0 0 k))) (hhi : BitVec.toInt (x2 (ix4 b 0 0 k)) < 1024) :
    val_main_v61 (F := Ideal) x0 x2 x11 x12 (ix3 b k o)
      = val_main_v47 (F := Ideal) x0 x11 x12 (ix3 b (startRow x2 b k) o) := by
  have e := idx_v60_apply x2 b k
  have er : ∀ r : BitVec 32 → Fin 1024, r (x2 (ix4 b 0 0 k)) = r (val_main_v60 (F := Ideal) x2 (ix3 b k 0)) := fun r => by rw [e]
  show _ = val_main_v47 (F := Ideal) x0 x11 x12 (ix3 b (rowOf (x2 (ix4 b 0 0 k))) o)
  rw [er rowOf]
  exact take_apply _ _ _ _ _ _ gather_S16x1024x1024_S16x256x1_S16x256x1024_2_1_0_0_1_2_111024 rfl rfl rfl rfl rfl rfl rfl
    (val_main_v47 (F := Ideal) x0 x11 x12) (val_main_v60 (F := Ideal) x2) _ b k o (by rw [e]; exact hlo) (by rw [e]; exact hhi)

/-- The gathered stage `v63` at (b, k, o), for an in-range end index: the projection `v51` at the selected row. -/
theorem take_v63 (x0 : (⟨S16x1024x1024, .f32⟩ : BufTy).Contents (Elt Ideal)) (x2 : (⟨S16x1x2x256, .i32⟩ : BufTy).Contents (Elt Ideal))
    (x13 : (⟨S1024x1024, .f32⟩ : BufTy).Contents (Elt Ideal)) (x14 : (⟨S1024, .f32⟩ : BufTy).Contents (Elt Ideal)) (b : Fin 16) (k : Fin 256) (o : Fin 1024)
    (hlo : -1024 ≤ BitVec.toInt (x2 (ix4 b 0 1 k))) (hhi : BitVec.toInt (x2 (ix4 b 0 1 k)) < 1024) :
    val_main_v63 (F := Ideal) x0 x2 x13 x14 (ix3 b k o)
      = val_main_v51 (F := Ideal) x0 x13 x14 (ix3 b (endRow x2 b k) o) := by
  have e := idx_v62_apply x2 b k
  have er : ∀ r : BitVec 32 → Fin 1024, r (x2 (ix4 b 0 1 k)) = r (val_main_v62 (F := Ideal) x2 (ix3 b k 0)) := fun r => by rw [e]
  show _ = val_main_v51 (F := Ideal) x0 x13 x14 (ix3 b (rowOf (x2 (ix4 b 0 1 k))) o)
  rw [er rowOf]
  exact take_apply _ _ _ _ _ _ gather_S16x1024x1024_S16x256x1_S16x256x1024_2_1_0_0_1_2_111024 rfl rfl rfl rfl rfl rfl rfl
    (val_main_v51 (F := Ideal) x0 x13 x14) (val_main_v62 (F := Ideal) x2) _ b k o (by rw [e]; exact hlo) (by rw [e]; exact hhi)

/-- The gathered stage `v66` at (b, k, o), for an in-range start index: the projection `v55` at the selected row. -/
theorem take_v66 (x0 : (⟨S16x1024x1024, .f32⟩ : BufTy).Contents (Elt Ideal)) (x2 : (⟨S16x1x2x256, .i32⟩ : BufTy).Contents (Elt Ideal))
    (x15 : (⟨S1024x1024, .f32⟩ : BufTy).Contents (Elt Ideal)) (x16 : (⟨S1024, .f32⟩ : BufTy).Contents (Elt Ideal)) (b : Fin 16) (k : Fin 256) (o : Fin 1024)
    (hlo : -1024 ≤ BitVec.toInt (x2 (ix4 b 0 0 k))) (hhi : BitVec.toInt (x2 (ix4 b 0 0 k)) < 1024) :
    val_main_v66 (F := Ideal) x0 x2 x15 x16 (ix3 b k o)
      = val_main_v55 (F := Ideal) x0 x15 x16 (ix3 b (startRow x2 b k) o) := by
  have e := idx_v65_apply x2 b k
  have er : ∀ r : BitVec 32 → Fin 1024, r (x2 (ix4 b 0 0 k)) = r (val_main_v65 (F := Ideal) x2 (ix3 b k 0)) := fun r => by rw [e]
  show _ = val_main_v55 (F := Ideal) x0 x15 x16 (ix3 b (rowOf (x2 (ix4 b 0 0 k))) o)
  rw [er rowOf]
  exact take_apply _ _ _ _ _ _ gather_S16x1024x1024_S16x256x1_S16x256x1024_2_1_0_0_1_2_111024 rfl rfl rfl rfl rfl rfl rfl
    (val_main_v55 (F := Ideal) x0 x15 x16) (val_main_v65 (F := Ideal) x2) _ b k o (by rw [e]; exact hlo) (by rw [e]; exact hhi)

/-- The gathered stage `v68` at (b, k, o), for an in-range end index: the projection `v55` at the selected row. -/
theorem take_v68 (x0 : (⟨S16x1024x1024, .f32⟩ : BufTy).Contents (Elt Ideal)) (x2 : (⟨S16x1x2x256, .i32⟩ : BufTy).Contents (Elt Ideal))
    (x15 : (⟨S1024x1024, .f32⟩ : BufTy).Contents (Elt Ideal)) (x16 : (⟨S1024, .f32⟩ : BufTy).Contents (Elt Ideal)) (b : Fin 16) (k : Fin 256) (o : Fin 1024)
    (hlo : -1024 ≤ BitVec.toInt (x2 (ix4 b 0 1 k))) (hhi : BitVec.toInt (x2 (ix4 b 0 1 k)) < 1024) :
    val_main_v68 (F := Ideal) x0 x2 x15 x16 (ix3 b k o)
      = val_main_v55 (F := Ideal) x0 x15 x16 (ix3 b (endRow x2 b k) o) := by
  have e := idx_v67_apply x2 b k
  have er : ∀ r : BitVec 32 → Fin 1024, r (x2 (ix4 b 0 1 k)) = r (val_main_v67 (F := Ideal) x2 (ix3 b k 0)) := fun r => by rw [e]
  show _ = val_main_v55 (F := Ideal) x0 x15 x16 (ix3 b (rowOf (x2 (ix4 b 0 1 k))) o)
  rw [er rowOf]
  exact take_apply _ _ _ _ _ _ gather_S16x1024x1024_S16x256x1_S16x256x1024_2_1_0_0_1_2_111024 rfl rfl rfl rfl rfl rfl rfl
    (val_main_v55 (F := Ideal) x0 x15 x16) (val_main_v67 (F := Ideal) x2) _ b k o (by rw [e]; exact hlo) (by rw [e]; exact hhi)

/-- The gathered stage `v72` at (b, k, o), for an in-range start index: the projection `v59` at the selected row. -/
theorem take_v72 (x0 : (⟨S16x1024x1024, .f32⟩ : BufTy).Contents (Elt Ideal)) (x2 : (⟨S16x1x2x256, .i32⟩ : BufTy).Contents (Elt Ideal))
    (x17 : (⟨S1024x1024, .f32⟩ : BufTy).Contents (Elt Ideal)) (x18 : (⟨S1024, .f32⟩ : BufTy).Contents (Elt Ideal)) (b : Fin 16) (k : Fin 256) (o : Fin 1024)
    (hlo : -1024 ≤ BitVec.toInt (x2 (ix4 b 0 0 k))) (hhi : BitVec.toInt (x2 (ix4 b 0 0 k)) < 1024) :
    val_main_v72 (F := Ideal) x0 x2 x17 x18 (ix3 b k o)
      = val_main_v59 (F := Ideal) x0 x17 x18 (ix3 b (startRow x2 b k) o) := by
  have e := idx_v71_apply x2 b k
  have er : ∀ r : BitVec 32 → Fin 1024, r (x2 (ix4 b 0 0 k)) = r (val_main_v71 (F := Ideal) x2 (ix3 b k 0)) := fun r => by rw [e]
  show _ = val_main_v59 (F := Ideal) x0 x17 x18 (ix3 b (rowOf (x2 (ix4 b 0 0 k))) o)
  rw [er rowOf]
  exact take_apply _ _ _ _ _ _ gather_S16x1024x1024_S16x256x1_S16x256x1024_2_1_0_0_1_2_111024 rfl rfl rfl rfl rfl rfl rfl
    (val_main_v59 (F := Ideal) x0 x17 x18) (val_main_v71 (F := Ideal) x2) _ b k o (by rw [e]; exact hlo) (by rw [e]; exact hhi)

/-- The gathered stage `v74` at (b, k, o), for an in-range end index: the projection `v59` at the selected row. -/
theorem take_v74 (x0 : (⟨S16x1024x1024, .f32⟩ : BufTy).Contents (Elt Ideal)) (x2 : (⟨S16x1x2x256, .i32⟩ : BufTy).Contents (Elt Ideal))
    (x17 : (⟨S1024x1024, .f32⟩ : BufTy).Contents (Elt Ideal)) (x18 : (⟨S1024, .f32⟩ : BufTy).Contents (Elt Ideal)) (b : Fin 16) (k : Fin 256) (o : Fin 1024)
    (hlo : -1024 ≤ BitVec.toInt (x2 (ix4 b 0 1 k))) (hhi : BitVec.toInt (x2 (ix4 b 0 1 k)) < 1024) :
    val_main_v74 (F := Ideal) x0 x2 x17 x18 (ix3 b k o)
      = val_main_v59 (F := Ideal) x0 x17 x18 (ix3 b (endRow x2 b k) o) := by
  have e := idx_v73_apply x2 b k
  have er : ∀ r : BitVec 32 → Fin 1024, r (x2 (ix4 b 0 1 k)) = r (val_main_v73 (F := Ideal) x2 (ix3 b k 0)) := fun r => by rw [e]
  show _ = val_main_v59 (F := Ideal) x0 x17 x18 (ix3 b (rowOf (x2 (ix4 b 0 1 k))) o)
  rw [er rowOf]
  exact take_apply _ _ _ _ _ _ gather_S16x1024x1024_S16x256x1_S16x256x1024_2_1_0_0_1_2_111024 rfl rfl rfl rfl rfl rfl rfl
    (val_main_v59 (F := Ideal) x0 x17 x18) (val_main_v73 (F := Ideal) x2) _ b k o (by rw [e]; exact hlo) (by rw [e]; exact hhi)

/-- One cell of this side's result: the specification's cell of the two selected rows, the four weight rows and the
    four bias entries. The six gathered projections are read at the selected rows, and what is left is the
    specification's own association of the sum. -/
theorem cell (x0 : (⟨S16x1024x1024, .f32⟩ : BufTy).Contents (Elt Ideal)) (x2 : (⟨S16x1x2x256, .i32⟩ : BufTy).Contents (Elt Ideal))
    (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal))
    (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal))
    (hv : ∀ i, -1024 ≤ BitVec.toInt (x2 i) ∧ BitVec.toInt (x2 i) < 1024) (b : Fin 16) (k : Fin 256) (o : Fin 1024) :
    val_main_v77 (F := Ideal) x0 x2 x11 x12 x13 x14 x15 x16 x17 x18 (ix3 b k o)
      = spanCell (fun h => x0 (ix3 b (startRow x2 b k) h)) (fun h => x0 (ix3 b (endRow x2 b k) h))
          (fun h => x11 (ix2 o h)) (fun h => x13 (ix2 o h)) (fun h => x15 (ix2 o h)) (fun h => x17 (ix2 o h))
          (x12 (ix1 o)) (x14 (ix1 o)) (x16 (ix1 o)) (x18 (ix1 o)) := by
  obtain ⟨hs1, hs2⟩ := hv (ix4 b 0 0 k)
  obtain ⟨he1, he2⟩ := hv (ix4 b 0 1 k)
  rw [val_main_v77_apply, val_main_v76_apply, val_main_v70_apply, val_main_v64_apply, val_main_v69_apply, val_main_v75_apply,
    take_v61 x0 x2 x11 x12 b k o hs1 hs2, take_v63 x0 x2 x13 x14 b k o he1 he2,
    take_v66 x0 x2 x15 x16 b k o hs1 hs2, take_v68 x0 x2 x15 x16 b k o he1 he2,
    take_v72 x0 x2 x17 x18 b k o hs1 hs2, take_v74 x0 x2 x17 x18 b k o he1 he2]
  simp only [proj1_apply, proj2_apply, proj3_apply, proj4_apply]
  rfl

/-- This side's whole result array is the specification's. -/
theorem result_eq (x0 : (⟨S16x1024x1024, .f32⟩ : BufTy).Contents (Elt Ideal)) (x2 : (⟨S16x1x2x256, .i32⟩ : BufTy).Contents (Elt Ideal))
    (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal))
    (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal))
    (hv : ∀ i, -1024 ≤ BitVec.toInt (x2 i) ∧ BitVec.toInt (x2 i) < 1024) :
    val_main_v77 (F := Ideal) x0 x2 x11 x12 x13 x14 x15 x16 x17 x18
      = span x0 x11 x13 x15 x17 x12 x14 x16 x18 (startRow x2) (endRow x2) := by
  funext i
  obtain ⟨b, k, o, rfl⟩ : ∃ (b : Fin 16) (k : Fin 256) (o : Fin 1024), i = ix3 b k o := ⟨i 0, i 1, i 2, eq_ix3 i⟩
  rw [cell x0 x2 x11 x12 x13 x14 x15 x16 x17 x18 hv b k o]
  rfl

end Cert.RefValue.Hypo

end
-- ==== Proof.RefRunValue.lean ====
/-
  The reference's run, with its two results read as the specification.

  For a memory whose index array of a side is in range, the result the reference's run leaves for that side is the
  specification's array of that side, of the memory's own argument arrays.
-/
import proofs.«167500_j32667521253810_2_alg».proof.Proof.RefRunRead
import proofs.«167500_j32667521253810_2_alg».proof.Proof.RefValuePrem
import proofs.«167500_j32667521253810_2_alg».proof.Proof.RefValueHypo

noncomputable section

namespace Cert.RefValue

open Cert.ReferenceIdeal Cert.ReferenceIdeal.Gen Idealize.ShloMosaic Idealize.ShloMosaic.TcCoe Idealize.SL.Sem Cert.SpanSpec

variable (m : (ℓ : Loc nD τ sig) → Buf (Elt Ideal) ℓ)

/-- The premise result of the reference's run. -/
theorem prem_run (c : Dev nD)
    (hv : ∀ i, -1024 ≤ BitVec.toInt ((m ((c.tc : Thread nD τ).loc main_arg1)) i) ∧ BitVec.toInt ((m ((c.tc : Thread nD τ).loc main_arg1)) i) < 1024) :
    Cert.ReferenceIdeal.ValueP.res_main_v39 m c
      = span (m ((c.tc : Thread nD τ).loc main_arg0)) (m ((c.tc : Thread nD τ).loc main_arg3)) (m ((c.tc : Thread nD τ).loc main_arg5)) (m ((c.tc : Thread nD τ).loc main_arg7)) (m ((c.tc : Thread nD τ).loc main_arg9))
          (m ((c.tc : Thread nD τ).loc main_arg4)) (m ((c.tc : Thread nD τ).loc main_arg6)) (m ((c.tc : Thread nD τ).loc main_arg8)) (m ((c.tc : Thread nD τ).loc main_arg10)) (startRow (m ((c.tc : Thread nD τ).loc main_arg1))) (endRow (m ((c.tc : Thread nD τ).loc main_arg1))) :=
  (Cert.ReferenceIdeal.ReadP.val_main_v39_eq m c).trans (Cert.RefValue.Prem.result_eq _ _ _ _ _ _ _ _ _ _ hv)

/-- The hypothesis result of the reference's run. -/
theorem hypo_run (c : Dev nD)
    (hv : ∀ i, -1024 ≤ BitVec.toInt ((m ((c.tc : Thread nD τ).loc main_arg2)) i) ∧ BitVec.toInt ((m ((c.tc : Thread nD τ).loc main_arg2)) i) < 1024) :
    Cert.ReferenceIdeal.ValueP.res_main_v77 m c
      = span (m ((c.tc : Thread nD τ).loc main_arg0)) (m ((c.tc : Thread nD τ).loc main_arg11)) (m ((c.tc : Thread nD τ).loc main_arg13)) (m ((c.tc : Thread nD τ).loc main_arg15)) (m ((c.tc : Thread nD τ).loc main_arg17))
          (m ((c.tc : Thread nD τ).loc main_arg12)) (m ((c.tc : Thread nD τ).loc main_arg14)) (m ((c.tc : Thread nD τ).loc main_arg16)) (m ((c.tc : Thread nD τ).loc main_arg18)) (startRow (m ((c.tc : Thread nD τ).loc main_arg2))) (endRow (m ((c.tc : Thread nD τ).loc main_arg2))) :=
  (Cert.ReferenceIdeal.ReadP.val_main_v77_eq m c).trans (Cert.RefValue.Hypo.result_eq _ _ _ _ _ _ _ _ _ _ hv)

end Cert.RefValue

end
-- ==== Proof.BodyCell.lean ====
/-
  The kernel body's stored block, read at an index.

  The body holds a block of 512 gathered start rows and a block of 512 gathered end rows (each row 1024 hidden
  features), the four weight matrices (row `o` of a matrix holds the 1024 coefficients of output feature `o`) and
  the four biases. It forms six products, each contracting the hidden axis of a row block with the hidden axis of a
  weight matrix (so entry `(p, o)` of a product is `∑ h, rows(p, h) · W(o, h)`), adds to each the bias row spread
  over the 512 rows, and stores `tanh (((p1 + p2) + (p3s − p3e)) + p4s · p4e)` entry by entry.

  Every operation but the product acts on one entry at a time or only renames indices (a unit axis added or dropped,
  one row spread over many), so the stored entry `(p, o)` is the specification's cell of row `p` of the two row
  blocks, row `o` of each weight matrix and entry `o` of each bias. The product's contraction index has one axis of
  extent 1024: the sum over it is re-indexed by that axis' coordinate.
-/
import proofs.«167500_j32667521253810_2_alg».proof.Proof.Gen.KernelIdeal.Frame
import proofs.«167500_j32667521253810_2_alg».proof.Proof.Spec
import Idealize.ShloMosaic.PureOps.Ideal.Laws
import Idealize.ShloMosaic.Lib.ValueIdx
import Idealize.ShloMosaic.Lib.ValueLayout

noncomputable section

namespace Cert.BodyCell

open Idealize.ShloMosaic Idealize.ShloMosaic.ValueIdx
open Cert.KernelIdeal Cert.KernelIdeal.Gen

/-! ## The product of a row block with a transposed weight matrix -/

/-- On the row axis the left operand's index is the output's row, whatever the contraction position. -/
theorem lhs_row (i : S512x1024.Idx) (k : dot_S512x1024_S1024x1024_S512x1024_1_1_0_0_n_n.contr.Idx) :
    (dot_S512x1024_S1024x1024_S512x1024_1_1_0_0_n_n.lhsIdx i k 0).val = (i 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl

/-- On its row axis the right operand's index is the output's column: the weight matrix is read transposed. -/
theorem rhs_row (i : S512x1024.Idx) (k : dot_S512x1024_S1024x1024_S512x1024_1_1_0_0_n_n.contr.Idx) :
    (dot_S512x1024_S1024x1024_S512x1024_1_1_0_0_n_n.rhsIdx i k 0).val = (i 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl

/-- Entry `(p, q)` of the product accumulated into zero: row `p` of the left block against row `q` of the matrix,
    summed over the hidden coordinate. -/
theorem mm_apply (a : FVec Ideal S512x1024 .bf16) (w : FVec Ideal S1024x1024 .bf16) (p : Fin 512) (q : Fin 1024) :
    matmul dot_S512x1024_S1024x1024_S512x1024_1_1_0_0_n_n none a w (constant (F := Ideal) S512x1024 .f32 0x00000000#32) (ix2 p q)
      = ∑ h : Fin 1024, a (ix2 p h) * w (ix2 q h) := by
  refine (Ideal.matmul_constant_zero_apply dot_S512x1024_S1024x1024_S512x1024_1_1_0_0_n_n none a w (ix2 p q)).trans ?_
  rw [← Equiv.sum_comp (contrEquiv1 dot_S512x1024_S1024x1024_S512x1024_1_1_0_0_n_n 1024 rfl rfl).symm]
  refine Finset.sum_congr rfl fun h _ => ?_
  have hk := contrEquiv1_symm_val dot_S512x1024_S1024x1024_S512x1024_1_1_0_0_n_n 1024 rfl rfl h
  have el : dot_S512x1024_S1024x1024_S512x1024_1_1_0_0_n_n.lhsIdx (ix2 p q)
      ((contrEquiv1 dot_S512x1024_S1024x1024_S512x1024_1_1_0_0_n_n 1024 rfl rfl).symm h) = ix2 p h :=
    funext fun ax => Fin.ext (by
      match ax with
      | ⟨0, _⟩ => exact lhs_row _ _
      | ⟨1, _⟩ => exact (dot_S512x1024_S1024x1024_S512x1024_1_1_0_0_n_n.lhsIdx_val_of_single rfl _ _).trans hk)
  have er : dot_S512x1024_S1024x1024_S512x1024_1_1_0_0_n_n.rhsIdx (ix2 p q)
      ((contrEquiv1 dot_S512x1024_S1024x1024_S512x1024_1_1_0_0_n_n 1024 rfl rfl).symm h) = ix2 q h :=
    funext fun ax => Fin.ext (by
      match ax with
      | ⟨0, _⟩ => exact rhs_row _ _
      | ⟨1, _⟩ => exact (dot_S512x1024_S1024x1024_S512x1024_1_1_0_0_n_n.rhsIdx_val_of_single rfl _ _).trans hk)
  rw [el, er]

/-! ## The bias row spread over the rows -/

/-- A bias held as `[1, 1, 1024]`, its leading unit axis dropped and its one row spread over 512 rows, reads at
    `(p, q)` its entry `q`. -/
theorem bias_apply (b : Vec Ideal S1x1x1024 .f32) (p : Fin 512) (q : Fin 1024) :
    broadcastTo S512x1024 (shapeCast S1x1024 b shapeCasts_S1x1x1024_S1x1024) broadcasts_S1x1024_S512x1024 (ix2 p q)
      = b (ix3 0 0 q) :=
  (broadcastTo_1b_ab_apply _ _ p q).trans (shapeCast_1ab_ab_apply b _ 0 q)

/-! ## One linear projection of a row block -/

/-- Product plus bias at `(p, q)`, the matrix already a `[1024, 1024]` vector. -/
theorem mmb_apply (a : FVec Ideal S512x1024 .bf16) (w : FVec Ideal S1024x1024 .bf16) (b : Vec Ideal S1x1x1024 .f32)
    (p : Fin 512) (q : Fin 1024) :
    addf (matmul dot_S512x1024_S1024x1024_S512x1024_1_1_0_0_n_n none a w (constant (F := Ideal) S512x1024 .f32 0x00000000#32))
         (broadcastTo S512x1024 (shapeCast S1x1024 b shapeCasts_S1x1x1024_S1x1024) broadcasts_S1x1024_S512x1024) (ix2 p q)
      = (∑ h : Fin 1024, a (ix2 p h) * w (ix2 q h)) + b (ix3 0 0 q) := by
  refine (addf_apply _ _ _).trans ?_
  rw [mm_apply, bias_apply]

/-- The same with the matrix held as `[1, 1024, 1024]` and its unit axis dropped on the way in. -/
theorem mmbW_apply (a : FVec Ideal S512x1024 .bf16) (W : Vec Ideal S1x1024x1024 .bf16) (b : Vec Ideal S1x1x1024 .f32)
    (p : Fin 512) (q : Fin 1024) :
    addf (matmul (φ₁ := .bf16) (φ₂ := .bf16) dot_S512x1024_S1024x1024_S512x1024_1_1_0_0_n_n none a
            (shapeCast S1024x1024 W shapeCasts_S1x1024x1024_S1024x1024) (constant (F := Ideal) S512x1024 .f32 0x00000000#32))
         (broadcastTo S512x1024 (shapeCast S1x1024 b shapeCasts_S1x1x1024_S1x1024) broadcasts_S1x1024_S512x1024) (ix2 p q)
      = (∑ h : Fin 1024, a (ix2 p h) * W (ix3 0 q h)) + b (ix3 0 0 q) := by
  refine (mmb_apply a _ b p q).trans ?_
  refine congrArg (· + b (ix3 0 0 q)) (Finset.sum_congr rfl fun h _ => ?_)
  rw [shapeCast_1ab_ab_apply W _ q h]

/-- The same with the row block too held with a leading unit axis: one whole projection, from the blocks as loaded. -/
theorem proj_apply (A : Vec Ideal S1x512x1024 .bf16) (W : Vec Ideal S1x1024x1024 .bf16) (b : Vec Ideal S1x1x1024 .f32)
    (p : Fin 512) (q : Fin 1024) :
    addf (matmul (φ₁ := .bf16) (φ₂ := .bf16) dot_S512x1024_S1024x1024_S512x1024_1_1_0_0_n_n none
            (shapeCast S512x1024 A shapeCasts_S1x512x1024_S512x1024)
            (shapeCast S1024x1024 W shapeCasts_S1x1024x1024_S1024x1024) (constant (F := Ideal) S512x1024 .f32 0x00000000#32))
         (broadcastTo S512x1024 (shapeCast S1x1024 b shapeCasts_S1x1x1024_S1x1024) broadcasts_S1x1024_S512x1024) (ix2 p q)
      = (∑ h : Fin 1024, A (ix3 0 p h) * W (ix3 0 q h)) + b (ix3 0 0 q) := by
  refine (mmbW_apply _ W b p q).trans ?_
  refine congrArg (· + b (ix3 0 0 q)) (Finset.sum_congr rfl fun h _ => ?_)
  rw [shapeCast_1ab_ab_apply A _ p h]

/-! ## The body's named values at an index -/

/-- A hyperbolic tangent taken entry by entry. -/
theorem tanh_apply {s : Shape} {φ : FTy} (a : FVec Ideal s φ) (i : s.Idx) : tanh a i = Ideal.tanh (a i) := rfl

/-- The start rows with their unit axis dropped. -/
theorem pay2_apply (v0 : Vec Ideal S1x512x1024 .bf16) (p : Fin 512) (h : Fin 1024) :
    k0_pay2 (F := Ideal) v0 (ix2 p h) = v0 (ix3 0 p h) := shapeCast_1ab_ab_apply v0 _ p h

/-- The end rows with their unit axis dropped. -/
theorem pay3_apply (v2 : Vec Ideal S1x512x1024 .bf16) (p : Fin 512) (h : Fin 1024) :
    k0_pay3 (F := Ideal) v2 (ix2 p h) = v2 (ix3 0 p h) := shapeCast_1ab_ab_apply v2 _ p h

/-- A weight matrix with its unit axis dropped. -/
theorem pay7_apply (v25 : Vec Ideal S1x1024x1024 .bf16) (q : Fin 1024) (h : Fin 1024) :
    k0_pay7 (F := Ideal) v25 (ix2 q h) = v25 (ix3 0 q h) := shapeCast_1ab_ab_apply v25 _ q h

/-- The first projection, of the start rows. -/
theorem pay4_apply (v0 : Vec Ideal S1x512x1024 .bf16) (v4 : Vec Ideal S1x1024x1024 .bf16) (v7 : Vec Ideal S1x1x1024 .f32)
    (p : Fin 512) (q : Fin 1024) :
    k0_pay4 (F := Ideal) v0 v4 v7 (ix2 p q) = (∑ h : Fin 1024, v0 (ix3 0 p h) * v4 (ix3 0 q h)) + v7 (ix3 0 0 q) :=
  proj_apply v0 v4 v7 p q

/-- The second projection, of the end rows. -/
theorem pay5_apply (v2 : Vec Ideal S1x512x1024 .bf16) (v11 : Vec Ideal S1x1024x1024 .bf16) (v14 : Vec Ideal S1x1x1024 .f32)
    (p : Fin 512) (q : Fin 1024) :
    k0_pay5 (F := Ideal) v2 v11 v14 (ix2 p q) = (∑ h : Fin 1024, v2 (ix3 0 p h) * v11 (ix3 0 q h)) + v14 (ix3 0 0 q) :=
  proj_apply v2 v11 v14 p q

/-- The third projection, of the start rows. -/
theorem pay6_apply (v0 : Vec Ideal S1x512x1024 .bf16) (v18 : Vec Ideal S1x1024x1024 .bf16) (v21 : Vec Ideal S1x1x1024 .f32)
    (p : Fin 512) (q : Fin 1024) :
    k0_pay6 (F := Ideal) v0 v18 v21 (ix2 p q) = (∑ h : Fin 1024, v0 (ix3 0 p h) * v18 (ix3 0 q h)) + v21 (ix3 0 0 q) :=
  proj_apply v0 v18 v21 p q

/-- The stored value at `(0, p, q)`, from the values it is computed from: the remaining three projections are
    formed here, then the combination and the hyperbolic tangent, entry by entry. -/
theorem pay1_apply (v1 v3 : FVec Ideal S512x1024 .bf16) (v10 v17 v24 : FVec Ideal S512x1024 .f32)
    (v26 : FVec Ideal S1024x1024 .bf16) (v28 : Vec Ideal S1x1x1024 .f32) (v32 : Vec Ideal S1x1024x1024 .bf16)
    (v35 : Vec Ideal S1x1x1024 .f32) (v39 : Vec Ideal S1x1024x1024 .bf16) (v42 : Vec Ideal S1x1x1024 .f32)
    (p : Fin 512) (q : Fin 1024) :
    k0_pay1 (F := Ideal) v1 v3 v10 v17 v24 v26 (constant (F := Ideal) S512x1024 .f32 0x00000000#32) v28 v32 v35 v39 v42 (ix3 0 p q)
      = Ideal.tanh (((v10 (ix2 p q) + v17 (ix2 p q))
            + (v24 (ix2 p q) - ((∑ h : Fin 1024, v3 (ix2 p h) * v26 (ix2 q h)) + v28 (ix3 0 0 q))))
          + ((∑ h : Fin 1024, v1 (ix2 p h) * v32 (ix3 0 q h)) + v35 (ix3 0 0 q))
            * ((∑ h : Fin 1024, v3 (ix2 p h) * v39 (ix3 0 q h)) + v42 (ix3 0 0 q))) := by
  unfold k0_pay1
  refine (shapeCast_ab_1ab_apply _ _ 0 p q).trans ?_
  refine (tanh_apply _ _).trans (congrArg Ideal.tanh ?_)
  refine (addf_apply _ _ _).trans (congrArg₂ HAdd.hAdd ?_ ?_)
  · refine (addf_apply _ _ _).trans (congrArg₂ HAdd.hAdd (addf_apply _ _ _) ?_)
    refine (subf_apply _ _ _).trans (congrArg (v24 (ix2 p q) - ·) ?_)
    exact mmb_apply v3 v26 v28 p q
  · refine (mulf_apply _ _ _).trans (congrArg₂ HMul.hMul ?_ ?_)
    · exact mmbW_apply v1 v32 v35 p q
    · exact mmbW_apply v3 v39 v42 p q

/-! ## The stored block -/

/-- The zero offsets of a rank-3 block, however spelt. -/
theorem hz3 : (![0, 0, 0] : Fin 3 → Nat) = fun _ => 0 := funext fun a => by fin_cases a <;> rfl

/-- THE STORED BLOCK AT `(0, p, q)` is the specification's cell of row `p` of the start and end row blocks, row `q` of
    each weight matrix and entry `q` of each bias: the body's one store covers its whole buffer and its loads read
    whole buffers, so the buffer holds the payload of the ten blocks themselves. -/
theorem out_apply (x0 x1 : Vec Ideal S1x512x1024 .bf16) (x2 x3 x4 x5 : Vec Ideal S1x1024x1024 .bf16)
    (x6 x7 x8 x9 : Vec Ideal S1x1x1024 .f32) (p : Fin 512) (q : Fin 1024) :
    Cert.KernelIdeal.Gen.out0_10 (F := Ideal) x0 x1 x2 x3 x4 x5 x6 x7 x8 x9 (ix3 0 p q)
      = Cert.SpanSpec.spanCell (fun h => x0 (ix3 0 p h)) (fun h => x1 (ix3 0 p h))
          (fun h => x2 (ix3 0 q h)) (fun h => x3 (ix3 0 q h)) (fun h => x4 (ix3 0 q h)) (fun h => x5 (ix3 0 q h))
          (x6 (ix3 0 0 q)) (x7 (ix3 0 0 q)) (x8 (ix3 0 0 q)) (x9 (ix3 0 0 q)) := by
  unfold out0_10
  rw [View.canon_unit_zero hz3]
  simp only [View.ld_unit_zero (S := S1x512x1024) hz3, View.ld_unit_zero (S := S1x1024x1024) hz3,
    View.ld_unit_zero (S := S1x1x1024) hz3]
  refine (pay1_apply _ _ _ _ _ _ _ _ _ _ _ p q).trans ?_
  rw [pay4_apply, pay5_apply, pay6_apply]
  unfold Cert.SpanSpec.spanCell
  simp only [pay2_apply, pay3_apply, pay7_apply]

end Cert.BodyCell

end
-- ==== Proof.KernelBlocks.lean ====
/-
  From the blocks to the whole result array of the region.

  The region runs the body on a grid of 2 × 8 points (side, row tile). At a point the two row windows hold 512 rows of
  their side's gathered start and end rows, the four matrix windows their side's whole weight matrices, the four bias
  windows their side's whole biases; the output window holds the 512 result rows of that side and tile, and every point
  writes its output block back.

  The body's stored entry is the specification's cell of the rows, matrix rows and bias entries it reads (the stored
  block read at an index), and an element of a window's block sits in the window's array, on each axis, at the block
  index times the block's extent plus its own coordinate. So what every point writes back is its block of ONE function
  of the arrays, `stackSpan`: entry `(s, r, o)` from row `r` of side `s`. Row `r` of side `s` lies in the block of the
  point of side `s` and row tile `r / 512`, so the blocks fill the array and the array ends holding `stackSpan`.
-/
import proofs.«167500_j32667521253810_2_alg».proof.Proof.BodyCell
import proofs.«167500_j32667521253810_2_alg».proof.Proof.Gen.KernelIdeal.Frame
import proofs.«167500_j32667521253810_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelBlocks

open Cert.KernelIdeal Cert.KernelIdeal.Gen

variable (m : (ℓ : Loc nD τ sig) → Buf (Elt Ideal) ℓ)

/-! ## The result as one function of the stacked arrays -/

/-- The region's whole result from the arrays it reads: two sides stacked on the leading axis, each side its own
    gathered start rows `A0` and end rows `A1` (4096 rows of 1024 hidden features), its own four weight matrices
    `A2 … A5` and its own four biases `A6 … A9`. Entry `(s, r, o)` is the specification's cell of row `r` of side
    `s`'s two row arrays, row `o` of side `s`'s matrices and entry `o` of side `s`'s biases. -/
def stackSpan (A0 A1 : (⟨3, ![2, 4096, 1024]⟩ : Shape).Idx → EReal) (A2 A3 A4 A5 : (⟨3, ![2, 1024, 1024]⟩ : Shape).Idx → EReal)
    (A6 A7 A8 A9 : (⟨3, ![2, 1, 1024]⟩ : Shape).Idx → EReal) : (⟨3, ![2, 4096, 1024]⟩ : Shape).Idx → EReal :=
  fun i => Cert.SpanSpec.spanCell (fun h => A0 (ix3 (i 0) (i 1) h)) (fun h => A1 (ix3 (i 0) (i 1) h))
    (fun h => A2 (ix3 (i 0) (i 2) h)) (fun h => A3 (ix3 (i 0) (i 2) h)) (fun h => A4 (ix3 (i 0) (i 2) h))
    (fun h => A5 (ix3 (i 0) (i 2) h))
    (A6 (ix3 (i 0) 0 (i 2))) (A7 (ix3 (i 0) 0 (i 2))) (A8 (ix3 (i 0) 0 (i 2))) (A9 (ix3 (i 0) 0 (i 2)))

/-- The same at explicit coordinates. -/
theorem stackSpan_apply (A0 A1 : (⟨3, ![2, 4096, 1024]⟩ : Shape).Idx → EReal) (A2 A3 A4 A5 : (⟨3, ![2, 1024, 1024]⟩ : Shape).Idx → EReal)
    (A6 A7 A8 A9 : (⟨3, ![2, 1, 1024]⟩ : Shape).Idx → EReal) (s : Fin 2) (r : Fin 4096) (o : Fin 1024) :
    stackSpan A0 A1 A2 A3 A4 A5 A6 A7 A8 A9 (ix3 s r o)
      = Cert.SpanSpec.spanCell (fun h => A0 (ix3 s r h)) (fun h => A1 (ix3 s r h))
          (fun h => A2 (ix3 s o h)) (fun h => A3 (ix3 s o h)) (fun h => A4 (ix3 s o h)) (fun h => A5 (ix3 s o h))
          (A6 (ix3 s 0 o)) (A7 (ix3 s 0 o)) (A8 (ix3 s 0 o)) (A9 (ix3 s 0 o)) := rfl

/-! ## One stored entry from the arrays, given where the blocks sit -/

/-- If row `p` of the two row blocks is row `r` of side `s` of the row arrays, and the matrix and bias blocks are
    side `s` of theirs, the body's stored entry `(0, p, q)` is entry `(s, r, q)` of the result. -/
theorem block_cell (A0 A1 : S2x4096x1024.Idx → EReal) (A2 A3 A4 A5 : S2x1024x1024.Idx → EReal) (A6 A7 A8 A9 : S2x1x1024.Idx → EReal)
    (x0 x1 : Vec Ideal S1x512x1024 .bf16) (x2 x3 x4 x5 : Vec Ideal S1x1024x1024 .bf16) (x6 x7 x8 x9 : Vec Ideal S1x1x1024 .f32)
    (s : Fin 2) (p : Fin 512) (r : Fin 4096) (q : Fin 1024)
    (h0 : ∀ h : Fin 1024, x0 (ix3 0 p h) = A0 (ix3 s r h)) (h1 : ∀ h : Fin 1024, x1 (ix3 0 p h) = A1 (ix3 s r h))
    (h2 : ∀ h : Fin 1024, x2 (ix3 0 q h) = A2 (ix3 s q h)) (h3 : ∀ h : Fin 1024, x3 (ix3 0 q h) = A3 (ix3 s q h))
    (h4 : ∀ h : Fin 1024, x4 (ix3 0 q h) = A4 (ix3 s q h)) (h5 : ∀ h : Fin 1024, x5 (ix3 0 q h) = A5 (ix3 s q h))
    (h6 : x6 (ix3 0 0 q) = A6 (ix3 s 0 q)) (h7 : x7 (ix3 0 0 q) = A7 (ix3 s 0 q))
    (h8 : x8 (ix3 0 0 q) = A8 (ix3 s 0 q)) (h9 : x9 (ix3 0 0 q) = A9 (ix3 s 0 q)) :
    out0_10 (F := Ideal) x0 x1 x2 x3 x4 x5 x6 x7 x8 x9 (ix3 0 p q) = stackSpan A0 A1 A2 A3 A4 A5 A6 A7 A8 A9 (ix3 s r q) := by
  refine (Cert.BodyCell.out_apply x0 x1 x2 x3 x4 x5 x6 x7 x8 x9 p q).trans ?_
  have e0 : (fun h => x0 (ix3 0 p h)) = fun h => A0 (ix3 s r h) := funext h0
  have e1 : (fun h => x1 (ix3 0 p h)) = fun h => A1 (ix3 s r h) := funext h1
  have e2 : (fun h => x2 (ix3 0 q h)) = fun h => A2 (ix3 s q h) := funext h2
  have e3 : (fun h => x3 (ix3 0 q h)) = fun h => A3 (ix3 s q h) := funext h3
  have e4 : (fun h => x4 (ix3 0 q h)) = fun h => A4 (ix3 s q h) := funext h4
  have e5 : (fun h => x5 (ix3 0 q h)) = fun h => A5 (ix3 s q h) := funext h5
  rw [stackSpan_apply, e0, e1, e2, e3, e4, e5, h6, h7, h8, h9]

/-! ## The arithmetic of a block's place, over plain numbers -/

/-- A side index at most 1 is below 2. -/
theorem side_lt {i : Nat} (h : i ≤ 1) : i < 2 := by omega
/-- Row `p` of row tile `i ≤ 7` (512 rows a tile) is below 4096. -/
theorem row_lt {i p : Nat} (h : i ≤ 7) (hp : p < 512) : i * 512 + p < 4096 := by omega
/-- On the unit side axis an element sits at its block's index. -/
theorem at_side (i s : Nat) (h : s = i) : i * 1 + 1 * 0 = s := by omega
/-- On the row axis an element sits at the tile's first row plus its own. -/
theorem at_row (i p r : Nat) (h : r = i * 512 + p) : i * 512 + 1 * p = r := by omega
/-- On the feature axis, never cut, an element keeps its coordinate. -/
theorem at_feat (i q : Nat) (h : i = 0) : i * 1024 + 1 * q = q := by omega

/-! ## Where the blocks sit: the index maps over the grid -/

/-- The printed index maps, decided once over the 16 grid points: the two row windows move with the output window
    (side, row tile); the matrix and bias windows follow its side only; the output's side is below 2, its row tile below
    8, and it is never cut along the features. -/
theorem idx_facts : ∀ t : Fin cfg0.N,
    (win0_0.index t (0 : Fin 3) = win0_10.index t (0 : Fin 3) ∧ win0_0.index t (1 : Fin 3) = win0_10.index t (1 : Fin 3) ∧ win0_0.index t (2 : Fin 3) = 0)
    ∧ (win0_1.index t (0 : Fin 3) = win0_10.index t (0 : Fin 3) ∧ win0_1.index t (1 : Fin 3) = win0_10.index t (1 : Fin 3) ∧ win0_1.index t (2 : Fin 3) = 0)
    ∧ (win0_2.index t (0 : Fin 3) = win0_10.index t (0 : Fin 3) ∧ win0_2.index t (1 : Fin 3) = 0 ∧ win0_2.index t (2 : Fin 3) = 0)
    ∧ (win0_3.index t (0 : Fin 3) = win0_10.index t (0 : Fin 3) ∧ win0_3.index t (1 : Fin 3) = 0 ∧ win0_3.index t (2 : Fin 3) = 0)
    ∧ (win0_4.index t (0 : Fin 3) = win0_10.index t (0 : Fin 3) ∧ win0_4.index t (1 : Fin 3) = 0 ∧ win0_4.index t (2 : Fin 3) = 0)
    ∧ (win0_5.index t (0 : Fin 3) = win0_10.index t (0 : Fin 3) ∧ win0_5.index t (1 : Fin 3) = 0 ∧ win0_5.index t (2 : Fin 3) = 0)
    ∧ (win0_6.index t (0 : Fin 3) = win0_10.index t (0 : Fin 3) ∧ win0_6.index t (1 : Fin 3) = 0 ∧ win0_6.index t (2 : Fin 3) = 0)
    ∧ (win0_7.index t (0 : Fin 3) = win0_10.index t (0 : Fin 3) ∧ win0_7.index t (1 : Fin 3) = 0 ∧ win0_7.index t (2 : Fin 3) = 0)
    ∧ (win0_8.index t (0 : Fin 3) = win0_10.index t (0 : Fin 3) ∧ win0_8.index t (1 : Fin 3) = 0 ∧ win0_8.index t (2 : Fin 3) = 0)
    ∧ (win0_9.index t (0 : Fin 3) = win0_10.index t (0 : Fin 3) ∧ win0_9.index t (1 : Fin 3) = 0 ∧ win0_9.index t (2 : Fin 3) = 0)
    ∧ (win0_10.index t (0 : Fin 3) ≤ 1 ∧ win0_10.index t (1 : Fin 3) ≤ 7 ∧ win0_10.index t (2 : Fin 3) = 0) :=
  (by decide +kernel : ∀ t : Fin grid0.N, _)

/-- Every (side, row tile) is some grid point's output block. -/
theorem idx_onto : ∀ (s : Fin 2) (r : Fin 8), ∃ t : Fin cfg0.N, win0_10.index t = ![s.val, r.val, 0] :=
  (by decide +kernel : ∀ (s : Fin 2) (r : Fin 8), ∃ t : Fin grid0.N, win0_10.index t = ![s.val, r.val, 0])

/-! ## Each input block read where its index map puts it

An element of a window's block sits in the window's array, on each axis, at the block index times the block's extent plus
its own coordinate. -/

/-- The block of start rows at point `t`, row `p`: row `r` of side `s` of the stacked array, when the point's block
    indices say so. -/
theorem read0 (c : Dev nD) (t : Fin cfg0.N) (s : Fin 2) (r : Fin 4096) (p : Fin 512) (h : Fin 1024)
    (e0 : win0_0.index t (0 : Fin 3) = s.val) (e1 : win0_0.index t (1 : Fin 3) * 512 + p.val = r.val)
    (e2 : win0_0.index t (2 : Fin 3) = 0) :
    (iblk m c 0 t : Vec Ideal S1x512x1024 .bf16) (ix3 0 p h) = (V m c main_v23 : S2x4096x1024.Idx → EReal) (ix3 s r h) := by
  show (V m c main_v23 : S2x4096x1024.Idx → EReal) (((cfg0.win 0).blk t).view.emb (ix3 0 p h)) = _
  refine congrArg (V m c main_v23 : S2x4096x1024.Idx → EReal) (funext fun a => Fin.ext ?_)
  match a with
  | ⟨0, _⟩ => show win0_0.index t (0 : Fin 3) * 1 + 1 * 0 = s.val; omega
  | ⟨1, _⟩ => show win0_0.index t (1 : Fin 3) * 512 + 1 * p.val = r.val; omega
  | ⟨2, _⟩ => show win0_0.index t (2 : Fin 3) * 1024 + 1 * h.val = h.val; omega

/-- The block of end rows at point `t`, row `p`: row `r` of side `s` of the stacked array, when the point's block
    indices say so. -/
theorem read1 (c : Dev nD) (t : Fin cfg0.N) (s : Fin 2) (r : Fin 4096) (p : Fin 512) (h : Fin 1024)
    (e0 : win0_1.index t (0 : Fin 3) = s.val) (e1 : win0_1.index t (1 : Fin 3) * 512 + p.val = r.val)
    (e2 : win0_1.index t (2 : Fin 3) = 0) :
    (iblk m c 1 t : Vec Ideal S1x512x1024 .bf16) (ix3 0 p h) = (V m c main_v29 : S2x4096x1024.Idx → EReal) (ix3 s r h) := by
  show (V m c main_v29 : S2x4096x1024.Idx → EReal) (((cfg0.win 1).blk t).view.emb (ix3 0 p h)) = _
  refine congrArg (V m c main_v29 : S2x4096x1024.Idx → EReal) (funext fun a => Fin.ext ?_)
  match a with
  | ⟨0, _⟩ => show win0_1.index t (0 : Fin 3) * 1 + 1 * 0 = s.val; omega
  | ⟨1, _⟩ => show win0_1.index t (1 : Fin 3) * 512 + 1 * p.val = r.val; omega
  | ⟨2, _⟩ => show win0_1.index t (2 : Fin 3) * 1024 + 1 * h.val = h.val; omega

/-- The block of weight matrix 1 at point `t` is side `s` of the stacked matrices, whole. -/
theorem read2 (c : Dev nD) (t : Fin cfg0.N) (s : Fin 2) (q h : Fin 1024)
    (e0 : win0_2.index t (0 : Fin 3) = s.val) (e1 : win0_2.index t (1 : Fin 3) = 0) (e2 : win0_2.index t (2 : Fin 3) = 0) :
    (iblk m c 2 t : Vec Ideal S1x1024x1024 .bf16) (ix3 0 q h) = (V m c main_v33 : S2x1024x1024.Idx → EReal) (ix3 s q h) := by
  show (V m c main_v33 : S2x1024x1024.Idx → EReal) (((cfg0.win 2).blk t).view.emb (ix3 0 q h)) = _
  refine congrArg (V m c main_v33 : S2x1024x1024.Idx → EReal) (funext fun a => Fin.ext ?_)
  match a with
  | ⟨0, _⟩ => show win0_2.index t (0 : Fin 3) * 1 + 1 * 0 = s.val; omega
  | ⟨1, _⟩ => show win0_2.index t (1 : Fin 3) * 1024 + 1 * q.val = q.val; omega
  | ⟨2, _⟩ => show win0_2.index t (2 : Fin 3) * 1024 + 1 * h.val = h.val; omega

/-- The block of weight matrix 2 at point `t` is side `s` of the stacked matrices, whole. -/
theorem read3 (c : Dev nD) (t : Fin cfg0.N) (s : Fin 2) (q h : Fin 1024)
    (e0 : win0_3.index t (0 : Fin 3) = s.val) (e1 : win0_3.index t (1 : Fin 3) = 0) (e2 : win0_3.index t (2 : Fin 3) = 0) :
    (iblk m c 3 t : Vec Ideal S1x1024x1024 .bf16) (ix3 0 q h) = (V m c main_v37 : S2x1024x1024.Idx → EReal) (ix3 s q h) := by
  show (V m c main_v37 : S2x1024x1024.Idx → EReal) (((cfg0.win 3).blk t).view.emb (ix3 0 q h)) = _
  refine congrArg (V m c main_v37 : S2x1024x1024.Idx → EReal) (funext fun a => Fin.ext ?_)
  match a with
  | ⟨0, _⟩ => show win0_3.index t (0 : Fin 3) * 1 + 1 * 0 = s.val; omega
  | ⟨1, _⟩ => show win0_3.index t (1 : Fin 3) * 1024 + 1 * q.val = q.val; omega
  | ⟨2, _⟩ => show win0_3.index t (2 : Fin 3) * 1024 + 1 * h.val = h.val; omega

/-- The block of weight matrix 3 at point `t` is side `s` of the stacked matrices, whole. -/
theorem read4 (c : Dev nD) (t : Fin cfg0.N) (s : Fin 2) (q h : Fin 1024)
    (e0 : win0_4.index t (0 : Fin 3) = s.val) (e1 : win0_4.index t (1 : Fin 3) = 0) (e2 : win0_4.index t (2 : Fin 3) = 0) :
    (iblk m c 4 t : Vec Ideal S1x1024x1024 .bf16) (ix3 0 q h) = (V m c main_v41 : S2x1024x1024.Idx → EReal) (ix3 s q h) := by
  show (V m c main_v41 : S2x1024x1024.Idx → EReal) (((cfg0.win 4).blk t).view.emb (ix3 0 q h)) = _
  refine congrArg (V m c main_v41 : S2x1024x1024.Idx → EReal) (funext fun a => Fin.ext ?_)
  match a with
  | ⟨0, _⟩ => show win0_4.index t (0 : Fin 3) * 1 + 1 * 0 = s.val; omega
  | ⟨1, _⟩ => show win0_4.index t (1 : Fin 3) * 1024 + 1 * q.val = q.val; omega
  | ⟨2, _⟩ => show win0_4.index t (2 : Fin 3) * 1024 + 1 * h.val = h.val; omega

/-- The block of weight matrix 4 at point `t` is side `s` of the stacked matrices, whole. -/
theorem read5 (c : Dev nD) (t : Fin cfg0.N) (s : Fin 2) (q h : Fin 1024)
    (e0 : win0_5.index t (0 : Fin 3) = s.val) (e1 : win0_5.index t (1 : Fin 3) = 0) (e2 : win0_5.index t (2 : Fin 3) = 0) :
    (iblk m c 5 t : Vec Ideal S1x1024x1024 .bf16) (ix3 0 q h) = (V m c main_v45 : S2x1024x1024.Idx → EReal) (ix3 s q h) := by
  show (V m c main_v45 : S2x1024x1024.Idx → EReal) (((cfg0.win 5).blk t).view.emb (ix3 0 q h)) = _
  refine congrArg (V m c main_v45 : S2x1024x1024.Idx → EReal) (funext fun a => Fin.ext ?_)
  match a with
  | ⟨0, _⟩ => show win0_5.index t (0 : Fin 3) * 1 + 1 * 0 = s.val; omega
  | ⟨1, _⟩ => show win0_5.index t (1 : Fin 3) * 1024 + 1 * q.val = q.val; omega
  | ⟨2, _⟩ => show win0_5.index t (2 : Fin 3) * 1024 + 1 * h.val = h.val; omega

/-- The block of bias 1 at point `t` is side `s` of the stacked biases, whole. -/
theorem read6 (c : Dev nD) (t : Fin cfg0.N) (s : Fin 2) (q : Fin 1024)
    (e0 : win0_6.index t (0 : Fin 3) = s.val) (e1 : win0_6.index t (1 : Fin 3) = 0) (e2 : win0_6.index t (2 : Fin 3) = 0) :
    (iblk m c 6 t : Vec Ideal S1x1x1024 .f32) (ix3 0 0 q) = (V m c main_v49 : S2x1x1024.Idx → EReal) (ix3 s 0 q) := by
  show (V m c main_v49 : S2x1x1024.Idx → EReal) (((cfg0.win 6).blk t).view.emb (ix3 0 0 q)) = _
  refine congrArg (V m c main_v49 : S2x1x1024.Idx → EReal) (funext fun a => Fin.ext ?_)
  match a with
  | ⟨0, _⟩ => show win0_6.index t (0 : Fin 3) * 1 + 1 * 0 = s.val; omega
  | ⟨1, _⟩ => show win0_6.index t (1 : Fin 3) * 1 + 1 * 0 = 0; omega
  | ⟨2, _⟩ => show win0_6.index t (2 : Fin 3) * 1024 + 1 * q.val = q.val; omega

/-- The block of bias 2 at point `t` is side `s` of the stacked biases, whole. -/
theorem read7 (c : Dev nD) (t : Fin cfg0.N) (s : Fin 2) (q : Fin 1024)
    (e0 : win0_7.index t (0 : Fin 3) = s.val) (e1 : win0_7.index t (1 : Fin 3) = 0) (e2 : win0_7.index t (2 : Fin 3) = 0) :
    (iblk m c 7 t : Vec Ideal S1x1x1024 .f32) (ix3 0 0 q) = (V m c main_v53 : S2x1x1024.Idx → EReal) (ix3 s 0 q) := by
  show (V m c main_v53 : S2x1x1024.Idx → EReal) (((cfg0.win 7).blk t).view.emb (ix3 0 0 q)) = _
  refine congrArg (V m c main_v53 : S2x1x1024.Idx → EReal) (funext fun a => Fin.ext ?_)
  match a with
  | ⟨0, _⟩ => show win0_7.index t (0 : Fin 3) * 1 + 1 * 0 = s.val; omega
  | ⟨1, _⟩ => show win0_7.index t (1 : Fin 3) * 1 + 1 * 0 = 0; omega
  | ⟨2, _⟩ => show win0_7.index t (2 : Fin 3) * 1024 + 1 * q.val = q.val; omega

/-- The block of bias 3 at point `t` is side `s` of the stacked biases, whole. -/
theorem read8 (c : Dev nD) (t : Fin cfg0.N) (s : Fin 2) (q : Fin 1024)
    (e0 : win0_8.index t (0 : Fin 3) = s.val) (e1 : win0_8.index t (1 : Fin 3) = 0) (e2 : win0_8.index t (2 : Fin 3) = 0) :
    (iblk m c 8 t : Vec Ideal S1x1x1024 .f32) (ix3 0 0 q) = (V m c main_v57 : S2x1x1024.Idx → EReal) (ix3 s 0 q) := by
  show (V m c main_v57 : S2x1x1024.Idx → EReal) (((cfg0.win 8).blk t).view.emb (ix3 0 0 q)) = _
  refine congrArg (V m c main_v57 : S2x1x1024.Idx → EReal) (funext fun a => Fin.ext ?_)
  match a with
  | ⟨0, _⟩ => show win0_8.index t (0 : Fin 3) * 1 + 1 * 0 = s.val; omega
  | ⟨1, _⟩ => show win0_8.index t (1 : Fin 3) * 1 + 1 * 0 = 0; omega
  | ⟨2, _⟩ => show win0_8.index t (2 : Fin 3) * 1024 + 1 * q.val = q.val; omega

/-- The block of bias 4 at point `t` is side `s` of the stacked biases, whole. -/
theorem read9 (c : Dev nD) (t : Fin cfg0.N) (s : Fin 2) (q : Fin 1024)
    (e0 : win0_9.index t (0 : Fin 3) = s.val) (e1 : win0_9.index t (1 : Fin 3) = 0) (e2 : win0_9.index t (2 : Fin 3) = 0) :
    (iblk m c 9 t : Vec Ideal S1x1x1024 .f32) (ix3 0 0 q) = (V m c main_v61 : S2x1x1024.Idx → EReal) (ix3 s 0 q) := by
  show (V m c main_v61 : S2x1x1024.Idx → EReal) (((cfg0.win 9).blk t).view.emb (ix3 0 0 q)) = _
  refine congrArg (V m c main_v61 : S2x1x1024.Idx → EReal) (funext fun a => Fin.ext ?_)
  match a with
  | ⟨0, _⟩ => show win0_9.index t (0 : Fin 3) * 1 + 1 * 0 = s.val; omega
  | ⟨1, _⟩ => show win0_9.index t (1 : Fin 3) * 1 + 1 * 0 = 0; omega
  | ⟨2, _⟩ => show win0_9.index t (2 : Fin 3) * 1024 + 1 * q.val = q.val; omega

/-! ## What a point writes back -/

/-- WHAT POINT `t` WRITES BACK is block `t` of `stackSpan` of the arrays as the region finds them. -/
theorem flushed_eq (c : Dev nD) (t : Fin cfg0.N) :
    (dats (F := Ideal) m 0 c).flushed 10 t
      = ((cfg0.win 10).blk t).view.read (Elt Ideal)
          (stackSpan (V m c main_v23 : S2x4096x1024.Idx → EReal)
            (V m c main_v29 : S2x4096x1024.Idx → EReal)
            (V m c main_v33 : S2x1024x1024.Idx → EReal)
            (V m c main_v37 : S2x1024x1024.Idx → EReal)
            (V m c main_v41 : S2x1024x1024.Idx → EReal)
            (V m c main_v45 : S2x1024x1024.Idx → EReal)
            (V m c main_v49 : S2x1x1024.Idx → EReal)
            (V m c main_v53 : S2x1x1024.Idx → EReal)
            (V m c main_v57 : S2x1x1024.Idx → EReal)
            (V m c main_v61 : S2x1x1024.Idx → EReal)) := by
  show (cfg0.win 10).cut (grid0.coords t) ((dats m 0 c).after 10 t) = _
  rw [after0_10]
  obtain ⟨⟨a0, a1, a2⟩, ⟨b0, b1, b2⟩, ⟨d20, d21, d22⟩, ⟨d30, d31, d32⟩, ⟨d40, d41, d42⟩, ⟨d50, d51, d52⟩, ⟨d60, d61, d62⟩, ⟨d70, d71, d72⟩, ⟨d80, d81, d82⟩, ⟨d90, d91, d92⟩, ⟨o0, o1, o2⟩⟩ := idx_facts t
  refine funext fun (y : S1x512x1024.Idx) => ?_
  obtain ⟨u, p, q, rfl⟩ : ∃ (u : Fin 1) (p : Fin 512) (q : Fin 1024), y = ix3 u p q := ⟨y 0, y 1, y 2, eq_ix3 y⟩
  obtain rfl : u = 0 := Subsingleton.elim _ _
  obtain ⟨S, hS⟩ : ∃ S : Fin 2, S.val = win0_10.index t (0 : Fin 3) := ⟨⟨win0_10.index t (0 : Fin 3), side_lt o0⟩, rfl⟩
  obtain ⟨R, hR⟩ : ∃ R : Fin 4096, R.val = win0_10.index t (1 : Fin 3) * 512 + p.val :=
    ⟨⟨win0_10.index t (1 : Fin 3) * 512 + p.val, row_lt o1 p.isLt⟩, rfl⟩
  have hemb : ((cfg0.win 10).blk t).view.emb (ix3 0 p q) = (ix3 S R q : S2x4096x1024.Idx) := by
    funext ax; apply Fin.ext
    match ax with
    | ⟨0, _⟩ => show win0_10.index t (0 : Fin 3) * 1 + 1 * 0 = S.val; exact at_side _ _ hS
    | ⟨1, _⟩ => show win0_10.index t (1 : Fin 3) * 512 + 1 * p.val = R.val; exact at_row _ _ _ hR
    | ⟨2, _⟩ => show win0_10.index t (2 : Fin 3) * 1024 + 1 * q.val = q.val; exact at_feat _ _ o2
  have f00 : win0_0.index t (0 : Fin 3) = S.val := a0.trans hS.symm
  have f01 : win0_0.index t (1 : Fin 3) * 512 + p.val = R.val := (congrArg (fun i => i * 512 + p.val) a1).trans hR.symm
  have f10 : win0_1.index t (0 : Fin 3) = S.val := b0.trans hS.symm
  have f11 : win0_1.index t (1 : Fin 3) * 512 + p.val = R.val := (congrArg (fun i => i * 512 + p.val) b1).trans hR.symm
  have f20 : win0_2.index t (0 : Fin 3) = S.val := d20.trans hS.symm
  have f30 : win0_3.index t (0 : Fin 3) = S.val := d30.trans hS.symm
  have f40 : win0_4.index t (0 : Fin 3) = S.val := d40.trans hS.symm
  have f50 : win0_5.index t (0 : Fin 3) = S.val := d50.trans hS.symm
  have f60 : win0_6.index t (0 : Fin 3) = S.val := d60.trans hS.symm
  have f70 : win0_7.index t (0 : Fin 3) = S.val := d70.trans hS.symm
  have f80 : win0_8.index t (0 : Fin 3) = S.val := d80.trans hS.symm
  have f90 : win0_9.index t (0 : Fin 3) = S.val := d90.trans hS.symm
  show out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 p q)
      = stackSpan (V m c main_v23 : S2x4096x1024.Idx → EReal)
            (V m c main_v29 : S2x4096x1024.Idx → EReal)
            (V m c main_v33 : S2x1024x1024.Idx → EReal)
            (V m c main_v37 : S2x1024x1024.Idx → EReal)
            (V m c main_v41 : S2x1024x1024.Idx → EReal)
            (V m c main_v45 : S2x1024x1024.Idx → EReal)
            (V m c main_v49 : S2x1x1024.Idx → EReal)
            (V m c main_v53 : S2x1x1024.Idx → EReal)
            (V m c main_v57 : S2x1x1024.Idx → EReal)
            (V m c main_v61 : S2x1x1024.Idx → EReal) (((cfg0.win 10).blk t).view.emb (ix3 0 p q))
  rw [hemb]
  exact block_cell (V m c main_v23 : S2x4096x1024.Idx → EReal)
            (V m c main_v29 : S2x4096x1024.Idx → EReal)
            (V m c main_v33 : S2x1024x1024.Idx → EReal)
            (V m c main_v37 : S2x1024x1024.Idx → EReal)
            (V m c main_v41 : S2x1024x1024.Idx → EReal)
            (V m c main_v45 : S2x1024x1024.Idx → EReal)
            (V m c main_v49 : S2x1x1024.Idx → EReal)
            (V m c main_v53 : S2x1x1024.Idx → EReal)
            (V m c main_v57 : S2x1x1024.Idx → EReal)
            (V m c main_v61 : S2x1x1024.Idx → EReal)
      (iblk m c 0 t) (iblk m c 1 t) (iblk m c 2 t) (iblk m c 3 t) (iblk m c 4 t) (iblk m c 5 t) (iblk m c 6 t) (iblk m c 7 t) (iblk m c 8 t) (iblk m c 9 t)
      S p R q
      (fun h => read0 m c t S R p h f00 f01 a2)
      (fun h => read1 m c t S R p h f10 f11 b2)
      (fun h => read2 m c t S q h f20 d21 d22)
      (fun h => read3 m c t S q h f30 d31 d32)
      (fun h => read4 m c t S q h f40 d41 d42)
      (fun h => read5 m c t S q h f50 d51 d52)
      (read6 m c t S q f60 d61 d62)
      (read7 m c t S q f70 d71 d72)
      (read8 m c t S q f80 d81 d82)
      (read9 m c t S q f90 d91 d92)

/-! ## The blocks fill the array -/

/-- An index of the result array is in point `t`'s block iff each coordinate is in the block's range on its axis. -/
theorem mem_blk (t : Fin cfg0.N) (i : S2x4096x1024.Idx) :
    i ∈ ((cfg0.win 10).blk t).view.set ↔ ∀ a : Fin 3, win0_10.index t a * S1x512x1024.size a ≤ (i a).val ∧ (i a).val < win0_10.index t a * S1x512x1024.size a + S1x512x1024.size a := by
  show i ∈ ((View.whole main_v62).slice (win0_10.rect t)).set ↔ _
  rw [View.set_slice_whole, Rect.mem_set_unit]
  exact Iff.rfl

/-- Row `r` of side `s` is covered by the point whose output block is side `s`, row tile `r / 512`. -/
theorem cover (i : S2x4096x1024.Idx) :
    ∃ t : Fin cfg0.N, (cfg0.win 10).flush t = true ∧ i ∈ ((cfg0.win 10).blk t).view.set := by
  have hi0 : (i 0).val < 2 := (i 0).isLt
  have hi1 : (i 1).val < 4096 := (i 1).isLt
  have hi2 : (i 2).val < 1024 := (i 2).isLt
  obtain ⟨t, ht⟩ := idx_onto ⟨(i 0).val, hi0⟩ ⟨(i 1).val / 512, by omega⟩
  have q0 : win0_10.index t (0 : Fin 3) = (i 0).val := congrFun ht 0
  have q1 : win0_10.index t (1 : Fin 3) = (i 1).val / 512 := congrFun ht 1
  have q2 : win0_10.index t (2 : Fin 3) = 0 := congrFun ht 2
  refine ⟨t, flush0_10 t, ?_⟩
  rw [mem_blk]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 512 ≤ (i 1).val ∧ (i 1).val < win0_10.index t (1 : Fin 3) * 512 + 512; omega
  | ⟨2, _⟩ => show win0_10.index t (2 : Fin 3) * 1024 ≤ (i 2).val ∧ (i 2).val < win0_10.index t (2 : Fin 3) * 1024 + 1024; omega

/-! ## The whole array after the region -/

/-- THE RESULT ARRAY after the region's last point is `stackSpan` of the arrays as the region finds them: every point
    writes back its block of that one function, and the blocks fill the array. -/
theorem final (c : Dev nD) :
    (dats (F := Ideal) m 0 c).arrAt 10 cfg0.N
      = stackSpan (V m c main_v23 : S2x4096x1024.Idx → EReal)
            (V m c main_v29 : S2x4096x1024.Idx → EReal)
            (V m c main_v33 : S2x1024x1024.Idx → EReal)
            (V m c main_v37 : S2x1024x1024.Idx → EReal)
            (V m c main_v41 : S2x1024x1024.Idx → EReal)
            (V m c main_v45 : S2x1024x1024.Idx → EReal)
            (V m c main_v49 : S2x1x1024.Idx → EReal)
            (V m c main_v53 : S2x1x1024.Idx → EReal)
            (V m c main_v57 : S2x1x1024.Idx → EReal)
            (V m c main_v61 : S2x1x1024.Idx → EReal) :=
  (dats (F := Ideal) m 0 c).arrAt_eq_of_cover 10
    (stackSpan (V m c main_v23 : S2x4096x1024.Idx → EReal)
            (V m c main_v29 : S2x4096x1024.Idx → EReal)
            (V m c main_v33 : S2x1024x1024.Idx → EReal)
            (V m c main_v37 : S2x1024x1024.Idx → EReal)
            (V m c main_v41 : S2x1024x1024.Idx → EReal)
            (V m c main_v45 : S2x1024x1024.Idx → EReal)
            (V m c main_v49 : S2x1x1024.Idx → EReal)
            (V m c main_v53 : S2x1x1024.Idx → EReal)
            (V m c main_v57 : S2x1x1024.Idx → EReal)
            (V m c main_v61 : S2x1x1024.Idx → EReal))
    (fun t _ => flushed_eq m c t) cover

end Cert.KernelBlocks

end
-- ==== Proof.KernelHost.lean ====
/-
  The host operations around the kernel's region, as explicit terms of the argument arrays.

  Before the region the program selects, for each side, the start rows and the end rows of the hidden states (a
  take along the sequence axis at that side's start and end indices), flattens the (batch, span) pair of axes into
  one row axis of 16 · 256 = 4096 rows, and stacks the two sides along a new leading axis; it stacks the two sides'
  weight matrices and biases the same way. After the region it cuts the stacked output back into the two sides
  and unflattens the row axis. Each buffer the region reads is one such term (the equations hold by computation:
  both sides are the same fold of the program's operations), and each result is the cut of the region's output.
-/
import proofs.«167500_j32667521253810_2_alg».proof.Proof.Gen.KernelIdeal.Frame
import Idealize.ShloMosaic.Lib.StableHlo.Run

set_option maxRecDepth 16384

noncomputable section

namespace Cert.KernelHost

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.StableHlo

variable {F : FTy → Type} [FloatOps F]

/-- The start indices of one side, as a column: entry (b, k, 0) is the index input's (b, 0, 0, k). -/
def startIdx (a : IVec S16x1x2x256 32) : IVec S16x256x1 32 :=
  broadcastInDim S16x256x1 ![0, 1] bcast_S16x256_S16x256x1_0_1
    (shapeCast S16x256 (extractStridedSlice S16x1x256 ![0, 0, 0] (shapeCast S16x2x256 a shapeCasts_S16x1x2x256_S16x2x256)
      slices_S16x2x256_S16x1x256_0_0_0) shapeCasts_S16x1x256_S16x256)

/-- The end indices of one side, as a column: entry (b, k, 0) is the index input's (b, 0, 1, k). -/
def endIdx (a : IVec S16x1x2x256 32) : IVec S16x256x1 32 :=
  broadcastInDim S16x256x1 ![0, 1] bcast_S16x256_S16x256x1_0_1
    (shapeCast S16x256 (extractStridedSlice S16x1x256 ![0, 1, 0] (shapeCast S16x2x256 a shapeCasts_S16x1x2x256_S16x2x256)
      slices_S16x2x256_S16x1x256_0_1_0) shapeCasts_S16x1x256_S16x256)

/-- A start index with a negative one counted from the end. -/
def wrapIdx (idx : IVec S16x256x1 32) : IVec S16x256x1 32 :=
  select (cmpi .slt idx (broadcastInDim S16x256x1 ![] bcast_S_S16x256x1 (constantI S_ 32 0#32)))
    (addi idx (broadcastInDim S16x256x1 ![] bcast_S_S16x256x1 (constantI S_ 32 1024#32))) idx

/-- The take along the sequence axis: row `idx(b,k)` of batch entry `b` of `P`, or the fill where the index is out of range. -/
def takeRows (P : FVec F S16x1024x1024 .f32) (idx : IVec S16x256x1 32) : FVec F S16x256x1024 .f32 :=
  select
    (broadcastInDim S16x256x1024 ![0, 1] bcast_S16x256_S16x256x1024_0_1
      (Host.reduce IntOp.andi
        (andi (cmpi .sge (wrapIdx idx) (broadcastInDim S16x256x1 ![] bcast_S_S16x256x1 (constantI S_ 32 0#32)))
          (cmpi .sle (wrapIdx idx)
            (broadcastInDim S16x256x1 ![0, 1, 2] bcast_S1x1x1_S16x256x1_0_1_2 (broadcastInDim S1x1x1 ![2] bcast_S1_S1x1x1_2 (constantI S1 32 1023#32)))))
        (constantI S_ 1 1#1) reducesTo_S16x256x1_S16x256_d2 h_S_))
    (Host.gather gather_S16x1024x1024_S16x256x1_S16x256x1024_2_1_0_0_1_2_111024 P (wrapIdx idx))
    (broadcastInDim S16x256x1024 ![] bcast_S_S16x256x1024 (constant S_ .f32 0x7FC00000#32))

/-- The two sides' selected rows, each flattened to 4096 rows, stacked along a new leading axis (and narrowed). -/
def stackRows (u v : FVec F S16x256x1024 .f32) : FVec F S2x4096x1024 .bf16 :=
  truncf .bf16 (concatenate S2x4096x1024 0
    [⟨S1x4096x1024, broadcastInDim S1x4096x1024 ![1, 2] bcast_S4096x1024_S1x4096x1024_1_2 (shapeCast S4096x1024 u shapeCasts_S16x256x1024_S4096x1024)⟩,
     ⟨S1x4096x1024, broadcastInDim S1x4096x1024 ![1, 2] bcast_S4096x1024_S1x4096x1024_1_2 (shapeCast S4096x1024 v shapeCasts_S16x256x1024_S4096x1024)⟩]
    concatenates_S1x4096x1024_S1x4096x1024_S2x4096x1024_d0) bitsLt_bf16_f32

/-- The two sides' weight matrices stacked along a new leading axis (and narrowed). -/
def stackMats (A B : FVec F S1024x1024 .f32) : FVec F S2x1024x1024 .bf16 :=
  truncf .bf16 (concatenate S2x1024x1024 0
    [⟨S1x1024x1024, broadcastInDim S1x1024x1024 ![1, 2] bcast_S1024x1024_S1x1024x1024_1_2 A⟩,
     ⟨S1x1024x1024, broadcastInDim S1x1024x1024 ![1, 2] bcast_S1024x1024_S1x1024x1024_1_2 B⟩]
    concatenates_S1x1024x1024_S1x1024x1024_S2x1024x1024_d0) bitsLt_bf16_f32

/-- The two sides' biases stacked along a new leading axis, each as one row. -/
def stackBias (a b : FVec F S1024 .f32) : FVec F S2x1x1024 .f32 :=
  shapeCast S2x1x1024 (concatenate S2x1024 0
    [⟨S1x1024, broadcastInDim S1x1024 ![1] bcast_S1024_S1x1024_1 a⟩, ⟨S1x1024, broadcastInDim S1x1024 ![1] bcast_S1024_S1x1024_1 b⟩]
    concatenates_S1x1024_S1x1024_S2x1024_d0) shapeCasts_S2x1024_S2x1x1024

/-- The premise side of the stacked output, its 4096 rows unflattened to (batch, span). -/
def cutPrem (Z : FVec F S2x4096x1024 .f32) : FVec F S16x256x1024 .f32 :=
  shapeCast S16x256x1024 (shapeCast S4096x1024 (extractStridedSlice S1x4096x1024 ![0, 0, 0] Z slices_S2x4096x1024_S1x4096x1024_0_0_0)
    shapeCasts_S1x4096x1024_S4096x1024) shapeCasts_S4096x1024_S16x256x1024

/-- The hypothesis side of the stacked output, its 4096 rows unflattened to (batch, span). -/
def cutHypo (Z : FVec F S2x4096x1024 .f32) : FVec F S16x256x1024 .f32 :=
  shapeCast S16x256x1024 (shapeCast S4096x1024 (extractStridedSlice S1x4096x1024 ![1, 0, 0] Z slices_S2x4096x1024_S1x4096x1024_1_0_0)
    shapeCasts_S1x4096x1024_S4096x1024) shapeCasts_S4096x1024_S16x256x1024

variable (m : (ℓ : Loc nD τ sig) → Buf (Elt F) ℓ)

/-! ## What the region finds in each of its ten input arrays -/

theorem V_v23 (c : Dev nD) : (V m c main_v23 : FVec F S2x4096x1024 .bf16) = stackRows (takeRows (m ((c : Thread nD τ).loc main_arg0)) (startIdx (m ((c : Thread nD τ).loc main_arg1)))) (takeRows (m ((c : Thread nD τ).loc main_arg0)) (startIdx (m ((c : Thread nD τ).loc main_arg2)))) := by
  sl_kernel_rfl

theorem V_v29 (c : Dev nD) : (V m c main_v29 : FVec F S2x4096x1024 .bf16) = stackRows (takeRows (m ((c : Thread nD τ).loc main_arg0)) (endIdx (m ((c : Thread nD τ).loc main_arg1)))) (takeRows (m ((c : Thread nD τ).loc main_arg0)) (endIdx (m ((c : Thread nD τ).loc main_arg2)))) := by
  sl_kernel_rfl

theorem V_v33 (c : Dev nD) : (V m c main_v33 : FVec F S2x1024x1024 .bf16) = stackMats (m ((c : Thread nD τ).loc main_arg3)) (m ((c : Thread nD τ).loc main_arg11)) := by
  sl_kernel_rfl

theorem V_v37 (c : Dev nD) : (V m c main_v37 : FVec F S2x1024x1024 .bf16) = stackMats (m ((c : Thread nD τ).loc main_arg5)) (m ((c : Thread nD τ).loc main_arg13)) := by
  sl_kernel_rfl

theorem V_v41 (c : Dev nD) : (V m c main_v41 : FVec F S2x1024x1024 .bf16) = stackMats (m ((c : Thread nD τ).loc main_arg7)) (m ((c : Thread nD τ).loc main_arg15)) := by
  sl_kernel_rfl

theorem V_v45 (c : Dev nD) : (V m c main_v45 : FVec F S2x1024x1024 .bf16) = stackMats (m ((c : Thread nD τ).loc main_arg9)) (m ((c : Thread nD τ).loc main_arg17)) := by
  sl_kernel_rfl

theorem V_v49 (c : Dev nD) : (V m c main_v49 : FVec F S2x1x1024 .f32) = stackBias (m ((c : Thread nD τ).loc main_arg4)) (m ((c : Thread nD τ).loc main_arg12)) := by
  sl_kernel_rfl

theorem V_v53 (c : Dev nD) : (V m c main_v53 : FVec F S2x1x1024 .f32) = stackBias (m ((c : Thread nD τ).loc main_arg6)) (m ((c : Thread nD τ).loc main_arg14)) := by
  sl_kernel_rfl

theorem V_v57 (c : Dev nD) : (V m c main_v57 : FVec F S2x1x1024 .f32) = stackBias (m ((c : Thread nD τ).loc main_arg8)) (m ((c : Thread nD τ).loc main_arg16)) := by
  sl_kernel_rfl

theorem V_v61 (c : Dev nD) : (V m c main_v61 : FVec F S2x1x1024 .f32) = stackBias (m ((c : Thread nD τ).loc main_arg10)) (m ((c : Thread nD τ).loc main_arg18)) := by
  sl_kernel_rfl

/-! ## The two results, from the region's output array -/

/-- The first result is the premise cut of whatever the region leaves in its output array. -/
theorem tail_v65 (c : Dev nD) :
    (Pipeline.afterTail₀ cfgs (dats m) 0 (V0 m) [hostOps1] c main_v65 : FVec F S16x256x1024 .f32)
      = cutPrem (Pipeline.withArrays spec0 c (V0 m c) (fun w => (dats m 0 c).arrAt w cfg0.N) (Proc.devRef .tc main_v62)) := by
  sl_kernel_rfl

/-- The second result is the hypothesis cut of whatever the region leaves in its output array. -/
theorem tail_v68 (c : Dev nD) :
    (Pipeline.afterTail₀ cfgs (dats m) 0 (V0 m) [hostOps1] c main_v68 : FVec F S16x256x1024 .f32)
      = cutHypo (Pipeline.withArrays spec0 c (V0 m c) (fun w => (dats m 0 c).arrAt w cfg0.N) (Proc.devRef .tc main_v62)) := by
  sl_kernel_rfl

end Cert.KernelHost

end
-- ==== Proof.LibStackSides.lean ====
/-
  TWO SIDES STACKED ALONG A NEW LEADING AXIS, AND SPLIT BACK: the layout operations read at an index.

  Two arrays of one shape are stacked by giving each a leading axis of extent one (a broadcast along the other
  axes) and concatenating along it; the stack's entry (0, …) is the first array's entry and (1, …) the second's.
  Around it, reshapes regroup axes without moving anything in row-major order: [16, 256, 1024] ↔ [4096, 1024]
  sends (b, k, h) to (b·256 + k, h), since (b·256 + k)·1024 + h is the row-major position on both sides.
    (A) rows:     for u, v : [16, 256, 1024],  T = stack (reshape u) (reshape v) : [2, 4096, 1024] has
                  T[0, b·256 + k, h] = u[b, k, h]  and  T[1, b·256 + k, h] = v[b, k, h];
    (B) matrices: for A, B : [1024, 1024],  stack A B : [2, 1024, 1024]  has  [0, o, h] = A[o, h], [1, o, h] = B[o, h];
    (C) biases:   for a, b : [1024],  reshape (stack a b) : [2, 1, 1024]  has  [0, 0, o] = a[o], [1, 0, o] = b[o];
    (D) the split: for Z : [2, 4096, 1024],  reshape (reshape (Z sliced at side s)) : [16, 256, 1024]  has
                  [b, k, o] = Z[s, b·256 + k, o]  for s = 0, 1;
    (E) one side's indices: for a : [16, 1, 2, 256], the slice at j of its reshape to [16, 2, 256], reshaped to
                  [16, 256] and given a trailing unit axis, has  [b, k, 0] = a[b, 0, j, k]  for j = 0, 1.
  Each is proved by reading the operations outermost first, every reshape by the equality of the two row-major
  positions, every slice by adding its offsets, every broadcast by dropping the new axis.
-/
import Idealize.ShloMosaic.Lib.Pipeline.Value
import Idealize.ShloMosaic.Lib.ValueIdx

noncomputable section

namespace Idealize.ShloMosaic.StackSides

open Idealize.ShloMosaic Idealize.ShloMosaic.ValueIdx

local notation "SG" => (⟨3, ![16, 256, 1024]⟩ : Shape)
local notation "SR" => (⟨2, ![4096, 1024]⟩ : Shape)
local notation "SR1" => (⟨3, ![1, 4096, 1024]⟩ : Shape)
local notation "SR2" => (⟨3, ![2, 4096, 1024]⟩ : Shape)
local notation "SW" => (⟨2, ![1024, 1024]⟩ : Shape)
local notation "SW1" => (⟨3, ![1, 1024, 1024]⟩ : Shape)
local notation "SW2" => (⟨3, ![2, 1024, 1024]⟩ : Shape)
local notation "SB" => (⟨1, ![1024]⟩ : Shape)
local notation "SB1" => (⟨2, ![1, 1024]⟩ : Shape)
local notation "SB2" => (⟨2, ![2, 1024]⟩ : Shape)
local notation "SB21" => (⟨3, ![2, 1, 1024]⟩ : Shape)
local notation "SJ4" => (⟨4, ![16, 1, 2, 256]⟩ : Shape)
local notation "SJ3" => (⟨3, ![16, 2, 256]⟩ : Shape)
local notation "SJ1" => (⟨3, ![16, 1, 256]⟩ : Shape)
local notation "SJ" => (⟨2, ![16, 256]⟩ : Shape)
local notation "SJx1" => (⟨3, ![16, 256, 1]⟩ : Shape)

/-- Row b·256 + k of the 4096 rows: the position of (b, k) when [16, 256] is read in row-major order. -/
abbrev rowIx (b : Fin 16) (k : Fin 256) : Fin 4096 := ⟨b.val * 256 + k.val, by omega⟩

/-! ## (A) the two sides' rows, stacked -/

/-- Side 0 of the stacked rows at row `b·256 + k` is `u` at `(b, k, h)`. -/
theorem stackRows_apply_zero {α : Type} (hs : Shape.ShapeCasts SG SR)
    (hb : Shape.BroadcastsInDim SR SR1 (![1, 2] : Fin 2 → Fin (Shape.rank SR1)))
    (hc : Shape.Concatenates [SR1, SR1] SR2 0)
    (u v : Shape.Idx SG → α) (b : Fin 16) (k : Fin 256) (h : Fin 1024) :
    concatenate SR2 0 [⟨SR1, broadcastInDim SR1 ![1, 2] hb (shapeCast SR u hs)⟩,
        ⟨SR1, broadcastInDim SR1 ![1, 2] hb (shapeCast SR v hs)⟩] hc (ix3 0 (rowIx b k) h)
      = u (ix3 b k h) := by
  refine (concatenate_pair_apply_left (t := SR2) 0 _ _ hc (ix3 0 (rowIx b k) h) rfl
    (ix3 (0 : Fin 1) (rowIx b k) h) (fun a => ?_)).trans ?_
  · match a with
    | ⟨0, _⟩ => rfl
    | ⟨1, _⟩ => rfl
    | ⟨2, _⟩ => rfl
  refine (broadcastInDim_apply _ hb _ (ix3 (0 : Fin 1) (rowIx b k) h) (ix2 (rowIx b k) h) (fun a => ?_)).trans ?_
  · match a with
    | ⟨0, _⟩ => rfl
    | ⟨1, _⟩ => rfl
  refine shapeCast_apply u hs (ix2 (rowIx b k) h) (ix3 b k h) ?_
  rewrite [Shape.rowMajor_val_three, Shape.rowMajor_val_two]
  show (b.val * 256 + k.val) * 1024 + h.val = (b.val * 256 + k.val) * 1024 + h.val
  rfl

/-- Side 1 of the stacked rows at row `b·256 + k` is `v` at `(b, k, h)`. -/
theorem stackRows_apply_one {α : Type} (hs : Shape.ShapeCasts SG SR)
    (hb : Shape.BroadcastsInDim SR SR1 (![1, 2] : Fin 2 → Fin (Shape.rank SR1)))
    (hc : Shape.Concatenates [SR1, SR1] SR2 0)
    (u v : Shape.Idx SG → α) (b : Fin 16) (k : Fin 256) (h : Fin 1024) :
    concatenate SR2 0 [⟨SR1, broadcastInDim SR1 ![1, 2] hb (shapeCast SR u hs)⟩,
        ⟨SR1, broadcastInDim SR1 ![1, 2] hb (shapeCast SR v hs)⟩] hc (ix3 1 (rowIx b k) h)
      = v (ix3 b k h) := by
  refine (concatenate_pair_apply_right (t := SR2) 0 _ _ hc (ix3 1 (rowIx b k) h) rfl rfl
    (ix3 (0 : Fin 1) (rowIx b k) h) (fun a ha => ?_) (by rfl)).trans ?_
  · match a with
    | ⟨0, _⟩ => exact absurd rfl ha
    | ⟨1, _⟩ => rfl
    | ⟨2, _⟩ => rfl
  refine (broadcastInDim_apply _ hb _ (ix3 (0 : Fin 1) (rowIx b k) h) (ix2 (rowIx b k) h) (fun a => ?_)).trans ?_
  · match a with
    | ⟨0, _⟩ => rfl
    | ⟨1, _⟩ => rfl
  refine shapeCast_apply v hs (ix2 (rowIx b k) h) (ix3 b k h) ?_
  rewrite [Shape.rowMajor_val_three, Shape.rowMajor_val_two]
  show (b.val * 256 + k.val) * 1024 + h.val = (b.val * 256 + k.val) * 1024 + h.val
  rfl

/-! ## (D) the region's output split back into the two results -/

/-- The first result of the split at `(b, k, o)` is side 0 of `Z` at row `b·256 + k`. -/
theorem splitRows_apply_zero {α : Type} (hsl : Shape.Slices SR2 ![0, 0, 0] SR1)
    (hs1 : Shape.ShapeCasts SR1 SR) (hs2 : Shape.ShapeCasts SR SG)
    (Z : Shape.Idx SR2 → α) (b : Fin 16) (k : Fin 256) (o : Fin 1024) :
    shapeCast SG (shapeCast SR (extractStridedSlice SR1 ![0, 0, 0] Z hsl) hs1) hs2 (ix3 b k o)
      = Z (ix3 0 (rowIx b k) o) := by
  refine (shapeCast_apply _ hs2 (ix3 b k o) (ix2 (rowIx b k) o) ?_).trans ?_
  · rewrite [Shape.rowMajor_val_three, Shape.rowMajor_val_two]
    show (b.val * 256 + k.val) * 1024 + o.val = (b.val * 256 + k.val) * 1024 + o.val
    rfl
  refine (shapeCast_apply _ hs1 (ix2 (rowIx b k) o) (ix3 (0 : Fin 1) (rowIx b k) o) ?_).trans ?_
  · rewrite [Shape.rowMajor_val_three, Shape.rowMajor_val_two]
    show (0 * 4096 + (b.val * 256 + k.val)) * 1024 + o.val = (b.val * 256 + k.val) * 1024 + o.val
    omega
  refine extractStridedSlice_apply _ Z hsl (ix3 (0 : Fin 1) (rowIx b k) o) (ix3 0 (rowIx b k) o) (fun a => ?_)
  match a with
  | ⟨0, _⟩ => rfl
  | ⟨1, _⟩ => show b.val * 256 + k.val = 0 + (b.val * 256 + k.val); omega
  | ⟨2, _⟩ => show o.val = 0 + o.val; omega

/-- The second result of the split at `(b, k, o)` is side 1 of `Z` at row `b·256 + k`. -/
theorem splitRows_apply_one {α : Type} (hsl : Shape.Slices SR2 ![1, 0, 0] SR1)
    (hs1 : Shape.ShapeCasts SR1 SR) (hs2 : Shape.ShapeCasts SR SG)
    (Z : Shape.Idx SR2 → α) (b : Fin 16) (k : Fin 256) (o : Fin 1024) :
    shapeCast SG (shapeCast SR (extractStridedSlice SR1 ![1, 0, 0] Z hsl) hs1) hs2 (ix3 b k o)
      = Z (ix3 1 (rowIx b k) o) := by
  refine (shapeCast_apply _ hs2 (ix3 b k o) (ix2 (rowIx b k) o) ?_).trans ?_
  · rewrite [Shape.rowMajor_val_three, Shape.rowMajor_val_two]
    show (b.val * 256 + k.val) * 1024 + o.val = (b.val * 256 + k.val) * 1024 + o.val
    rfl
  refine (shapeCast_apply _ hs1 (ix2 (rowIx b k) o) (ix3 (0 : Fin 1) (rowIx b k) o) ?_).trans ?_
  · rewrite [Shape.rowMajor_val_three, Shape.rowMajor_val_two]
    show (0 * 4096 + (b.val * 256 + k.val)) * 1024 + o.val = (b.val * 256 + k.val) * 1024 + o.val
    omega
  refine extractStridedSlice_apply _ Z hsl (ix3 (0 : Fin 1) (rowIx b k) o) (ix3 1 (rowIx b k) o) (fun a => ?_)
  match a with
  | ⟨0, _⟩ => rfl
  | ⟨1, _⟩ => show b.val * 256 + k.val = 0 + (b.val * 256 + k.val); omega
  | ⟨2, _⟩ => show o.val = 0 + o.val; omega

/-! ## (B) the two sides' weight matrices, stacked -/

/-- Side 0 of the stacked matrices is the first matrix. -/
theorem stackMats_apply_zero {α : Type}
    (hb : Shape.BroadcastsInDim SW SW1 (![1, 2] : Fin 2 → Fin (Shape.rank SW1)))
    (hc : Shape.Concatenates [SW1, SW1] SW2 0)
    (A B : Shape.Idx SW → α) (o h : Fin 1024) :
    concatenate SW2 0 [⟨SW1, broadcastInDim SW1 ![1, 2] hb A⟩, ⟨SW1, broadcastInDim SW1 ![1, 2] hb B⟩] hc (ix3 0 o h)
      = A (ix2 o h) := by
  refine (concatenate_pair_apply_left (t := SW2) 0 _ _ hc (ix3 0 o h) rfl (ix3 (0 : Fin 1) o h) (fun a => ?_)).trans ?_
  · match a with
    | ⟨0, _⟩ => rfl
    | ⟨1, _⟩ => rfl
    | ⟨2, _⟩ => rfl
  refine broadcastInDim_apply _ hb _ (ix3 (0 : Fin 1) o h) (ix2 o h) (fun a => ?_)
  match a with
  | ⟨0, _⟩ => rfl
  | ⟨1, _⟩ => rfl

/-- Side 1 of the stacked matrices is the second matrix. -/
theorem stackMats_apply_one {α : Type}
    (hb : Shape.BroadcastsInDim SW SW1 (![1, 2] : Fin 2 → Fin (Shape.rank SW1)))
    (hc : Shape.Concatenates [SW1, SW1] SW2 0)
    (A B : Shape.Idx SW → α) (o h : Fin 1024) :
    concatenate SW2 0 [⟨SW1, broadcastInDim SW1 ![1, 2] hb A⟩, ⟨SW1, broadcastInDim SW1 ![1, 2] hb B⟩] hc (ix3 1 o h)
      = B (ix2 o h) := by
  refine (concatenate_pair_apply_right (t := SW2) 0 _ _ hc (ix3 1 o h) rfl rfl (ix3 (0 : Fin 1) o h)
    (fun a ha => ?_) (by rfl)).trans ?_
  · match a with
    | ⟨0, _⟩ => exact absurd rfl ha
    | ⟨1, _⟩ => rfl
    | ⟨2, _⟩ => rfl
  refine broadcastInDim_apply _ hb _ (ix3 (0 : Fin 1) o h) (ix2 o h) (fun a => ?_)
  match a with
  | ⟨0, _⟩ => rfl
  | ⟨1, _⟩ => rfl

/-! ## (C) the two sides' biases, stacked -/

/-- Side 0 of the stacked biases, with its unit middle axis, is the first bias. -/
theorem stackBias_apply_zero {α : Type}
    (hb : Shape.BroadcastsInDim SB SB1 (![1] : Fin 1 → Fin (Shape.rank SB1)))
    (hc : Shape.Concatenates [SB1, SB1] SB2 0) (hs : Shape.ShapeCasts SB2 SB21)
    (a b : Shape.Idx SB → α) (o : Fin 1024) :
    shapeCast SB21 (concatenate SB2 0 [⟨SB1, broadcastInDim SB1 ![1] hb a⟩, ⟨SB1, broadcastInDim SB1 ![1] hb b⟩] hc) hs
        (ix3 0 0 o)
      = a (ix1 o) := by
  refine (shapeCast_apply _ hs (ix3 0 0 o) (ix2 0 o) ?_).trans ?_
  · rewrite [Shape.rowMajor_val_three, Shape.rowMajor_val_two]
    show 0 * 1024 + o.val = (0 * 1 + 0) * 1024 + o.val
    omega
  refine (concatenate_pair_apply_left (t := SB2) 0 _ _ hc (ix2 0 o) rfl (ix2 (0 : Fin 1) o) (fun c => ?_)).trans ?_
  · match c with
    | ⟨0, _⟩ => rfl
    | ⟨1, _⟩ => rfl
  refine broadcastInDim_apply _ hb _ (ix2 (0 : Fin 1) o) (ix1 o) (fun c => ?_)
  match c with
  | ⟨0, _⟩ => rfl

/-- Side 1 of the stacked biases, with its unit middle axis, is the second bias. -/
theorem stackBias_apply_one {α : Type}
    (hb : Shape.BroadcastsInDim SB SB1 (![1] : Fin 1 → Fin (Shape.rank SB1)))
    (hc : Shape.Concatenates [SB1, SB1] SB2 0) (hs : Shape.ShapeCasts SB2 SB21)
    (a b : Shape.Idx SB → α) (o : Fin 1024) :
    shapeCast SB21 (concatenate SB2 0 [⟨SB1, broadcastInDim SB1 ![1] hb a⟩, ⟨SB1, broadcastInDim SB1 ![1] hb b⟩] hc) hs
        (ix3 1 0 o)
      = b (ix1 o) := by
  refine (shapeCast_apply _ hs (ix3 1 0 o) (ix2 1 o) ?_).trans ?_
  · rewrite [Shape.rowMajor_val_three, Shape.rowMajor_val_two]
    show 1 * 1024 + o.val = (1 * 1 + 0) * 1024 + o.val
    omega
  refine (concatenate_pair_apply_right (t := SB2) 0 _ _ hc (ix2 1 o) rfl rfl (ix2 (0 : Fin 1) o)
    (fun c hc' => ?_) (by rfl)).trans ?_
  · match c with
    | ⟨0, _⟩ => exact absurd rfl hc'
    | ⟨1, _⟩ => rfl
  refine broadcastInDim_apply _ hb _ (ix2 (0 : Fin 1) o) (ix1 o) (fun c => ?_)
  match c with
  | ⟨0, _⟩ => rfl

/-! ## (E) one side's indices out of the packed index array -/

/-- Side 0 of the packed indices at `(b, k, 0)` is the packed array at `(b, 0, 0, k)`. -/
theorem sideIdx_apply_zero {α : Type} (hs0 : Shape.ShapeCasts SJ4 SJ3) (hsl : Shape.Slices SJ3 ![0, 0, 0] SJ1)
    (hs1 : Shape.ShapeCasts SJ1 SJ)
    (hb : Shape.BroadcastsInDim SJ SJx1 (![0, 1] : Fin 2 → Fin (Shape.rank SJx1)))
    (a : Shape.Idx SJ4 → α) (b : Fin 16) (k : Fin 256) :
    broadcastInDim SJx1 ![0, 1] hb
        (shapeCast SJ (extractStridedSlice SJ1 ![0, 0, 0] (shapeCast SJ3 a hs0) hsl) hs1) (ix3 b k 0)
      = a (ix4 b 0 0 k) := by
  refine (broadcastInDim_apply _ hb _ (ix3 b k 0) (ix2 b k) (fun c => ?_)).trans ?_
  · match c with
    | ⟨0, _⟩ => rfl
    | ⟨1, _⟩ => rfl
  refine (shapeCast_apply _ hs1 (ix2 b k) (ix3 b (0 : Fin 1) k) ?_).trans ?_
  · rewrite [Shape.rowMajor_val_three, Shape.rowMajor_val_two]
    show (b.val * 1 + 0) * 256 + k.val = b.val * 256 + k.val
    omega
  refine (extractStridedSlice_apply _ _ hsl (ix3 b (0 : Fin 1) k) (ix3 b (0 : Fin 2) k) (fun c => ?_)).trans ?_
  · match c with
    | ⟨0, _⟩ => show b.val = 0 + b.val; omega
    | ⟨1, _⟩ => rfl
    | ⟨2, _⟩ => show k.val = 0 + k.val; omega
  refine shapeCast_apply a hs0 (ix3 b (0 : Fin 2) k) (ix4 b (0 : Fin 1) (0 : Fin 2) k) ?_
  rewrite [Shape.rowMajor_val_four, Shape.rowMajor_val_three]
  show ((b.val * 1 + 0) * 2 + 0) * 256 + k.val = (b.val * 2 + 0) * 256 + k.val
  omega

/-- Side 1 of the packed indices at `(b, k, 0)` is the packed array at `(b, 0, 1, k)`. -/
theorem sideIdx_apply_one {α : Type} (hs0 : Shape.ShapeCasts SJ4 SJ3) (hsl : Shape.Slices SJ3 ![0, 1, 0] SJ1)
    (hs1 : Shape.ShapeCasts SJ1 SJ)
    (hb : Shape.BroadcastsInDim SJ SJx1 (![0, 1] : Fin 2 → Fin (Shape.rank SJx1)))
    (a : Shape.Idx SJ4 → α) (b : Fin 16) (k : Fin 256) :
    broadcastInDim SJx1 ![0, 1] hb
        (shapeCast SJ (extractStridedSlice SJ1 ![0, 1, 0] (shapeCast SJ3 a hs0) hsl) hs1) (ix3 b k 0)
      = a (ix4 b 0 1 k) := by
  refine (broadcastInDim_apply _ hb _ (ix3 b k 0) (ix2 b k) (fun c => ?_)).trans ?_
  · match c with
    | ⟨0, _⟩ => rfl
    | ⟨1, _⟩ => rfl
  refine (shapeCast_apply _ hs1 (ix2 b k) (ix3 b (0 : Fin 1) k) ?_).trans ?_
  · rewrite [Shape.rowMajor_val_three, Shape.rowMajor_val_two]
    show (b.val * 1 + 0) * 256 + k.val = b.val * 256 + k.val
    omega
  refine (extractStridedSlice_apply _ _ hsl (ix3 b (0 : Fin 1) k) (ix3 b (1 : Fin 2) k) (fun c => ?_)).trans ?_
  · match c with
    | ⟨0, _⟩ => show b.val = 0 + b.val; omega
    | ⟨1, _⟩ => rfl
    | ⟨2, _⟩ => show k.val = 0 + k.val; omega
  refine shapeCast_apply a hs0 (ix3 b (1 : Fin 2) k) (ix4 b (0 : Fin 1) (1 : Fin 2) k) ?_
  rewrite [Shape.rowMajor_val_four, Shape.rowMajor_val_three]
  show ((b.val * 1 + 0) * 2 + 1) * 256 + k.val = (b.val * 2 + 1) * 256 + k.val
  omega

end Idealize.ShloMosaic.StackSides

end
-- ==== Proof.KernelHostRead.lean ====
/-
  The host operations around the region, read at an index (at the extended reals).

  Row `b · 256 + k` of side `s` of a stacked row block is row `(b, k)` of that side's selected rows; entry `(s, o, h)` of
  a stacked weight is entry `(o, h)` of that side's matrix, and entry `(s, 0, o)` of a stacked bias entry `o` of that
  side's bias (narrowing a float format is the identity on the extended reals); the premise and hypothesis cuts of
  the stacked output at `(b, k, o)` are its entries `(0, b · 256 + k, o)` and `(1, b · 256 + k, o)`; and for an index in
  range the take reads the row the index selects.
-/
import proofs.«167500_j32667521253810_2_alg».proof.Proof.KernelHost
import proofs.«167500_j32667521253810_2_alg».proof.Proof.LibStackSides
import proofs.«167500_j32667521253810_2_alg».proof.Proof.LibTakeAlongAxis
import proofs.«167500_j32667521253810_2_alg».proof.Proof.Rows
import Idealize.ShloMosaic.Lib.ValueIdx

noncomputable section

namespace Cert.KernelHost

open Idealize.ShloMosaic Idealize.ShloMosaic.ValueIdx Idealize.ShloMosaic.StackSides Idealize.ShloMosaic.TakeAlongAxis
open Cert.KernelIdeal Cert.KernelIdeal.Gen Cert.SpanSpec

/-! ## The stacks -/

theorem stackRows_zero (u v : FVec Ideal S16x256x1024 .f32) (b : Fin 16) (k : Fin 256) (h : Fin 1024) :
    stackRows (F := Ideal) u v (ix3 0 (rowIx b k) h) = u (ix3 b k h) := by
  unfold stackRows
  rw [truncf_apply]
  exact stackRows_apply_zero _ _ _ u v b k h

theorem stackRows_one (u v : FVec Ideal S16x256x1024 .f32) (b : Fin 16) (k : Fin 256) (h : Fin 1024) :
    stackRows (F := Ideal) u v (ix3 1 (rowIx b k) h) = v (ix3 b k h) := by
  unfold stackRows
  rw [truncf_apply]
  exact stackRows_apply_one _ _ _ u v b k h

theorem stackMats_zero (A B : FVec Ideal S1024x1024 .f32) (o h : Fin 1024) :
    stackMats (F := Ideal) A B (ix3 0 o h) = A (ix2 o h) := by
  unfold stackMats
  rw [truncf_apply]
  exact stackMats_apply_zero _ _ A B o h

theorem stackMats_one (A B : FVec Ideal S1024x1024 .f32) (o h : Fin 1024) :
    stackMats (F := Ideal) A B (ix3 1 o h) = B (ix2 o h) := by
  unfold stackMats
  rw [truncf_apply]
  exact stackMats_apply_one _ _ A B o h

theorem stackBias_zero (a b : FVec Ideal S1024 .f32) (o : Fin 1024) :
    stackBias (F := Ideal) a b (ix3 0 0 o) = a (ix1 o) := by
  unfold stackBias
  exact stackBias_apply_zero _ _ _ a b o

theorem stackBias_one (a b : FVec Ideal S1024 .f32) (o : Fin 1024) :
    stackBias (F := Ideal) a b (ix3 1 0 o) = b (ix1 o) := by
  unfold stackBias
  exact stackBias_apply_one _ _ _ a b o

/-! ## The cuts -/

theorem cutPrem_apply (Z : FVec Ideal S2x4096x1024 .f32) (b : Fin 16) (k : Fin 256) (o : Fin 1024) :
    cutPrem (F := Ideal) Z (ix3 b k o) = Z (ix3 0 (rowIx b k) o) := by
  unfold cutPrem
  exact splitRows_apply_zero _ _ _ Z b k o

theorem cutHypo_apply (Z : FVec Ideal S2x4096x1024 .f32) (b : Fin 16) (k : Fin 256) (o : Fin 1024) :
    cutHypo (F := Ideal) Z (ix3 b k o) = Z (ix3 1 (rowIx b k) o) := by
  unfold cutHypo
  exact splitRows_apply_one _ _ _ Z b k o

/-! ## The index columns and the take -/

theorem startIdx_apply (a : IVec S16x1x2x256 32) (b : Fin 16) (k : Fin 256) : startIdx a (ix3 b k 0) = a (ix4 b 0 0 k) := by
  unfold startIdx
  exact sideIdx_apply_zero _ _ _ _ a b k

theorem endIdx_apply (a : IVec S16x1x2x256 32) (b : Fin 16) (k : Fin 256) : endIdx a (ix3 b k 0) = a (ix4 b 0 1 k) := by
  unfold endIdx
  exact sideIdx_apply_one _ _ _ _ a b k

/-- For a start index in range, the selected rows at (b, k, h) are the operand's row `startRow a b k` of batch entry b. -/
theorem takeRows_start (P : FVec Ideal S16x1024x1024 .f32) (a : IVec S16x1x2x256 32) (b : Fin 16) (k : Fin 256) (h : Fin 1024)
    (hlo : -1024 ≤ BitVec.toInt (a (ix4 b 0 0 k))) (hhi : BitVec.toInt (a (ix4 b 0 0 k)) < 1024) :
    takeRows (F := Ideal) P (startIdx a) (ix3 b k h) = P (ix3 b (startRow a b k) h) := by
  have e := startIdx_apply a b k
  have er : ∀ r : BitVec 32 → Fin 1024, r (a (ix4 b 0 0 k)) = r (startIdx a (ix3 b k 0)) := fun r => by rw [e]
  show _ = P (ix3 b (rowOf (a (ix4 b 0 0 k))) h)
  rw [er rowOf]
  unfold takeRows wrapIdx
  exact take_apply _ _ _ _ _ _ gather_S16x1024x1024_S16x256x1_S16x256x1024_2_1_0_0_1_2_111024 rfl rfl rfl rfl rfl rfl rfl
    P (startIdx a) _ b k h (by rw [e]; exact hlo) (by rw [e]; exact hhi)

/-- For an end index in range, the selected rows at (b, k, h) are the operand's row `endRow a b k` of batch entry b. -/
theorem takeRows_end (P : FVec Ideal S16x1024x1024 .f32) (a : IVec S16x1x2x256 32) (b : Fin 16) (k : Fin 256) (h : Fin 1024)
    (hlo : -1024 ≤ BitVec.toInt (a (ix4 b 0 1 k))) (hhi : BitVec.toInt (a (ix4 b 0 1 k)) < 1024) :
    takeRows (F := Ideal) P (endIdx a) (ix3 b k h) = P (ix3 b (endRow a b k) h) := by
  have e := endIdx_apply a b k
  have er : ∀ r : BitVec 32 → Fin 1024, r (a (ix4 b 0 1 k)) = r (endIdx a (ix3 b k 0)) := fun r => by rw [e]
  show _ = P (ix3 b (rowOf (a (ix4 b 0 1 k))) h)
  rw [er rowOf]
  unfold takeRows wrapIdx
  exact take_apply _ _ _ _ _ _ gather_S16x1024x1024_S16x256x1_S16x256x1024_2_1_0_0_1_2_111024 rfl rfl rfl rfl rfl rfl rfl
    P (endIdx a) _ b k h (by rw [e]; exact hlo) (by rw [e]; exact hhi)

end Cert.KernelHost

end
-- ==== Proof.KernelValue.lean ====
/-
  The kernel's two results are the specification.

  The region's output array holds, at (side s, row r, feature o), the specification's cell of rows r of the two stacked
  row blocks, rows o of the four stacked weights and entries o of the four stacked biases, all of side s. Reading the
  stacks back (row b · 256 + k of side s is span k of batch entry b of that side; an in-range index selects its row of
  the hidden states) turns the premise cut into the premise side's specification and the hypothesis cut into the
  hypothesis side's.
-/
import proofs.«167500_j32667521253810_2_alg».proof.Proof.KernelHostRead
import proofs.«167500_j32667521253810_2_alg».proof.Proof.Spec

noncomputable section

namespace Cert.KernelHost

open Idealize.ShloMosaic Idealize.ShloMosaic.ValueIdx Idealize.ShloMosaic.StackSides
open Cert.KernelIdeal Cert.KernelIdeal.Gen Cert.SpanSpec

/-- The stacked result as one function of the region's ten input arrays: cell (s, r, o) from rows (s, r) of the two row
    blocks, rows (s, o) of the four weights and entries (s, 0, o) of the four biases. -/
def stacked (A0 A1 : (⟨3, ![2, 4096, 1024]⟩ : Shape).Idx → EReal) (A2 A3 A4 A5 : (⟨3, ![2, 1024, 1024]⟩ : Shape).Idx → EReal)
    (A6 A7 A8 A9 : (⟨3, ![2, 1, 1024]⟩ : Shape).Idx → EReal) : (⟨3, ![2, 4096, 1024]⟩ : Shape).Idx → EReal :=
  fun i => spanCell (fun h => A0 (ix3 (i 0) (i 1) h)) (fun h => A1 (ix3 (i 0) (i 1) h))
    (fun h => A2 (ix3 (i 0) (i 2) h)) (fun h => A3 (ix3 (i 0) (i 2) h)) (fun h => A4 (ix3 (i 0) (i 2) h)) (fun h => A5 (ix3 (i 0) (i 2) h))
    (A6 (ix3 (i 0) 0 (i 2))) (A7 (ix3 (i 0) 0 (i 2))) (A8 (ix3 (i 0) 0 (i 2))) (A9 (ix3 (i 0) 0 (i 2)))

/-- The premise cut of the stacked result at (b, k, o): the specification's cell of that side's two selected rows,
    four weight rows and four bias entries. -/
theorem prem_cell (x : FVec Ideal S16x1024x1024 .f32) (a1 a2 : IVec S16x1x2x256 32)
    (W1p W1h W2p W2h W3p W3h W4p W4h : FVec Ideal S1024x1024 .f32) (b1p b1h b2p b2h b3p b3h b4p b4h : FVec Ideal S1024 .f32)
    (hv : ∀ i, -1024 ≤ BitVec.toInt (a1 i) ∧ BitVec.toInt (a1 i) < 1024) (b : Fin 16) (k : Fin 256) (o : Fin 1024) :
    cutPrem (F := Ideal) (stacked (stackRows (takeRows x (startIdx a1)) (takeRows x (startIdx a2))) (stackRows (takeRows x (endIdx a1)) (takeRows x (endIdx a2)))
        (stackMats W1p W1h) (stackMats W2p W2h) (stackMats W3p W3h) (stackMats W4p W4h)
        (stackBias b1p b1h) (stackBias b2p b2h) (stackBias b3p b3h) (stackBias b4p b4h)) (ix3 b k o)
      = spanCell (fun h => x (ix3 b (startRow a1 b k) h)) (fun h => x (ix3 b (endRow a1 b k) h))
          (fun h => W1p (ix2 o h)) (fun h => W2p (ix2 o h)) (fun h => W3p (ix2 o h)) (fun h => W4p (ix2 o h))
          (b1p (ix1 o)) (b2p (ix1 o)) (b3p (ix1 o)) (b4p (ix1 o)) := by
  obtain ⟨hs1, hs2⟩ := hv (ix4 b 0 0 k)
  obtain ⟨he1, he2⟩ := hv (ix4 b 0 1 k)
  rw [cutPrem_apply]
  show spanCell (fun h => stackRows (F := Ideal) (takeRows x (startIdx a1)) (takeRows x (startIdx a2)) (ix3 0 (rowIx b k) h))
      (fun h => stackRows (F := Ideal) (takeRows x (endIdx a1)) (takeRows x (endIdx a2)) (ix3 0 (rowIx b k) h))
      (fun h => stackMats (F := Ideal) W1p W1h (ix3 0 o h)) (fun h => stackMats (F := Ideal) W2p W2h (ix3 0 o h))
      (fun h => stackMats (F := Ideal) W3p W3h (ix3 0 o h)) (fun h => stackMats (F := Ideal) W4p W4h (ix3 0 o h))
      (stackBias (F := Ideal) b1p b1h (ix3 0 0 o)) (stackBias (F := Ideal) b2p b2h (ix3 0 0 o))
      (stackBias (F := Ideal) b3p b3h (ix3 0 0 o)) (stackBias (F := Ideal) b4p b4h (ix3 0 0 o)) = _
  simp only [stackRows_zero, stackMats_zero, stackBias_zero,
    fun h => takeRows_start x a1 b k h hs1 hs2, fun h => takeRows_end x a1 b k h he1 he2]

/-- The premise cut of the stacked result is the specification's array of that side. -/
theorem prem_eq (x : FVec Ideal S16x1024x1024 .f32) (a1 a2 : IVec S16x1x2x256 32)
    (W1p W1h W2p W2h W3p W3h W4p W4h : FVec Ideal S1024x1024 .f32) (b1p b1h b2p b2h b3p b3h b4p b4h : FVec Ideal S1024 .f32)
    (hv : ∀ i, -1024 ≤ BitVec.toInt (a1 i) ∧ BitVec.toInt (a1 i) < 1024) :
    cutPrem (F := Ideal) (stacked (stackRows (takeRows x (startIdx a1)) (takeRows x (startIdx a2))) (stackRows (takeRows x (endIdx a1)) (takeRows x (endIdx a2)))
        (stackMats W1p W1h) (stackMats W2p W2h) (stackMats W3p W3h) (stackMats W4p W4h)
        (stackBias b1p b1h) (stackBias b2p b2h) (stackBias b3p b3h) (stackBias b4p b4h))
      = span x W1p W2p W3p W4p b1p b2p b3p b4p (startRow a1) (endRow a1) := by
  funext i
  obtain ⟨b, k, o, rfl⟩ : ∃ (b : Fin 16) (k : Fin 256) (o : Fin 1024), i = ix3 b k o := ⟨i 0, i 1, i 2, eq_ix3 i⟩
  rw [prem_cell x a1 a2 W1p W1h W2p W2h W3p W3h W4p W4h b1p b1h b2p b2h b3p b3h b4p b4h hv b k o]
  rfl

/-- The hypothesis cut of the stacked result at (b, k, o): the specification's cell of that side's two selected rows,
    four weight rows and four bias entries. -/
theorem hypo_cell (x : FVec Ideal S16x1024x1024 .f32) (a1 a2 : IVec S16x1x2x256 32)
    (W1p W1h W2p W2h W3p W3h W4p W4h : FVec Ideal S1024x1024 .f32) (b1p b1h b2p b2h b3p b3h b4p b4h : FVec Ideal S1024 .f32)
    (hv : ∀ i, -1024 ≤ BitVec.toInt (a2 i) ∧ BitVec.toInt (a2 i) < 1024) (b : Fin 16) (k : Fin 256) (o : Fin 1024) :
    cutHypo (F := Ideal) (stacked (stackRows (takeRows x (startIdx a1)) (takeRows x (startIdx a2))) (stackRows (takeRows x (endIdx a1)) (takeRows x (endIdx a2)))
        (stackMats W1p W1h) (stackMats W2p W2h) (stackMats W3p W3h) (stackMats W4p W4h)
        (stackBias b1p b1h) (stackBias b2p b2h) (stackBias b3p b3h) (stackBias b4p b4h)) (ix3 b k o)
      = spanCell (fun h => x (ix3 b (startRow a2 b k) h)) (fun h => x (ix3 b (endRow a2 b k) h))
          (fun h => W1h (ix2 o h)) (fun h => W2h (ix2 o h)) (fun h => W3h (ix2 o h)) (fun h => W4h (ix2 o h))
          (b1h (ix1 o)) (b2h (ix1 o)) (b3h (ix1 o)) (b4h (ix1 o)) := by
  obtain ⟨hs1, hs2⟩ := hv (ix4 b 0 0 k)
  obtain ⟨he1, he2⟩ := hv (ix4 b 0 1 k)
  rw [cutHypo_apply]
  show spanCell (fun h => stackRows (F := Ideal) (takeRows x (startIdx a1)) (takeRows x (startIdx a2)) (ix3 1 (rowIx b k) h))
      (fun h => stackRows (F := Ideal) (takeRows x (endIdx a1)) (takeRows x (endIdx a2)) (ix3 1 (rowIx b k) h))
      (fun h => stackMats (F := Ideal) W1p W1h (ix3 1 o h)) (fun h => stackMats (F := Ideal) W2p W2h (ix3 1 o h))
      (fun h => stackMats (F := Ideal) W3p W3h (ix3 1 o h)) (fun h => stackMats (F := Ideal) W4p W4h (ix3 1 o h))
      (stackBias (F := Ideal) b1p b1h (ix3 1 0 o)) (stackBias (F := Ideal) b2p b2h (ix3 1 0 o))
      (stackBias (F := Ideal) b3p b3h (ix3 1 0 o)) (stackBias (F := Ideal) b4p b4h (ix3 1 0 o)) = _
  simp only [stackRows_one, stackMats_one, stackBias_one,
    fun h => takeRows_start x a2 b k h hs1 hs2, fun h => takeRows_end x a2 b k h he1 he2]

/-- The hypothesis cut of the stacked result is the specification's array of that side. -/
theorem hypo_eq (x : FVec Ideal S16x1024x1024 .f32) (a1 a2 : IVec S16x1x2x256 32)
    (W1p W1h W2p W2h W3p W3h W4p W4h : FVec Ideal S1024x1024 .f32) (b1p b1h b2p b2h b3p b3h b4p b4h : FVec Ideal S1024 .f32)
    (hv : ∀ i, -1024 ≤ BitVec.toInt (a2 i) ∧ BitVec.toInt (a2 i) < 1024) :
    cutHypo (F := Ideal) (stacked (stackRows (takeRows x (startIdx a1)) (takeRows x (startIdx a2))) (stackRows (takeRows x (endIdx a1)) (takeRows x (endIdx a2)))
        (stackMats W1p W1h) (stackMats W2p W2h) (stackMats W3p W3h) (stackMats W4p W4h)
        (stackBias b1p b1h) (stackBias b2p b2h) (stackBias b3p b3h) (stackBias b4p b4h))
      = span x W1h W2h W3h W4h b1h b2h b3h b4h (startRow a2) (endRow a2) := by
  funext i
  obtain ⟨b, k, o, rfl⟩ : ∃ (b : Fin 16) (k : Fin 256) (o : Fin 1024), i = ix3 b k o := ⟨i 0, i 1, i 2, eq_ix3 i⟩
  rw [hypo_cell x a1 a2 W1p W1h W2p W2h W3p W3h W4p W4h b1p b1h b2p b2h b3p b3h b4p b4h hv b k o]
  rfl

end Cert.KernelHost

end
-- ==== Proof.IndexDomain.lean ====
/-
  The domain of the two index inputs, read off the precondition.

  The precondition is a conjunction whose last two conjuncts say, of every entry `v` of the premise and of the
  hypothesis index array, `-1024 ≤ v` and `v < 1024` as signed 32-bit integers: an index into the sequence axis
  of extent 1024, a negative one counting from the end. Only these two conjuncts are opened here; the
  finiteness conjuncts before them are not used by this certificate (projecting selected rows and selecting
  projected rows are the same sums, with or without infinities).
-/
import proofs.«167500_j32667521253810_2_alg».proof.Pre_finite_inputs
import Idealize.ShloMosaic.Lib.ReduceAll
import Idealize.ShloMosaic.Lib.Affine
import Idealize.ShloMosaic.Lib.ValueIdx

noncomputable section

namespace Cert.IndexDomain

open Idealize.ShloMosaic Cert.Pre_finite_inputs

/-- A shape of rank 0 has one index. -/
instance : Subsingleton S_.Idx := ⟨fun _ _ => funext fun d => d.elim0⟩

/-- The word `0xFFFFFC00` is `-1024` read signed, and `0x400` is `1024`. -/
theorem toInt_neg1024 : (4294966272#32 : BitVec 32).toInt = -1024 := by decide
theorem toInt_1024 : (1024#32 : BitVec 32).toInt = 1024 := by decide

variable {F : FTy → Type} [FloatOps F] [Facts]
variable {a0 : FVec F S16x1024x1024 .f32} {a1 a2 : IVec S16x1x2x256 32}
  {a3 : FVec F S1024x1024 .f32} {a4 : FVec F S1024 .f32} {a5 : FVec F S1024x1024 .f32} {a6 : FVec F S1024 .f32}
  {a7 : FVec F S1024x1024 .f32} {a8 : FVec F S1024 .f32} {a9 : FVec F S1024x1024 .f32} {a10 : FVec F S1024 .f32}
  {a11 : FVec F S1024x1024 .f32} {a12 : FVec F S1024 .f32} {a13 : FVec F S1024x1024 .f32} {a14 : FVec F S1024 .f32}
  {a15 : FVec F S1024x1024 .f32} {a16 : FVec F S1024 .f32} {a17 : FVec F S1024x1024 .f32} {a18 : FVec F S1024 .f32}

/-- Under the precondition every entry of either index array lies in `[-1024, 1024)` as a signed integer. -/
theorem bounds (h : fn (F := F) a0 a1 a2 a3 a4 a5 a6 a7 a8 a9 a10 a11 a12 a13 a14 a15 a16 a17 a18 = fun _ => 1#1) :
    (∀ i, -1024 ≤ (a1 i).toInt ∧ (a1 i).toInt < 1024) ∧ (∀ i, -1024 ≤ (a2 i).toInt ∧ (a2 i).toInt < 1024) := by
  have h0 := congrFun h ValueIdx.ix0
  simp only [fn, fn_part1, fn_part2, fn_part3, fn_part4, fn_part5] at h0
  obtain ⟨h1, hH⟩ := IntOp.andi_eq_one.mp h0
  obtain ⟨_, hP⟩ := IntOp.andi_eq_one.mp h1
  refine ⟨fun i => ?_, fun i => ?_⟩
  · obtain ⟨hge, hlt⟩ := IntOp.andi_eq_one.mp (Host.reduce_andi_all _ _ _ _ _ hP i)
    have hge' := IntOp.cmpi_sge.mp hge
    have hlt' := IntOp.cmpi_slt.mp hlt
    exact ⟨toInt_neg1024 ▸ hge', toInt_1024 ▸ hlt'⟩
  · obtain ⟨hge, hlt⟩ := IntOp.andi_eq_one.mp (Host.reduce_andi_all _ _ _ _ _ hH i)
    have hge' := IntOp.cmpi_sge.mp hge
    have hlt' := IntOp.cmpi_slt.mp hlt
    exact ⟨toInt_neg1024 ▸ hge', toInt_1024 ▸ hlt'⟩

end Cert.IndexDomain

end
-- ==== Proof.KernelRun.lean ====
/-
  The kernel's run, with its two results named.

  Every weakly fair execution of the idealized kernel program terminates with its first result at the premise
  side's specification and its second at the hypothesis side's, the arguments unchanged: the frame run leaves the
  region's output array at the stacked result (each block is what its grid point wrote, and the blocks cover the
  array), the host operations after the region cut it into the two sides, and under the precondition every index is
  in range, so each cut is that side's specification.
-/
import proofs.«167500_j32667521253810_2_alg».proof.Proof.KernelBlocks
import proofs.«167500_j32667521253810_2_alg».proof.Proof.KernelValue
import proofs.«167500_j32667521253810_2_alg».proof.Proof.IndexDomain
import proofs.«167500_j32667521253810_2_alg».proof.Defs
import proofs.«167500_j32667521253810_2_alg».proof.Proof.Gen.Pre_finite_inputs

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.KernelHost Cert.SpanSpec

variable (m : (ℓ : Loc nD τ sig) → Buf (Elt Ideal) ℓ) (ρ : Dev nD → PrngReg)

/-- The first result the kernel's run leaves on core `c`: the premise side's specification of the launch contents of the
    argument arrays (stated at the result buffer's own type). -/
def out0 (c : Dev nD) : Buf (Elt Ideal) ((c.tc : Thread nD τ).loc main_v65) :=
  span (m ((c.tc : Thread nD τ).loc main_arg0)) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg4)) (m ((c.tc : Thread nD τ).loc main_arg6)) (m ((c.tc : Thread nD τ).loc main_arg8)) (m ((c.tc : Thread nD τ).loc main_arg10)) (startRow (m ((c.tc : Thread nD τ).loc main_arg1))) (endRow (m ((c.tc : Thread nD τ).loc main_arg1)))

/-- The second result: the hypothesis side's specification. -/
def out1 (c : Dev nD) : Buf (Elt Ideal) ((c.tc : Thread nD τ).loc main_v68) :=
  span (m ((c.tc : Thread nD τ).loc main_arg0)) (m ((c.tc : Thread nD τ).loc main_arg11)) (m ((c.tc : Thread nD τ).loc main_arg13)) (m ((c.tc : Thread nD τ).loc main_arg15)) (m ((c.tc : Thread nD τ).loc main_arg17)) (m ((c.tc : Thread nD τ).loc main_arg12)) (m ((c.tc : Thread nD τ).loc main_arg14)) (m ((c.tc : Thread nD τ).loc main_arg16)) (m ((c.tc : Thread nD τ).loc main_arg18)) (startRow (m ((c.tc : Thread nD τ).loc main_arg2))) (endRow (m ((c.tc : Thread nD τ).loc main_arg2)))

/-- What the region leaves in its output array, as the stacked result of the explicit host terms. -/
theorem region_out (c : Dev nD) :
    ((dats (F := Ideal) m 0 c).arrAt 10 cfg0.N : FVec Ideal S2x4096x1024 .f32)
      = stacked (stackRows (F := Ideal) (takeRows (F := Ideal) (m ((c.tc : Thread nD τ).loc main_arg0)) (startIdx (m ((c.tc : Thread nD τ).loc main_arg1)))) (takeRows (F := Ideal) (m ((c.tc : Thread nD τ).loc main_arg0)) (startIdx (m ((c.tc : Thread nD τ).loc main_arg2)))))
          (stackRows (F := Ideal) (takeRows (F := Ideal) (m ((c.tc : Thread nD τ).loc main_arg0)) (endIdx (m ((c.tc : Thread nD τ).loc main_arg1)))) (takeRows (F := Ideal) (m ((c.tc : Thread nD τ).loc main_arg0)) (endIdx (m ((c.tc : Thread nD τ).loc main_arg2)))))
          (stackMats (F := Ideal) (m ((c.tc : Thread nD τ).loc main_arg3)) (m ((c.tc : Thread nD τ).loc main_arg11))) (stackMats (F := Ideal) (m ((c.tc : Thread nD τ).loc main_arg5)) (m ((c.tc : Thread nD τ).loc main_arg13)))
          (stackMats (F := Ideal) (m ((c.tc : Thread nD τ).loc main_arg7)) (m ((c.tc : Thread nD τ).loc main_arg15))) (stackMats (F := Ideal) (m ((c.tc : Thread nD τ).loc main_arg9)) (m ((c.tc : Thread nD τ).loc main_arg17)))
          (stackBias (F := Ideal) (m ((c.tc : Thread nD τ).loc main_arg4)) (m ((c.tc : Thread nD τ).loc main_arg12))) (stackBias (F := Ideal) (m ((c.tc : Thread nD τ).loc main_arg6)) (m ((c.tc : Thread nD τ).loc main_arg14)))
          (stackBias (F := Ideal) (m ((c.tc : Thread nD τ).loc main_arg8)) (m ((c.tc : Thread nD τ).loc main_arg16))) (stackBias (F := Ideal) (m ((c.tc : Thread nD τ).loc main_arg10)) (m ((c.tc : Thread nD τ).loc main_arg18))) := by
  rw [← V_v23 m c, ← V_v29 m c, ← V_v33 m c, ← V_v37 m c, ← V_v41 m c, ← V_v45 m c, ← V_v49 m c, ← V_v53 m c, ← V_v57 m c, ← V_v61 m c]
  exact Cert.KernelBlocks.final m c

/-- Under the precondition both index inputs are in range. -/
theorem in_range (hpre : Cert.Pre_KernelIdeal m) (c : Dev nD) :
    (∀ i, -1024 ≤ BitVec.toInt ((m ((c.tc : Thread nD τ).loc main_arg1)) i) ∧ BitVec.toInt ((m ((c.tc : Thread nD τ).loc main_arg1)) i) < 1024)
      ∧ (∀ i, -1024 ≤ BitVec.toInt ((m ((c.tc : Thread nD τ).loc main_arg2)) i) ∧ BitVec.toInt ((m ((c.tc : Thread nD τ).loc main_arg2)) i) < 1024) :=
  Cert.IndexDomain.bounds (hpre c)

/-- The first result: the premise side's specification. -/
theorem res_prem (hpre : Cert.Pre_KernelIdeal m) (c : Dev nD) :
    Pipeline.afterTail₀ cfgs (dats m) 0 (V0 m) [hostOps1] c main_v65 = out0 m c := by
  show (Pipeline.afterTail₀ cfgs (dats m) 0 (V0 m) [hostOps1] c main_v65 : FVec Ideal S16x256x1024 .f32) = span (m ((c.tc : Thread nD τ).loc main_arg0)) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg4)) (m ((c.tc : Thread nD τ).loc main_arg6)) (m ((c.tc : Thread nD τ).loc main_arg8)) (m ((c.tc : Thread nD τ).loc main_arg10)) (startRow (m ((c.tc : Thread nD τ).loc main_arg1))) (endRow (m ((c.tc : Thread nD τ).loc main_arg1)))
  rw [tail_v65 m c, show (Pipeline.withArrays spec0 c (V0 m c) (fun w => (dats m 0 c).arrAt w cfg0.N) (Proc.devRef .tc main_v62) : FVec Ideal S2x4096x1024 .f32)
      = (dats m 0 c).arrAt 10 cfg0.N from Pipeline.withArrays_arr spec0 launch0.win.arr_inj c (V0 m c) (fun w => (dats m 0 c).arrAt w cfg0.N) 10,
    region_out m c]
  exact prem_eq _ _ _ _ _ _ _ _ _ _ _ _ _ _ _ _ _ _ _ (in_range m hpre c).1

/-- The second result: the hypothesis side's specification. -/
theorem res_hypo (hpre : Cert.Pre_KernelIdeal m) (c : Dev nD) :
    Pipeline.afterTail₀ cfgs (dats m) 0 (V0 m) [hostOps1] c main_v68 = out1 m c := by
  show (Pipeline.afterTail₀ cfgs (dats m) 0 (V0 m) [hostOps1] c main_v68 : FVec Ideal S16x256x1024 .f32) = span (m ((c.tc : Thread nD τ).loc main_arg0)) (m ((c.tc : Thread nD τ).loc main_arg11)) (m ((c.tc : Thread nD τ).loc main_arg13)) (m ((c.tc : Thread nD τ).loc main_arg15)) (m ((c.tc : Thread nD τ).loc main_arg17)) (m ((c.tc : Thread nD τ).loc main_arg12)) (m ((c.tc : Thread nD τ).loc main_arg14)) (m ((c.tc : Thread nD τ).loc main_arg16)) (m ((c.tc : Thread nD τ).loc main_arg18)) (startRow (m ((c.tc : Thread nD τ).loc main_arg2))) (endRow (m ((c.tc : Thread nD τ).loc main_arg2)))
  rw [tail_v68 m c, show (Pipeline.withArrays spec0 c (V0 m c) (fun w => (dats m 0 c).arrAt w cfg0.N) (Proc.devRef .tc main_v62) : FVec Ideal S2x4096x1024 .f32)
      = (dats m 0 c).arrAt 10 cfg0.N from Pipeline.withArrays_arr spec0 launch0.win.arr_inj c (V0 m c) (fun w => (dats m 0 c).arrAt w cfg0.N) 10,
    region_out m c]
  exact hypo_eq _ _ _ _ _ _ _ _ _ _ _ _ _ _ _ _ _ _ _ (in_range m hpre c).2

set_option maxHeartbeats 1600000 in
/-- THE KERNEL'S RUN: both results at the specification, the arguments unchanged. -/
theorem run (hpre : Cert.Pre_KernelIdeal m) :
    θ_run defs (onTc (τ := τ) (main (F := Ideal))) ⟨m, fun _ => 0, ρ⟩ (fun r => ∀ c : Dev nD,
      r.2.mem ((c.tc : Thread nD τ).loc main_v65) = out0 m c
      ∧ r.2.mem ((c.tc : Thread nD τ).loc main_v68) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨
      (((h c).2 main_v65 (Pipeline.mem_restRefs_of main_v65 (by decide) (by decide))).trans (res_prem m hpre c)),
      (((h c).2 main_v68 (Pipeline.mem_restRefs_of main_v68 (by decide) (by decide))).trans (res_hypo m hpre c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c))⟩) (run_main m ρ)

end Cert.KernelRun

end
-- ==== Proof.lean ====
/-
  Two programs for the span representations of a premise and a hypothesis, equal over the extended reals.

  Both take the hidden states x : [16, 1024, 1024], for each side an index array of span starts and ends, and for each
  side four linear projections (W_j, b_j). For a side, a batch entry b, a span k with start row s and end row e,
  and a feature o, with P_j(t) = (∑ h, x(b,t,h) · W_j(o,h)) + b_j(o):

      out(b,k,o) = tanh ( (P_1(s) + P_2(e)) + (P_3(s) − P_3(e)) + P_4(s) · P_4(e) ).

  The reference projects the whole sequence four times and then selects rows (six gathers per side); the kernel selects
  the two rows first, stacks the two sides, and computes the six projections of the selected rows in one grid of
  2 × 8 blocks of 512 rows. A linear projection acts on each row by itself, so both compute the same sums of the
  same terms: no law of the extended reals beyond reading both sides at an index is used, and the finiteness
  conjuncts of the precondition are not opened. What IS used of the precondition is that every index lies in
  [-1024, 1024): outside that range the selection fills the row with a junk value, the reference after projecting and
  the kernel before, and the two differ.

  The three frames are the generated frame runs (the reference's through its generated run with the results dropped);
  there is nothing to preserve (the idealization rewrote no operation); the equality of the results is the kernel's
  run and the reference's run, both read as the specification (Spec.lean).
-/
import proofs.«167500_j32667521253810_2_alg».proof.Defs
import proofs.«167500_j32667521253810_2_alg».proof.Proof.Gen.Kernel
import proofs.«167500_j32667521253810_2_alg».proof.Proof.Gen.Kernel.Frame
import proofs.«167500_j32667521253810_2_alg».proof.Proof.Gen.KernelIdeal
import proofs.«167500_j32667521253810_2_alg».proof.Proof.Gen.KernelIdeal.Frame
import proofs.«167500_j32667521253810_2_alg».proof.Proof.Gen.ReferenceIdeal
import proofs.«167500_j32667521253810_2_alg».proof.Proof.Gen.Pre_finite_inputs
import proofs.«167500_j32667521253810_2_alg».proof.Proof.RefRun
import proofs.«167500_j32667521253810_2_alg».proof.Proof.RefRead
import proofs.«167500_j32667521253810_2_alg».proof.Proof.RefRunRead
import proofs.«167500_j32667521253810_2_alg».proof.Proof.RefRunValue
import proofs.«167500_j32667521253810_2_alg».proof.Proof.KernelRun
import Idealize.ShloMosaic.Adequacy
import Idealize.ShloMosaic.Init

noncomputable section

namespace Cert.Proof

open Idealize.ShloMosaic Idealize.SL.Sem

/-- The word-level kernel's frame: its generated frame run. -/
theorem frame_k : Cert.frame_Kernel := fun m ρ _ => Cert.Kernel.Gen.frame m ρ

/-- The idealized kernel's frame: its generated frame run. -/
theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- From memories agreeing on the arguments, the kernel's two results and the reference's are the two sides'
    specification of the same arrays: the kernel's run names them as the specification of its own argument arrays, the
    reference's run as the specification of its own, and the agreements carry the one to the other. -/
theorem algebraic : Cert.algebraic_KernelIdeal_ReferenceIdeal := by
  intro m ρ m' ρ' hpre hagree
  refine ⟨Cert.KernelRun.out0 m, Cert.KernelRun.out1 m, Cert.KernelRun.run m ρ hpre, ?_⟩
  refine (θ_run Cert.ReferenceIdeal.defs _ _).mono (fun _ h c => ?_) (Cert.ReferenceIdeal.ValueP.run (F := Ideal) m' ρ')
  obtain ⟨h0, h1, h2, h3, h4, h5, h6, h7, h8, h9, h10, h11, h12, h13, h14, h15, h16, h17, h18⟩ := hagree c
  have hr := Cert.KernelRun.in_range m hpre c
  have hv1 : ∀ i, -1024 ≤ BitVec.toInt ((m' ((c.tc : Thread Cert.ReferenceIdeal.nD Cert.ReferenceIdeal.τ).loc Cert.ReferenceIdeal.main_arg1)) i) ∧ BitVec.toInt ((m' ((c.tc : Thread Cert.ReferenceIdeal.nD Cert.ReferenceIdeal.τ).loc Cert.ReferenceIdeal.main_arg1)) i) < 1024 := by
    rw [h1]; exact hr.1
  have hv2 : ∀ i, -1024 ≤ BitVec.toInt ((m' ((c.tc : Thread Cert.ReferenceIdeal.nD Cert.ReferenceIdeal.τ).loc Cert.ReferenceIdeal.main_arg2)) i) ∧ BitVec.toInt ((m' ((c.tc : Thread Cert.ReferenceIdeal.nD Cert.ReferenceIdeal.τ).loc Cert.ReferenceIdeal.main_arg2)) i) < 1024 := by
    rw [h2]; exact hr.2
  refine ⟨(h c).1.trans ?_, (h c).2.1.trans ?_, (h c).2.2⟩
  · rw [Cert.RefValue.prem_run m' c hv1, h0, h1, h3, h4, h5, h6, h7, h8, h9, h10]
    rfl
  · rw [Cert.RefValue.hypo_run m' c hv2, h0, h2, h11, h12, h13, h14, h15, h16, h17, h18]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
